-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S16x524288x4 : Shape := ⟨3, ![16, 524288, 4]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S16x524288x4 : S_.BroadcastsInDim S16x524288x4 (![] : Fin 0 → Fin S16x524288x4.rank)
  reducesTo_S16x524288x4_S_d0_1_2 : S16x524288x4.ReducesTo [0, 1, 2] S_

variable [Facts]

def fn {F : FTy → Type} [FloatOps F] (main_arg0 : FVec F S2097152 .f32) (main_arg1 : FVec F S16x524288x4 .f32) : IVec S_ 1 :=
  let main_v0 : FVec F S2097152 .f32 := Host.absf main_arg0
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S16x524288x4 .f32 := Host.absf main_arg1
  let main_cst_0 : FVec F S_ .f32 := constant S_ .f32 0x7F800000#32
  let main_v5 : FVec F S16x524288x4 .f32 := broadcastInDim S16x524288x4 ![] bcast_S_S16x524288x4 main_cst_0
  let main_v6 : IVec S16x524288x4 1 := cmpf .olt main_v4 main_v5
  let main_c_1 : IVec S_ 1 := constantI S_ 1 1#1
  let main_v7 : IVec S_ 1 := (fun x v => Host.reduce IntOp.andi x v reducesTo_S16x524288x4_S_d0_1_2 h_S_) main_v6 main_c_1
  let main_v8 : IVec S_ 1 := andi main_v3 main_v7
  main_v8
-- ==== Kernel.lean ====
abbrev S2097152 : Shape := ⟨1, ![2097152]⟩
abbrev S16x524288x4 : Shape := ⟨3, ![16, 524288, 4]⟩
abbrev S16 : Shape := ⟨1, ![16]⟩
abbrev S32x128 : Shape := ⟨2, ![32, 128]⟩
abbrev S_ : Shape := ⟨0, ![]⟩
abbrev S2097152x1 : Shape := ⟨2, ![2097152, 1]⟩
abbrev S1x16 : Shape := ⟨2, ![1, 16]⟩
abbrev S2097152x16 : Shape := ⟨2, ![2097152, 16]⟩
abbrev S2097152x16x1 : Shape := ⟨3, ![2097152, 16, 1]⟩
abbrev S2097152x16x2 : Shape := ⟨3, ![2097152, 16, 2]⟩
abbrev S2097152x16x4 : Shape := ⟨3, ![2097152, 16, 4]⟩
abbrev S2097152x64 : Shape := ⟨2, ![2097152, 64]⟩
abbrev S1048576x128 : Shape := ⟨2, ![1048576, 128]⟩
abbrev S1048576x32 : Shape := ⟨2, ![1048576, 32]⟩
abbrev S8192x128 : Shape := ⟨2, ![8192, 128]⟩
abbrev S8192x32 : Shape := ⟨2, ![8192, 32]⟩

abbrev nBuf : Space → Nat
  | .hbm => 143
  | .vmem => 9
  | .smem => 0
  | _ => 0

abbrev hbmTy0_0 (i : Nat) : BufTy := match i % 128 with
  | 0 => ⟨S2097152, .f32⟩
  | 1 => ⟨S16x524288x4, .f32⟩
  | 2 => ⟨S16, .i32⟩
  | 3 => ⟨S32x128, .f32⟩
  | 4 => ⟨S16, .i32⟩
  | 5 => ⟨S_, .f32⟩
  | 6 => ⟨S_, .f32⟩
  | 7 => ⟨S_, .f32⟩
  | 8 => ⟨S2097152, .f32⟩
  | 9 => ⟨S2097152, .f32⟩
  | 10 => ⟨S_, .f32⟩
  | 11 => ⟨S2097152, .f32⟩
  | 12 => ⟨S2097152, .f32⟩
  | 13 => ⟨S_, .i32⟩
  | 14 => ⟨S16, .i32⟩
  | 15 => ⟨S16, .i32⟩
  | 16 => ⟨S16, .f32⟩
  | 17 => ⟨S2097152x1, .f32⟩
  | 18 => ⟨S1x16, .f32⟩
  | 19 => ⟨S2097152x16, .f32⟩
  | 20 => ⟨S2097152x16, .f32⟩
  | 21 => ⟨S2097152x16, .f32⟩
  | 22 => ⟨S2097152x16, .f32⟩
  | 23 => ⟨S2097152x16, .i32⟩
  | 24 => ⟨S_, .i32⟩
  | 25 => ⟨S2097152x16, .i32⟩
  | 26 => ⟨S2097152x16, .i32⟩
  | 27 => ⟨S_, .i32⟩
  | 28 => ⟨S16, .i32⟩
  | 29 => ⟨S16, .i32⟩
  | 30 => ⟨S1x16, .i32⟩
  | 31 => ⟨S2097152x16, .i32⟩
  | 32 => ⟨S2097152x16, .i32⟩
  | 33 => ⟨S2097152x16, .f32⟩
  | 34 => ⟨S2097152x16, .f32⟩
  | 35 => ⟨S_, .i32⟩
  | 36 => ⟨S2097152x16, .i32⟩
  | 37 => ⟨S2097152x16, .i32⟩
  | 38 => ⟨S1x16, .i32⟩
  | 39 => ⟨S_, .i32⟩
  | 40 => ⟨S1x16, .i32⟩
  | 41 => ⟨S1x16, .i32⟩
  | 42 => ⟨S2097152x16, .i32⟩
  | 43 => ⟨S2097152x16, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S2097152x16, .i32⟩
  | 51 => ⟨S2097152x16, .i32⟩
  | 52 => ⟨S_, .i32⟩
  | 53 => ⟨S2097152x16, .i32⟩
  | 54 => ⟨S2097152x16, .i1⟩
  | 55 => ⟨S_, .i32⟩
  | 56 => ⟨S2097152x16, .i32⟩
  | 57 => ⟨S2097152x16, .i1⟩
  | 58 => ⟨S_, .i32⟩
  | 59 => ⟨S_, .i1⟩
  | 60 => ⟨S2097152x16, .i1⟩
  | 61 => ⟨S2097152x16, .i1⟩
  | 62 => ⟨S2097152x16, .i1⟩
  | 63 => ⟨S2097152x16, .i32⟩
  | 64 => ⟨S2097152x16, .i32⟩
  | 65 => ⟨S2097152x16, .i32⟩
  | 66 => ⟨S_, .i32⟩
  | 67 => ⟨S2097152x16, .i32⟩
  | 68 => ⟨S2097152x16, .i32⟩
  | 69 => ⟨S1x16, .i32⟩
  | 70 => ⟨S_, .i32⟩
  | 71 => ⟨S1x16, .i32⟩
  | 72 => ⟨S1x16, .i32⟩
  | 73 => ⟨S2097152x16, .i32⟩
  | 74 => ⟨S2097152x16, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S2097152x16, .i32⟩
  | 82 => ⟨S2097152x16, .i32⟩
  | 83 => ⟨S_, .i32⟩
  | 84 => ⟨S2097152x16, .i32⟩
  | 85 => ⟨S2097152x16, .i1⟩
  | 86 => ⟨S_, .i32⟩
  | 87 => ⟨S2097152x16, .i32⟩
  | 88 => ⟨S2097152x16, .i1⟩
  | 89 => ⟨S_, .i32⟩
  | 90 => ⟨S_, .i1⟩
  | 91 => ⟨S2097152x16, .i1⟩
  | 92 => ⟨S2097152x16, .i1⟩
  | 93 => ⟨S2097152x16, .i1⟩
  | 94 => ⟨S2097152x16, .i32⟩
  | 95 => ⟨S2097152x16, .i32⟩
  | 96 => ⟨S2097152x16, .i32⟩
  | 97 => ⟨S1x16, .i32⟩
  | 98 => ⟨S_, .i32⟩
  | 99 => ⟨S1x16, .i32⟩
  | 100 => ⟨S1x16, .i1⟩
  | 101 => ⟨S_, .i32⟩
  | 102 => ⟨S1x16, .i32⟩
  | 103 => ⟨S1x16, .i32⟩
  | 104 => ⟨S1x16, .i32⟩
  | 105 => ⟨S_, .i32⟩
  | 106 => ⟨S2097152x16, .i32⟩
  | 107 => ⟨S2097152x16, .i1⟩
  | 108 => ⟨S_, .i32⟩
  | 109 => ⟨S2097152x16, .i32⟩
  | 110 => ⟨S2097152x16, .i32⟩
  | 111 => ⟨S2097152x16, .i32⟩
  | 112 => ⟨S2097152x16, .i32⟩
  | 113 => ⟨S2097152x16x1, .i32⟩
  | 114 => ⟨S2097152x16x1, .i32⟩
  | 115 => ⟨S2097152x16x2, .i32⟩
  | 116 => ⟨S2097152x16x4, .f32⟩
  | 117 => ⟨S_, .i32⟩
  | 118 => ⟨S1x16, .i32⟩
  | 119 => ⟨S1x16, .i1⟩
  | 120 => ⟨S_, .i32⟩
  | 121 => ⟨S1x16, .i32⟩
  | 122 => ⟨S1x16, .i32⟩
  | 123 => ⟨S1x16, .i32⟩
  | 124 => ⟨S_, .i32⟩
  | 125 => ⟨S2097152x16, .i32⟩
  | 126 => ⟨S2097152x16, .i1⟩
  | 127 => ⟨S_, .i32⟩
  | _ => ⟨S2097152, .f32⟩

abbrev hbmTy0_1 (i : Nat) : BufTy := match i % 128 with
  | 0 => ⟨S2097152x16, .i32⟩
  | 1 => ⟨S2097152x16, .i32⟩
  | 2 => ⟨S2097152x16, .i32⟩
  | 3 => ⟨S2097152x16, .i32⟩
  | 4 => ⟨S2097152x16x1, .i32⟩
  | 5 => ⟨S2097152x16x1, .i32⟩
  | 6 => ⟨S2097152x16x2, .i32⟩
  | 7 => ⟨S2097152x16x4, .f32⟩
  | 8 => ⟨S2097152x64, .f32⟩
  | 9 => ⟨S2097152x64, .f32⟩
  | 10 => ⟨S1048576x128, .f32⟩
  | 11 => ⟨S1048576x128, .f32⟩
  | 12 => ⟨S1048576x32, .f32⟩
  | 13 => ⟨S1048576x128, .f32⟩
  | 14 => ⟨S2097152x64, .f32⟩
  | _ => ⟨S2097152, .f32⟩

abbrev hbmTy (i : Nat) : BufTy := match i / 128 with
  | 0 => hbmTy0_0 i
  | 1 => hbmTy0_1 i
  | _ => ⟨S2097152, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x32, .f32⟩
  | .local _ .vmem, ⟨5, _⟩ => ⟨S8192x32, .f32⟩
  | .local _ .vmem, ⟨6, _⟩ => ⟨S32x128, .f32⟩
  | .local _ .vmem, ⟨7, _⟩ => ⟨S8192x128, .f32⟩
  | .local _ .vmem, ⟨8, _⟩ => ⟨S8192x128, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_c_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v28 : Ref sig .tc := ⟨.hbm, 65, rfl⟩
abbrev main_c_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_9 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_10 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v36 : Ref sig .tc := ⟨.hbm, 96, rfl⟩
abbrev main_v37 : Ref sig .tc := ⟨.hbm, 97, rfl⟩
abbrev main_c_11 : Ref sig .tc := ⟨.hbm, 98, rfl⟩
abbrev main_v38 : Ref sig .tc := ⟨.hbm, 99, rfl⟩
abbrev main_v39 : Ref sig .tc := ⟨.hbm, 100, rfl⟩
abbrev main_c_12 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_c_13 : Ref sig .tc := ⟨.hbm, 105, rfl⟩
abbrev main_v43 : Ref sig .tc := ⟨.hbm, 106, rfl⟩
abbrev main_v44 : Ref sig .tc := ⟨.hbm, 107, rfl⟩
abbrev main_c_14 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c_15 : Ref sig .tc := ⟨.hbm, 117, rfl⟩
abbrev main_v53 : Ref sig .tc := ⟨.hbm, 118, rfl⟩
abbrev main_v54 : Ref sig .tc := ⟨.hbm, 119, rfl⟩
abbrev main_c_16 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_c_17 : Ref sig .tc := ⟨.hbm, 124, rfl⟩
abbrev main_v58 : Ref sig .tc := ⟨.hbm, 125, rfl⟩
abbrev main_v59 : Ref sig .tc := ⟨.hbm, 126, rfl⟩
abbrev main_c_18 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2097152 : S_.BroadcastsInDim S2097152 (![] : Fin 0 → Fin S2097152.rank)
  bcast_S_S16 : S_.BroadcastsInDim S16 (![] : Fin 0 → Fin S16.rank)
  bcast_S2097152_S2097152x1_0 : S2097152.BroadcastsInDim S2097152x1 (![0] : Fin 1 → Fin S2097152x1.rank)
  bcast_S16_S1x16_1 : S16.BroadcastsInDim S1x16 (![1] : Fin 1 → Fin S1x16.rank)
  bcast_S2097152x1_S2097152x16_0_1 : S2097152x1.BroadcastsInDim S2097152x16 (![0, 1] : Fin 2 → Fin S2097152x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  bcast_S_S1x16 : S_.BroadcastsInDim S1x16 (![] : Fin 0 → Fin S1x16.rank)
  bcast_S2097152x16_S2097152x16x1_0_1 : S2097152x16.BroadcastsInDim S2097152x16x1 (![0, 1] : Fin 2 → Fin S2097152x16x1.rank)
  concatenates_S2097152x16x1_S2097152x16x1_S2097152x16x2_d2 : Shape.Concatenates [S2097152x16x1, S2097152x16x1] S2097152x16x2 2
  shapeCasts_S2097152x16x4_S2097152x64 : S2097152x16x4.ShapeCasts S2097152x64
  shapeCasts_S2097152x64_S1048576x128 : S2097152x64.ShapeCasts S1048576x128
  shapeCasts_S2097152x16_S1048576x32 : S2097152x16.ShapeCasts S1048576x32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x128_S32x128_0_0 : ∀ a, (![0, 0] : Fin 2 → Nat) a + S32x128.size a ≤ S32x128.size a
  h_S32x128 : 0 < S32x128.numel
  shapeCasts_S1048576x128_S2097152x64 : S1048576x128.ShapeCasts S2097152x64
  gather_S16x524288x4_S2097152x16x2_S2097152x16x4_2_01_n_n_01_2_114_wf : GatherDims.WF S16x524288x4 S2097152x16x2 S2097152x16x4 [2] [0, 1] [] [0, 1] [] 2 ![1, 1, 4]
  dot_S8192x32_S32x128_S8192x128_1_0_0_1_n_n_wf : DotDims.WF S8192x32 S32x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S1048576x32.size a
  hwx0_2 : ∀ i : grid0.Coords, EltTy.bits .f32 = 32 ∨ (Rect.block (s := S1048576x32) S8192x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1048576x128.size a
  hwx0_4 : ∀ i : grid0.Coords, EltTy.bits .f32 = 32 ∨ (Rect.block (s := S1048576x128) S8192x128.size (cc0_transform_4 i) (hinb0_4 i)).WholeWords (EltTy.packing .f32)

variable [Facts₀]

def gather_S16x524288x4_S2097152x16x2_S2097152x16x4_2_01_n_n_01_2_114 : GatherDims S16x524288x4 S2097152x16x2 S2097152x16x4 where
  offsetDims := [2]
  collapsedSliceDims := [0, 1]
  operandBatchingDims := []
  startIndicesBatchingDims := []
  startIndexMap := [0, 1]
  indexVectorDim := 2
  sliceSizes := ![1, 1, 4]
  wf := gather_S16x524288x4_S2097152x16x2_S2097152x16x4_2_01_n_n_01_2_114_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

abbrev win0_0 : Pipeline.Window sig grid0 :=
  Pipeline.Window.ofSpec (Memref.whole main_v70) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v73) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152 : Shape := ⟨1, ![2097152]⟩
abbrev S16x524288x4 : Shape := ⟨3, ![16, 524288, 4]⟩
abbrev S16 : Shape := ⟨1, ![16]⟩
abbrev S_ : Shape := ⟨0, ![]⟩
abbrev S1x2097152 : Shape := ⟨2, ![1, 2097152]⟩
abbrev S16x1 : Shape := ⟨2, ![16, 1]⟩
abbrev S16x2097152 : Shape := ⟨2, ![16, 2097152]⟩
abbrev S16x2097152x1 : Shape := ⟨3, ![16, 2097152, 1]⟩
abbrev S16x2097152x2 : Shape := ⟨3, ![16, 2097152, 2]⟩
abbrev S16x2097152x4 : Shape := ⟨3, ![16, 2097152, 4]⟩
abbrev S2097152x16x4 : Shape := ⟨3, ![2097152, 16, 4]⟩
abbrev S2097152x64 : Shape := ⟨2, ![2097152, 64]⟩

abbrev nBuf : Space → Nat
  | .hbm => 146
  | .vmem => 0
  | .smem => 0
  | _ => 0

abbrev hbmTy0_0 (i : Nat) : BufTy := match i % 128 with
  | 0 => ⟨S2097152, .f32⟩
  | 1 => ⟨S16x524288x4, .f32⟩
  | 2 => ⟨S16, .i32⟩
  | 3 => ⟨S16, .i32⟩
  | 4 => ⟨S_, .f32⟩
  | 5 => ⟨S_, .f32⟩
  | 6 => ⟨S_, .f32⟩
  | 7 => ⟨S2097152, .f32⟩
  | 8 => ⟨S2097152, .f32⟩
  | 9 => ⟨S_, .f32⟩
  | 10 => ⟨S2097152, .f32⟩
  | 11 => ⟨S2097152, .f32⟩
  | 12 => ⟨S1x2097152, .f32⟩
  | 13 => ⟨S_, .i32⟩
  | 14 => ⟨S16, .i32⟩
  | 15 => ⟨S16, .i32⟩
  | 16 => ⟨S16, .f32⟩
  | 17 => ⟨S16x1, .f32⟩
  | 18 => ⟨S16x2097152, .f32⟩
  | 19 => ⟨S16x2097152, .f32⟩
  | 20 => ⟨S16x2097152, .f32⟩
  | 21 => ⟨S16x2097152, .f32⟩
  | 22 => ⟨S16x2097152, .i32⟩
  | 23 => ⟨S_, .i32⟩
  | 24 => ⟨S16x2097152, .i32⟩
  | 25 => ⟨S16x2097152, .i32⟩
  | 26 => ⟨S_, .i32⟩
  | 27 => ⟨S16, .i32⟩
  | 28 => ⟨S16, .i32⟩
  | 29 => ⟨S16x1, .i32⟩
  | 30 => ⟨S16x2097152, .i32⟩
  | 31 => ⟨S16x2097152, .i32⟩
  | 32 => ⟨S16x2097152, .f32⟩
  | 33 => ⟨S16x2097152, .f32⟩
  | 34 => ⟨S16x2097152x1, .f32⟩
  | 35 => ⟨S_, .i32⟩
  | 36 => ⟨S16x2097152, .i32⟩
  | 37 => ⟨S16x2097152, .i32⟩
  | 38 => ⟨S16x1, .i32⟩
  | 39 => ⟨S_, .i32⟩
  | 40 => ⟨S16x1, .i32⟩
  | 41 => ⟨S16x1, .i32⟩
  | 42 => ⟨S16x2097152, .i32⟩
  | 43 => ⟨S16x2097152, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S16x2097152, .i32⟩
  | 51 => ⟨S16x2097152, .i32⟩
  | 52 => ⟨S_, .i32⟩
  | 53 => ⟨S16x2097152, .i32⟩
  | 54 => ⟨S16x2097152, .i1⟩
  | 55 => ⟨S_, .i32⟩
  | 56 => ⟨S16x2097152, .i32⟩
  | 57 => ⟨S16x2097152, .i1⟩
  | 58 => ⟨S_, .i32⟩
  | 59 => ⟨S_, .i1⟩
  | 60 => ⟨S16x2097152, .i1⟩
  | 61 => ⟨S16x2097152, .i1⟩
  | 62 => ⟨S16x2097152, .i1⟩
  | 63 => ⟨S16x2097152, .i32⟩
  | 64 => ⟨S16x2097152, .i32⟩
  | 65 => ⟨S16x2097152, .i32⟩
  | 66 => ⟨S_, .i32⟩
  | 67 => ⟨S16x2097152, .i32⟩
  | 68 => ⟨S16x2097152, .i32⟩
  | 69 => ⟨S16x1, .i32⟩
  | 70 => ⟨S_, .i32⟩
  | 71 => ⟨S16x1, .i32⟩
  | 72 => ⟨S16x1, .i32⟩
  | 73 => ⟨S16x2097152, .i32⟩
  | 74 => ⟨S16x2097152, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S16x2097152, .i32⟩
  | 82 => ⟨S16x2097152, .i32⟩
  | 83 => ⟨S_, .i32⟩
  | 84 => ⟨S16x2097152, .i32⟩
  | 85 => ⟨S16x2097152, .i1⟩
  | 86 => ⟨S_, .i32⟩
  | 87 => ⟨S16x2097152, .i32⟩
  | 88 => ⟨S16x2097152, .i1⟩
  | 89 => ⟨S_, .i32⟩
  | 90 => ⟨S_, .i1⟩
  | 91 => ⟨S16x2097152, .i1⟩
  | 92 => ⟨S16x2097152, .i1⟩
  | 93 => ⟨S16x2097152, .i1⟩
  | 94 => ⟨S16x2097152, .i32⟩
  | 95 => ⟨S16x2097152, .i32⟩
  | 96 => ⟨S16x2097152, .i32⟩
  | 97 => ⟨S16x1, .i32⟩
  | 98 => ⟨S_, .i32⟩
  | 99 => ⟨S16x1, .i32⟩
  | 100 => ⟨S16x1, .i1⟩
  | 101 => ⟨S_, .i32⟩
  | 102 => ⟨S16x1, .i32⟩
  | 103 => ⟨S16x1, .i32⟩
  | 104 => ⟨S16x1, .i32⟩
  | 105 => ⟨S_, .i32⟩
  | 106 => ⟨S16x2097152, .i32⟩
  | 107 => ⟨S16x2097152, .i1⟩
  | 108 => ⟨S_, .i32⟩
  | 109 => ⟨S16x2097152, .i32⟩
  | 110 => ⟨S16x2097152, .i32⟩
  | 111 => ⟨S16x2097152, .i32⟩
  | 112 => ⟨S16x2097152, .i32⟩
  | 113 => ⟨S16x2097152x1, .i32⟩
  | 114 => ⟨S16x2097152x1, .i32⟩
  | 115 => ⟨S16x2097152x2, .i32⟩
  | 116 => ⟨S16x2097152x4, .f32⟩
  | 117 => ⟨S_, .i32⟩
  | 118 => ⟨S16x1, .i32⟩
  | 119 => ⟨S16x1, .i1⟩
  | 120 => ⟨S_, .i32⟩
  | 121 => ⟨S16x1, .i32⟩
  | 122 => ⟨S16x1, .i32⟩
  | 123 => ⟨S16x1, .i32⟩
  | 124 => ⟨S_, .i32⟩
  | 125 => ⟨S16x2097152, .i32⟩
  | 126 => ⟨S16x2097152, .i1⟩
  | 127 => ⟨S_, .i32⟩
  | _ => ⟨S2097152, .f32⟩

abbrev hbmTy0_1 (i : Nat) : BufTy := match i % 128 with
  | 0 => ⟨S16x2097152, .i32⟩
  | 1 => ⟨S16x2097152, .i32⟩
  | 2 => ⟨S16x2097152, .i32⟩
  | 3 => ⟨S16x2097152, .i32⟩
  | 4 => ⟨S16x2097152x1, .i32⟩
  | 5 => ⟨S16x2097152x1, .i32⟩
  | 6 => ⟨S16x2097152x2, .i32⟩
  | 7 => ⟨S16x2097152x4, .f32⟩
  | 8 => ⟨S_, .f32⟩
  | 9 => ⟨S16x2097152x1, .f32⟩
  | 10 => ⟨S16x2097152x1, .f32⟩
  | 11 => ⟨S16x2097152x4, .f32⟩
  | 12 => ⟨S16x2097152x4, .f32⟩
  | 13 => ⟨S16x2097152x4, .f32⟩
  | 14 => ⟨S16x2097152x4, .f32⟩
  | 15 => ⟨S16x2097152x4, .f32⟩
  | 16 => ⟨S2097152x16x4, .f32⟩
  | 17 => ⟨S2097152x64, .f32⟩
  | _ => ⟨S2097152, .f32⟩

abbrev hbmTy (i : Nat) : BufTy := match i / 128 with
  | 0 => hbmTy0_0 i
  | 1 => hbmTy0_1 i
  | _ => ⟨S2097152, .f32⟩

abbrev bufTy : (tb : Table) → Fin (tcTables nBuf tb) → BufTy
  | .hbm, ⟨i, _⟩ => hbmTy i
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v29 : Ref sig .tc := ⟨.hbm, 65, rfl⟩
abbrev main_c_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_9 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v37 : Ref sig .tc := ⟨.hbm, 96, rfl⟩
abbrev main_v38 : Ref sig .tc := ⟨.hbm, 97, rfl⟩
abbrev main_c_10 : Ref sig .tc := ⟨.hbm, 98, rfl⟩
abbrev main_v39 : Ref sig .tc := ⟨.hbm, 99, rfl⟩
abbrev main_v40 : Ref sig .tc := ⟨.hbm, 100, rfl⟩
abbrev main_c_11 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_c_12 : Ref sig .tc := ⟨.hbm, 105, rfl⟩
abbrev main_v44 : Ref sig .tc := ⟨.hbm, 106, rfl⟩
abbrev main_v45 : Ref sig .tc := ⟨.hbm, 107, rfl⟩
abbrev main_c_13 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_c_14 : Ref sig .tc := ⟨.hbm, 117, rfl⟩
abbrev main_v54 : Ref sig .tc := ⟨.hbm, 118, rfl⟩
abbrev main_v55 : Ref sig .tc := ⟨.hbm, 119, rfl⟩
abbrev main_c_15 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_c_16 : Ref sig .tc := ⟨.hbm, 124, rfl⟩
abbrev main_v59 : Ref sig .tc := ⟨.hbm, 125, rfl⟩
abbrev main_v60 : Ref sig .tc := ⟨.hbm, 126, rfl⟩
abbrev main_c_17 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_18 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S1x2097152_1 : S2097152.BroadcastsInDim S1x2097152 (![1] : Fin 1 → Fin S1x2097152.rank)
  bcast_S_S16 : S_.BroadcastsInDim S16 (![] : Fin 0 → Fin S16.rank)
  bcast_S16_S16x1_0 : S16.BroadcastsInDim S16x1 (![0] : Fin 1 → Fin S16x1.rank)
  bcast_S1x2097152_S16x2097152_0_1 : S1x2097152.BroadcastsInDim S16x2097152 (![0, 1] : Fin 2 → Fin S16x2097152.rank)
  bcast_S16x1_S16x2097152_0_1 : S16x1.BroadcastsInDim S16x2097152 (![0, 1] : Fin 2 → Fin S16x2097152.rank)
  bcast_S_S16x2097152 : S_.BroadcastsInDim S16x2097152 (![] : Fin 0 → Fin S16x2097152.rank)
  bcast_S16x2097152_S16x2097152x1_0_1 : S16x2097152.BroadcastsInDim S16x2097152x1 (![0, 1] : Fin 2 → Fin S16x2097152x1.rank)
  bcast_S_S16x1 : S_.BroadcastsInDim S16x1 (![] : Fin 0 → Fin S16x1.rank)
  concatenates_S16x2097152x1_S16x2097152x1_S16x2097152x2_d2 : Shape.Concatenates [S16x2097152x1, S16x2097152x1] S16x2097152x2 2
  bcast_S_S16x2097152x1 : S_.BroadcastsInDim S16x2097152x1 (![] : Fin 0 → Fin S16x2097152x1.rank)
  bcast_S16x2097152x1_S16x2097152x4_0_1_2 : S16x2097152x1.BroadcastsInDim S16x2097152x4 (![0, 1, 2] : Fin 3 → Fin S16x2097152x4.rank)
  transposes_S16x2097152x4_S2097152x16x4_1_0_2 : S16x2097152x4.Transposes [1, 0, 2] S2097152x16x4
  shapeCasts_S2097152x16x4_S2097152x64 : S2097152x16x4.ShapeCasts S2097152x64
  gather_S16x524288x4_S16x2097152x2_S16x2097152x4_2_01_n_n_01_2_114_wf : GatherDims.WF S16x524288x4 S16x2097152x2 S16x2097152x4 [2] [0, 1] [] [0, 1] [] 2 ![1, 1, 4]

variable [Facts₀]

def gather_S16x524288x4_S16x2097152x2_S16x2097152x4_2_01_n_n_01_2_114 : GatherDims S16x524288x4 S16x2097152x2 S16x2097152x4 where
  offsetDims := [2]
  collapsedSliceDims := [0, 1]
  operandBatchingDims := []
  startIndicesBatchingDims := []
  startIndexMap := [0, 1]
  indexVectorDim := 2
  sliceSizes := ![1, 1, 4]
  wf := gather_S16x524288x4_S16x2097152x2_S16x2097152x4_2_01_n_n_01_2_114_wf

class Facts : Prop extends Facts₀ where

variable [Facts]
-- ==== Proof.KerFun.lean ====
/-
  The host-side pipeline of `the kernel's program` as NAMED pure functions of the two argument arrays: the clipped coordinate,
  the scaled position t = clip(x)·(res−1), its floor i0 and the neighbour i1 = min(i0+1, res−1), the interpolation
  weight w = t − i0, the per-level hash of a cell index reduced modulo the table size, the start indices
  (level, row) of the two table lookups, and the two gathered embeddings. Each definition is the composition of the
  program's own operations, in the program's order, so that the program's buffers hold exactly these terms.
-/
import proofs.«138267_j19645180412085_2_alg».proof.KernelIdeal

noncomputable section

namespace Cert.KernelIdeal.Fn

open Idealize.ShloMosaic Idealize.SL.Sem Cert.KernelIdeal
open Facts₀ Facts

variable {F : FTy → Type} [FloatOps F] [Facts]

/-- The coordinate clipped to [0, 1]: min(1, max(0, x)). -/
def xc (x : FVec F S2097152 .f32) : FVec F S2097152 .f32 :=
  minimumf (broadcastInDim S2097152 ![] bcast_S_S2097152 (id (constant S_ .f32 0x3F800000#32)))
    (maximumf (broadcastInDim S2097152 ![] bcast_S_S2097152 (id (constant S_ .f32 0x00000000#32))) x)

/-- The sixteen resolutions less one, as 32-bit words. -/
def rm1 : IVec S16 32 :=
  subi (fun i => lit0 (S16.rowMajor i)) (broadcastInDim S16 ![] bcast_S_S16 (constantI S_ 32 1#32))

/-- The scaled position: clip(x) · (res − 1), per point and level. -/
def t (x : FVec F S2097152 .f32) : FVec F S2097152x16 .f32 :=
  mulf (broadcastInDim S2097152x16 ![0, 1] bcast_S2097152x1_S2097152x16_0_1 (broadcastInDim S2097152x1 ![0] bcast_S2097152_S2097152x1_0 (xc x)))
    (broadcastInDim S2097152x16 ![0, 1] bcast_S1x16_S2097152x16_0_1 (broadcastInDim S1x16 ![1] bcast_S16_S1x16_1 (sitofp .f32 rm1)))

/-- The cell index: floor of the scaled position, as a 32-bit integer. -/
def i0 (x : FVec F S2097152 .f32) : IVec S2097152x16 32 := fptosi 32 (Host.floor (t x))

/-- The right neighbour, clamped to the last cell: min(i0 + 1, res − 1). -/
def i1 (x : FVec F S2097152 .f32) : IVec S2097152x16 32 :=
  minsi (addi (i0 x) (broadcastInDim S2097152x16 ![] bcast_S_S2097152x16 (constantI S_ 32 1#32)))
    (broadcastInDim S2097152x16 ![0, 1] bcast_S1x16_S2097152x16_0_1 (broadcastInDim S1x16 ![1] bcast_S16_S1x16_1 rm1))

/-- The interpolation weight: t − i0. -/
def w (x : FVec F S2097152 .f32) : FVec F S2097152x16 .f32 := subf (t x) (sitofp .f32 (i0 x))

/-- The level numbers 0 … 15 along the level axis. -/
def lv : IVec S1x16 32 := broadcastInDim S1x16 ![1] bcast_S16_S1x16_1 (iotaInDim S16 32 0)

/-- The spatial hash of a cell index at its level: (i · 73856093) xor (level · 19349663), in wrapping 32-bit arithmetic. -/
def hsh (i : IVec S2097152x16 32) : IVec S2097152x16 32 :=
  xori (muli i (broadcastInDim S2097152x16 ![] bcast_S_S2097152x16 (constantI S_ 32 73856093#32)))
    (broadcastInDim S2097152x16 ![0, 1] bcast_S1x16_S2097152x16_0_1 (muli lv (broadcastInDim S1x16 ![] bcast_S_S1x16 (constantI S_ 32 19349663#32))))

/-- The divisor of the modulo: the table size 524288, replaced by 1 if it were 0. -/
def dv : IVec S_ 32 :=
  select (cmpi .eq (id (constantI S_ 32 524288#32)) (constantI S_ 32 0#32)) (constantI S_ 32 1#32) (id (constantI S_ 32 524288#32))

/-- The truncated remainder by the divisor. -/
def rq (a : IVec S2097152x16 32) : IVec S2097152x16 32 := Host.remsi a (broadcastInDim S2097152x16 ![] bcast_S_S2097152x16 dv)

/-- The floored modulo: the truncated remainder, shifted by the divisor when it is nonzero and its sign differs from the divisor's. -/
def md (a : IVec S2097152x16 32) : IVec S2097152x16 32 :=
  select
    (andi
      (cmpi .ne (cmpi .slt (rq a) (broadcastInDim S2097152x16 ![] bcast_S_S2097152x16 (constantI S_ 32 0#32)))
        (broadcastInDim S2097152x16 ![] bcast_S_S2097152x16 (cmpi .slt dv (constantI S_ 32 0#32))))
      (cmpi .ne (rq a) (broadcastInDim S2097152x16 ![] bcast_S_S2097152x16 (constantI S_ 32 0#32))))
    (addi (rq a) (broadcastInDim S2097152x16 ![] bcast_S_S2097152x16 dv))
    (rq a)

/-- A row index made non-negative the way array indexing does: h + 524288 when h < 0. -/
def nrm (h : IVec S2097152x16 32) : IVec S2097152x16 32 :=
  select (cmpi .slt h (broadcastInDim S2097152x16 ![] bcast_S_S2097152x16 (constantI S_ 32 0#32)))
    (addi h (broadcastInDim S2097152x16 ![] bcast_S_S2097152x16 (constantI S_ 32 524288#32))) h

/-- The level index made non-negative the same way: level + 16 when level < 0. -/
def lvn : IVec S1x16 32 :=
  select (cmpi .slt lv (broadcastInDim S1x16 ![] bcast_S_S1x16 (constantI S_ 32 0#32)))
    (addi lv (broadcastInDim S1x16 ![] bcast_S_S1x16 (constantI S_ 32 16#32))) lv

/-- The start indices of a lookup: the pair (level, row) per point and level. -/
def gidx (h : IVec S2097152x16 32) : IVec S2097152x16x2 32 :=
  concatenate S2097152x16x2 2
    [⟨S2097152x16x1, broadcastInDim S2097152x16x1 ![0, 1] bcast_S2097152x16_S2097152x16x1_0_1 (broadcastInDim S2097152x16 ![0, 1] bcast_S1x16_S2097152x16_0_1 lvn)⟩,
     ⟨S2097152x16x1, broadcastInDim S2097152x16x1 ![0, 1] bcast_S2097152x16_S2097152x16x1_0_1 h⟩] concatenates_S2097152x16x1_S2097152x16x1_S2097152x16x2_d2

/-- The embedding rows looked up in the tables at the given row indices. -/
def emb (tb : FVec F S16x524288x4 .f32) (h : IVec S2097152x16 32) : FVec F S2097152x16x4 .f32 :=
  Host.gather gather_S16x524288x4_S2097152x16x2_S2097152x16x4_2_01_n_n_01_2_114 tb (gidx h)

/-- The table row of the cell index. -/
def h0 (x : FVec F S2097152 .f32) : IVec S2097152x16 32 := nrm (md (hsh (i0 x)))
/-- The table row of the right neighbour. -/
def h1 (x : FVec F S2097152 .f32) : IVec S2097152x16 32 := nrm (md (hsh (i1 x)))

/-- The first operand of the interpolation kernel: the embeddings at the cell index, flattened to 64 features per point
    and packed two points per 128-wide row. -/
def e0p (x : FVec F S2097152 .f32) (tb : FVec F S16x524288x4 .f32) : FVec F S1048576x128 .f32 :=
  shapeCast S1048576x128 (shapeCast S2097152x64 (emb tb (h0 x)) shapeCasts_S2097152x16x4_S2097152x64) shapeCasts_S2097152x64_S1048576x128
/-- The second operand: the embeddings at the right neighbour, packed the same way. -/
def e1p (x : FVec F S2097152 .f32) (tb : FVec F S16x524288x4 .f32) : FVec F S1048576x128 .f32 :=
  shapeCast S1048576x128 (shapeCast S2097152x64 (emb tb (h1 x)) shapeCasts_S2097152x16x4_S2097152x64) shapeCasts_S2097152x64_S1048576x128
/-- The third operand: the weights, two points (32 values) per row. -/
def wp (x : FVec F S2097152 .f32) : FVec F S1048576x32 .f32 :=
  shapeCast S1048576x32 (w x) shapeCasts_S2097152x16_S1048576x32
/-- The fourth operand: the constant 32 × 128 table of zeros and ones. -/
def rep : FVec F S32x128 .f32 := fun i => FloatOps.ofBits .f32 (lit1 (S32x128.rowMajor i))

end Cert.KernelIdeal.Fn

end
-- ==== Proof.KerEntry.lean ====
import proofs.«138267_j19645180412085_2_alg».proof.Proof.Gen.KernelIdeal.Frame
import proofs.«138267_j19645180412085_2_alg».proof.Proof.KerFun
import Idealize.ShloMosaic.Lib.StableHlo.Run

noncomputable section

namespace Cert.KernelIdeal.KerEntry

open Idealize.ShloMosaic Idealize.ShloMosaic.TcCoe
open Idealize.SL Idealize.SL.Sem
open Idealize.ShloMosaic.StableHlo

variable {F : FTy → Type} [FloatOps F]

/-- The operations' results read one rewrite at a time (also under a list of shaped operands). -/
macro "results_rw" : tactic =>
  `(tactic| repeat (first
      | rw [nullary_result] | rw [unary_result] | rw [binary_result] | rw [ternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

open Gen

variable (W : Valuation τ sig (Elt F))

/-! ## The stretches of host operations, one at a time, from any contents `W` -/

section Stage012

/-- After the first three stretches: the hash of the cell index of the first argument (and, below, the right
    neighbour, the weight, the level numbers, the table size, and the untouched second argument). -/
theorem s2_v27 : after hostOps0_2 (after hostOps0_1 (after hostOps0 W)) (Proc.devRef .tc main_v27)
    = (Fn.hsh (Fn.i0 (W (Proc.devRef .tc main_arg0))) : IVec S2097152x16 32) := by
  simp only [hostOps0, hostOps0_1, hostOps0_2]
  after_results_simp
  rfl

theorem s2_v18 : after hostOps0_2 (after hostOps0_1 (after hostOps0 W)) (Proc.devRef .tc main_v18)
    = (Fn.i1 (W (Proc.devRef .tc main_arg0)) : IVec S2097152x16 32) := by
  simp only [hostOps0, hostOps0_1, hostOps0_2]
  after_results_simp
  rfl

theorem s2_v20 : after hostOps0_2 (after hostOps0_1 (after hostOps0 W)) (Proc.devRef .tc main_v20)
    = (Fn.w (W (Proc.devRef .tc main_arg0)) : FVec F S2097152x16 .f32) := by
  simp only [hostOps0, hostOps0_1, hostOps0_2]
  after_results_simp
  rfl

theorem s2_v0 : after hostOps0_2 (after hostOps0_1 (after hostOps0 W)) (Proc.devRef .tc main_v0)
    = (iotaInDim S16 32 0 : IVec S16 32) := by
  simp only [hostOps0, hostOps0_1, hostOps0_2]
  after_results_simp

theorem s2_c7 : after hostOps0_2 (after hostOps0_1 (after hostOps0 W)) (Proc.devRef .tc main_c_7)
    = (constantI S_ 32 524288#32 : IVec S_ 32) := by
  simp only [hostOps0, hostOps0_1, hostOps0_2]
  after_results_simp

theorem s2_arg1 : after hostOps0_2 (after hostOps0_1 (after hostOps0 W)) (Proc.devRef .tc main_arg1)
    = W (Proc.devRef .tc main_arg1) := by
  simp only [hostOps0, hostOps0_1, hostOps0_2]
  after_results_simp

end Stage012

section Stage3456

/-- The first modulo: the floored remainder of the buffer's hash by the table size. -/
theorem s3_v28 (hc : W (Proc.devRef .tc main_c_7) = (constantI S_ 32 524288#32 : IVec S_ 32)) :
    after hostOps0_3 W (Proc.devRef .tc main_v28) = (Fn.md (W (Proc.devRef .tc main_v27)) : IVec S2097152x16 32) := by
  simp only [hostOps0_3]
  after_results_simp
  rw [hc]
  rfl

theorem s3_keep (r : Ref sig .tc) (hr : r = main_v18 ∨ r = main_v20 ∨ r = main_v0 ∨ r = main_arg1) :
    after hostOps0_3 W (Proc.devRef .tc r) = W (Proc.devRef .tc r) := by
  rcases hr with rfl | rfl | rfl | rfl <;> (simp only [hostOps0_3]; after_results_simp)

/-- The hash of the right neighbour. -/
theorem s4_v35 (h0 : W (Proc.devRef .tc main_v0) = (iotaInDim S16 32 0 : IVec S16 32)) :
    after hostOps0_4 W (Proc.devRef .tc main_v35) = (Fn.hsh (W (Proc.devRef .tc main_v18)) : IVec S2097152x16 32) := by
  simp only [hostOps0_4]
  after_results_simp
  rw [h0]
  rfl

theorem s4_c10 : after hostOps0_4 W (Proc.devRef .tc main_c_10) = (constantI S_ 32 524288#32 : IVec S_ 32) := by
  simp only [hostOps0_4]
  after_results_simp

theorem s4_keep (r : Ref sig .tc) (hr : r = main_v28 ∨ r = main_v20 ∨ r = main_v0 ∨ r = main_arg1) :
    after hostOps0_4 W (Proc.devRef .tc r) = W (Proc.devRef .tc r) := by
  rcases hr with rfl | rfl | rfl | rfl <;> (simp only [hostOps0_4]; after_results_simp)

/-- The second modulo. -/
theorem s5_v36 (hc : W (Proc.devRef .tc main_c_10) = (constantI S_ 32 524288#32 : IVec S_ 32)) :
    after hostOps0_5 W (Proc.devRef .tc main_v36) = (Fn.md (W (Proc.devRef .tc main_v35)) : IVec S2097152x16 32) := by
  simp only [hostOps0_5]
  after_results_simp
  rw [hc]
  rfl

theorem s5_keep (r : Ref sig .tc) (hr : r = main_v28 ∨ r = main_v20 ∨ r = main_v0 ∨ r = main_arg1) :
    after hostOps0_5 W (Proc.devRef .tc r) = W (Proc.devRef .tc r) := by
  rcases hr with rfl | rfl | rfl | rfl <;> (simp only [hostOps0_5]; after_results_simp)

set_option maxHeartbeats 2000000 in
/-- The last stretch: the two lookups and the three packings. -/
theorem s6_v70 (h0 : W (Proc.devRef .tc main_v0) = (iotaInDim S16 32 0 : IVec S16 32)) :
    after hostOps0_6 W (Proc.devRef .tc main_v70)
      = (shapeCast S1048576x128 (shapeCast S2097152x64 (Fn.emb (W (Proc.devRef .tc main_arg1)) (Fn.nrm (W (Proc.devRef .tc main_v28))))
          Facts₀.shapeCasts_S2097152x16x4_S2097152x64) Facts₀.shapeCasts_S2097152x64_S1048576x128 : FVec F S1048576x128 .f32) := by
  simp only [hostOps0_6]
  after_results_simp
  results_rw
  rw [h0]
  rfl

set_option maxHeartbeats 2000000 in
theorem s6_v71 (h0 : W (Proc.devRef .tc main_v0) = (iotaInDim S16 32 0 : IVec S16 32)) :
    after hostOps0_6 W (Proc.devRef .tc main_v71)
      = (shapeCast S1048576x128 (shapeCast S2097152x64 (Fn.emb (W (Proc.devRef .tc main_arg1)) (Fn.nrm (W (Proc.devRef .tc main_v36))))
          Facts₀.shapeCasts_S2097152x16x4_S2097152x64) Facts₀.shapeCasts_S2097152x64_S1048576x128 : FVec F S1048576x128 .f32) := by
  simp only [hostOps0_6]
  after_results_simp
  results_rw
  rw [h0]
  rfl

theorem s6_v72 : after hostOps0_6 W (Proc.devRef .tc main_v72)
      = (shapeCast S1048576x32 (W (Proc.devRef .tc main_v20)) Facts₀.shapeCasts_S2097152x16_S1048576x32 : FVec F S1048576x32 .f32) := by
  simp only [hostOps0_6]
  after_results_simp
  rfl

end Stage3456

/-! ## The stretches chained -/

section Chain

variable (V : Valuation τ sig (Elt F))

/-- The contents after the first three stretches, … after the first six. -/
def E2 : Valuation τ sig (Elt F) := after hostOps0_2 (after hostOps0_1 (after hostOps0 V))
def E3 : Valuation τ sig (Elt F) := after hostOps0_3 (E2 V)
def E4 : Valuation τ sig (Elt F) := after hostOps0_4 (E3 V)
def E5 : Valuation τ sig (Elt F) := after hostOps0_5 (E4 V)

theorem e3_v0 : E3 V (Proc.devRef .tc main_v0) = (iotaInDim S16 32 0 : IVec S16 32) := by
  show after hostOps0_3 (E2 V) (Proc.devRef .tc main_v0) = _
  rw [s3_keep _ main_v0 (by simp)]; exact s2_v0 V
theorem e3_v18 : E3 V (Proc.devRef .tc main_v18) = (Fn.i1 (V (Proc.devRef .tc main_arg0)) : IVec S2097152x16 32) := by
  show after hostOps0_3 (E2 V) (Proc.devRef .tc main_v18) = _
  rw [s3_keep _ main_v18 (by simp)]; exact s2_v18 V
theorem e3_v20 : E3 V (Proc.devRef .tc main_v20) = (Fn.w (V (Proc.devRef .tc main_arg0)) : FVec F S2097152x16 .f32) := by
  show after hostOps0_3 (E2 V) (Proc.devRef .tc main_v20) = _
  rw [s3_keep _ main_v20 (by simp)]; exact s2_v20 V
theorem e3_arg1 : E3 V (Proc.devRef .tc main_arg1) = V (Proc.devRef .tc main_arg1) := by
  show after hostOps0_3 (E2 V) (Proc.devRef .tc main_arg1) = _
  rw [s3_keep _ main_arg1 (by simp)]; exact s2_arg1 V
theorem e3_v28 : E3 V (Proc.devRef .tc main_v28)
    = (Fn.md (Fn.hsh (Fn.i0 (V (Proc.devRef .tc main_arg0)))) : IVec S2097152x16 32) := by
  show after hostOps0_3 (E2 V) (Proc.devRef .tc main_v28) = _
  rw [s3_v28 (E2 V) (s2_c7 V)]
  exact congrArg Fn.md (s2_v27 V)

theorem e4_v0 : E4 V (Proc.devRef .tc main_v0) = (iotaInDim S16 32 0 : IVec S16 32) := by
  show after hostOps0_4 (E3 V) (Proc.devRef .tc main_v0) = _
  rw [s4_keep _ main_v0 (by simp)]; exact e3_v0 V
theorem e4_v20 : E4 V (Proc.devRef .tc main_v20) = (Fn.w (V (Proc.devRef .tc main_arg0)) : FVec F S2097152x16 .f32) := by
  show after hostOps0_4 (E3 V) (Proc.devRef .tc main_v20) = _
  rw [s4_keep _ main_v20 (by simp)]; exact e3_v20 V
theorem e4_arg1 : E4 V (Proc.devRef .tc main_arg1) = V (Proc.devRef .tc main_arg1) := by
  show after hostOps0_4 (E3 V) (Proc.devRef .tc main_arg1) = _
  rw [s4_keep _ main_arg1 (by simp)]; exact e3_arg1 V
theorem e4_v28 : E4 V (Proc.devRef .tc main_v28)
    = (Fn.md (Fn.hsh (Fn.i0 (V (Proc.devRef .tc main_arg0)))) : IVec S2097152x16 32) := by
  show after hostOps0_4 (E3 V) (Proc.devRef .tc main_v28) = _
  rw [s4_keep _ main_v28 (by simp)]; exact e3_v28 V
theorem e4_v35 : E4 V (Proc.devRef .tc main_v35)
    = (Fn.hsh (Fn.i1 (V (Proc.devRef .tc main_arg0))) : IVec S2097152x16 32) := by
  show after hostOps0_4 (E3 V) (Proc.devRef .tc main_v35) = _
  rw [s4_v35 _ (e3_v0 V)]
  exact congrArg Fn.hsh (e3_v18 V)
theorem e4_c10 : E4 V (Proc.devRef .tc main_c_10) = (constantI S_ 32 524288#32 : IVec S_ 32) :=
  s4_c10 (E3 V)

theorem e5_v0 : E5 V (Proc.devRef .tc main_v0) = (iotaInDim S16 32 0 : IVec S16 32) := by
  show after hostOps0_5 (E4 V) (Proc.devRef .tc main_v0) = _
  rw [s5_keep _ main_v0 (by simp)]; exact e4_v0 V
theorem e5_v20 : E5 V (Proc.devRef .tc main_v20) = (Fn.w (V (Proc.devRef .tc main_arg0)) : FVec F S2097152x16 .f32) := by
  show after hostOps0_5 (E4 V) (Proc.devRef .tc main_v20) = _
  rw [s5_keep _ main_v20 (by simp)]; exact e4_v20 V
theorem e5_arg1 : E5 V (Proc.devRef .tc main_arg1) = V (Proc.devRef .tc main_arg1) := by
  show after hostOps0_5 (E4 V) (Proc.devRef .tc main_arg1) = _
  rw [s5_keep _ main_arg1 (by simp)]; exact e4_arg1 V
theorem e5_v28 : E5 V (Proc.devRef .tc main_v28)
    = (Fn.md (Fn.hsh (Fn.i0 (V (Proc.devRef .tc main_arg0)))) : IVec S2097152x16 32) := by
  show after hostOps0_5 (E4 V) (Proc.devRef .tc main_v28) = _
  rw [s5_keep _ main_v28 (by simp)]; exact e4_v28 V
theorem e5_v36 : E5 V (Proc.devRef .tc main_v36)
    = (Fn.md (Fn.hsh (Fn.i1 (V (Proc.devRef .tc main_arg0)))) : IVec S2097152x16 32) := by
  show after hostOps0_5 (E4 V) (Proc.devRef .tc main_v36) = _
  rw [s5_v36 _ (e4_c10 V)]
  exact congrArg Fn.md (e4_v35 V)

/-- All seven stretches, read at the three packed operands. -/
theorem e6_v70 : after hostOps0_6 (E5 V) (Proc.devRef .tc main_v70)
    = (Fn.e0p (V (Proc.devRef .tc main_arg0)) (V (Proc.devRef .tc main_arg1)) : FVec F S1048576x128 .f32) := by
  rw [s6_v70 _ (e5_v0 V), e5_arg1, e5_v28]
  rfl
theorem e6_v71 : after hostOps0_6 (E5 V) (Proc.devRef .tc main_v71)
    = (Fn.e1p (V (Proc.devRef .tc main_arg0)) (V (Proc.devRef .tc main_arg1)) : FVec F S1048576x128 .f32) := by
  rw [s6_v71 _ (e5_v0 V), e5_arg1, e5_v36]
  rfl
theorem e6_v72 : after hostOps0_6 (E5 V) (Proc.devRef .tc main_v72)
    = (Fn.wp (V (Proc.devRef .tc main_arg0)) : FVec F S1048576x32 .f32) := by
  rw [s6_v72, e5_v20]
  rfl

end Chain

/-! ## The region-entry contents of the four input windows' arrays -/

section Entry

variable (m : (ℓ : Loc nD τ sig) → Buf (Elt F) ℓ)

/-- The contents at the region's entry are the seven stretches applied in order to the launch contents. -/
theorem V0_eq (c : Dev nD) : Gen.V0 m c = after hostOps0_6 (E5 (fun b => m (c, b))) := by
  simp only [Gen.V0, E5, E4, E3, E2, List.flatten_cons, List.flatten_nil, List.append_nil, StableHlo.after_append]

/-- The first operand of the interpolation: the embeddings at the cell index, packed two points per row. -/
theorem V_v70 (c : Dev nD) : Gen.V m c main_v70 =
    (Fn.e0p (m ((c : Thread nD τ).loc main_arg0)) (m ((c : Thread nD τ).loc main_arg1)) : FVec F S1048576x128 .f32) := by
  show Gen.V0 m c (Proc.devRef .tc main_v70) = _
  rw [V0_eq]
  exact e6_v70 (fun b => m (c, b))

/-- The second operand: the embeddings at the right neighbour, packed the same way. -/
theorem V_v71 (c : Dev nD) : Gen.V m c main_v71 =
    (Fn.e1p (m ((c : Thread nD τ).loc main_arg0)) (m ((c : Thread nD τ).loc main_arg1)) : FVec F S1048576x128 .f32) := by
  show Gen.V0 m c (Proc.devRef .tc main_v71) = _
  rw [V0_eq]
  exact e6_v71 (fun b => m (c, b))

/-- The third operand: the interpolation weights, two points per row. -/
theorem V_v72 (c : Dev nD) : Gen.V m c main_v72 =
    (Fn.wp (m ((c : Thread nD τ).loc main_arg0)) : FVec F S1048576x32 .f32) := by
  show Gen.V0 m c (Proc.devRef .tc main_v72) = _
  rw [V0_eq]
  exact e6_v72 (fun b => m (c, b))

/-- The fourth operand: the constant table of zeros and ones. -/
theorem V_cst (c : Dev nD) : Gen.V m c main_cst = (Fn.rep : FVec F S32x128 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Entry

end Cert.KernelIdeal.KerEntry

end
-- ==== Proof.KerLit.lean ====
import proofs.«138267_j19645180412085_2_alg».proof.KernelIdeal
import Idealize.ShloMosaic.Lib.ValueIdx

noncomputable section

open Idealize.ShloMosaic Idealize.SL.Sem
open Idealize.ShloMosaic.ValueIdx

namespace Cert.KernelIdeal.KerLit

/-- The 32×128 constant table, read row-major, is the 0/1 selection matrix: the entry at row `k`,
    column `q` is 1.0 exactly when `k = (q / 64) * 16 + (q % 64) / 4`, and 0.0 otherwise.
    A finite check over the 4096 entries. -/
theorem lit1_sel : ∀ i : Fin 4096, lit1 i =
    if i.val / 128 = ((i.val % 128) / 64) * 16 + ((i.val % 128) % 64) / 4 then 0x3F800000#32 else 0x00000000#32 := by
  decide +kernel

/-- The same at position `k * 128 + q` with `q < 128`: row `k`, column `q`. -/
theorem lit1_pos (i : Fin 4096) (k q : Nat) (hq : q < 128) (hi : i.val = k * 128 + q) : lit1 i =
    if k = (q / 64) * 16 + (q % 64) / 4 then 0x3F800000#32 else 0x00000000#32 := by
  have h := lit1_sel i
  have h1 : i.val / 128 = k := by omega
  have h2 : i.val % 128 = q := by omega
  rw [h1, h2] at h
  exact h

/-- The same at a (row, column) index: position `k * 128 + q` of the row-major order. -/
theorem lit1_at (k : Fin 32) (q : Fin 128) : lit1 (S32x128.rowMajor (ix2 k q)) =
    if k.val = (q.val / 64) * 16 + (q.val % 64) / 4 then 0x3F800000#32 else 0x00000000#32 :=
  lit1_pos _ k.val q.val q.isLt (Shape.rowMajor_val_two (ix2 k q))

end Cert.KernelIdeal.KerLit

end
-- ==== Proof.KerBody.lean ====
/-
  THE KERNEL BODY'S VALUE AT AN INDEX, at the extended reals.
  The body multiplies a block `[8192, 32]` by a 0/1 selection matrix `[32, 128]` (column `q` has its one `1` in row
  `(q / 64) * 16 + (q % 64) / 4`), so row `r` of the product at column `q` is the block's entry `(r, sel q)`: on the
  extended reals `x * 0 = 0` for every `x` (also the infinities) and `x * 1 = x`, and a finite sum with one nonzero
  term is that term. The body then interpolates: `x0 * (1 - w) + x1 * w` with `w` that entry.
-/
import proofs.«138267_j19645180412085_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.KerBody

open Idealize.ShloMosaic Idealize.SL.Sem Idealize.ShloMosaic.ValueIdx
open Cert.KernelIdeal
open Facts₀ Facts
open scoped BigOperators

/-- The f32 pattern `0x3F800000` denotes the extended real `1`: sign `+`, exponent field `127` (the bias), fraction
    `0`, so `(2^23 + 0) * 2^(127 - 127 - 23) = 1`. -/
theorem ofBits_one_f32 : Ideal.ofBits .f32 0x3F800000#32 = 1 := by
  have h : ((8388608 : ℝ) : EReal) * (((2 : ℝ) ^ 23)⁻¹ : ℝ) = 1 := by norm_cast; norm_num
  simpa [Ideal.ofBits, Ideal.ieee] using h

/-- A sum of products against a 0/1 indicator of one position is the factor at that position: every other term is
    `x * 0 = 0` (for every extended real `x`), and the one left is `x * 1 = x`. -/
theorem sum_mul_indicator {n : Nat} (f g : Fin n → EReal) (s : Fin n) (hg : ∀ k, g k = if k = s then 1 else 0) :
    ∑ k : Fin n, f k * g k = f s := by
  rw [Finset.sum_eq_single s]
  · rw [hg s, if_pos rfl, mul_one]
  · intro b _ hb
    rw [hg b, if_neg hb, mul_zero]
  · intro h
    exact absurd (Finset.mem_univ s) h

/-- The block product `[8192, 32] · [32, 128]` into the zero accumulator, read at `(r, q)`: the sum over the 32
    contraction positions `k` of `L[r, k] * R[k, q]`. -/
theorem dot_apply (L : FVec Ideal S8192x32 .f32) (R : FVec Ideal S32x128 .f32) (r : Fin 8192) (q : Fin 128) :
    matmul dot_S8192x32_S32x128_S8192x128_1_0_0_1_n_n (some .fp32) L R (constant (F := Ideal) S8192x128 .f32 0x00000000#32) (ix2 r q)
      = ∑ k : Fin 32, L (ix2 r k) * R (ix2 k q) := by
  simp only [matmul]
  rw [Ideal.matmul_constant_zero_apply]
  rw [← Equiv.sum_comp (contrEquiv1 dot_S8192x32_S32x128_S8192x128_1_0_0_1_n_n 32 rfl rfl).symm]
  refine Finset.sum_congr rfl fun k _ => ?_
  have hl : dot_S8192x32_S32x128_S8192x128_1_0_0_1_n_n.lhsIdx (ix2 r q)
      ((contrEquiv1 dot_S8192x32_S32x128_S8192x128_1_0_0_1_n_n 32 rfl rfl).symm k) = ix2 r k := by
    funext a; refine Fin.ext ?_
    match a with
    | ⟨0, _⟩ => rfl
    | ⟨1, _⟩ =>
      refine (DotDims.lhsIdx_val_of_single dot_S8192x32_S32x128_S8192x128_1_0_0_1_n_n (cl := 1) rfl _ _).trans ?_
      exact contrEquiv1_symm_val _ _ _ _ k
  have hr : dot_S8192x32_S32x128_S8192x128_1_0_0_1_n_n.rhsIdx (ix2 r q)
      ((contrEquiv1 dot_S8192x32_S32x128_S8192x128_1_0_0_1_n_n 32 rfl rfl).symm k) = ix2 k q := by
    funext a; refine Fin.ext ?_
    match a with
    | ⟨0, _⟩ =>
      refine (DotDims.rhsIdx_val_of_single dot_S8192x32_S32x128_S8192x128_1_0_0_1_n_n (cr := 0) rfl _ _).trans ?_
      exact contrEquiv1_symm_val _ _ _ _ k
    | ⟨1, _⟩ => rfl
  rw [hl, hr]

/-- Against the selection matrix (`R[k, q]` the pattern of `1` when `k = (q / 64) * 16 + (q % 64) / 4` and of `0`
    otherwise) the block product read at `(r, q)` is the block's entry `(r, (q / 64) * 16 + (q % 64) / 4)`. -/
theorem dot_select_apply (L : FVec Ideal S8192x32 .f32) (R : FVec Ideal S32x128 .f32)
    (hR : ∀ (k : Fin 32) (q : Fin 128), R (ix2 k q) = FloatOps.ofBits (F := Ideal) .f32
      (if k.val = (q.val / 64) * 16 + (q.val % 64) / 4 then 0x3F800000#32 else 0x00000000#32))
    (r : Fin 8192) (q : Fin 128) :
    matmul dot_S8192x32_S32x128_S8192x128_1_0_0_1_n_n (some .fp32) L R (constant (F := Ideal) S8192x128 .f32 0x00000000#32) (ix2 r q)
      = L (ix2 r ⟨(q.val / 64) * 16 + (q.val % 64) / 4, by have := q.isLt; omega⟩) := by
  rw [dot_apply]
  refine sum_mul_indicator (fun k => L (ix2 r k)) (fun k => R (ix2 k q)) _ fun k => ?_
  rw [hR k q]
  by_cases hk : k = (⟨(q.val / 64) * 16 + (q.val % 64) / 4, by have := q.isLt; omega⟩ : Fin 32)
  · rw [if_pos hk, if_pos (congrArg Fin.val hk)]
    exact ofBits_one_f32
  · rw [if_neg hk, if_neg (fun h => hk (Fin.ext h))]
    exact Ideal.ofBits_zero_f32

/-- THE BODY'S VALUE AT `(r, q)`: with `w` the third operand's entry `(r, (q / 64) * 16 + (q % 64) / 4)`, the
    interpolation `x0[r, q] * (1 - w) + x1[r, q] * w`. -/
theorem pay_apply (x0 x1 : Vec Ideal S8192x128 .f32) (x2 : Vec Ideal S8192x32 .f32) (x3 : Vec Ideal S32x128 .f32)
    (hx3 : ∀ (k : Fin 32) (q : Fin 128), x3 (ix2 k q) = FloatOps.ofBits (F := Ideal) .f32
      (if k.val = (q.val / 64) * 16 + (q.val % 64) / 4 then 0x3F800000#32 else 0x00000000#32))
    (r : Fin 8192) (q : Fin 128) :
    Gen.k0_pay1 (F := Ideal) x0 x1 x2 x3 (ix2 r q)
      = FloatOps.addf (F := Ideal)
          (FloatOps.mulf (x0 (ix2 r q)) (FloatOps.subf (FloatOps.ofBits .f32 0x3F800000#32)
            (x2 (ix2 r ⟨(q.val / 64) * 16 + (q.val % 64) / 4, by have := q.isLt; omega⟩))))
          (FloatOps.mulf (x1 (ix2 r q)) (x2 (ix2 r ⟨(q.val / 64) * 16 + (q.val % 64) / 4, by have := q.isLt; omega⟩))) := by
  have hdot := dot_select_apply (shapeCast S8192x32 x2 shapeCasts_S8192x32_S8192x32) x3 hx3 r q
  rw [shapeCast_self] at hdot
  unfold Gen.k0_pay1
  show FloatOps.addf (F := Ideal)
      (FloatOps.mulf (shapeCast S8192x128 x0 shapeCasts_S8192x128_S8192x128 (ix2 r q))
        (FloatOps.subf (Scalar.ofBits (F := Ideal) .f32 0x3F800000#32)
          (matmul dot_S8192x32_S32x128_S8192x128_1_0_0_1_n_n (some .fp32) (shapeCast S8192x32 x2 shapeCasts_S8192x32_S8192x32) x3
            (constant (F := Ideal) S8192x128 .f32 0x00000000#32) (ix2 r q))))
      (FloatOps.mulf (shapeCast S8192x128 x1 shapeCasts_S8192x128_S8192x128 (ix2 r q))
        (matmul dot_S8192x32_S32x128_S8192x128_1_0_0_1_n_n (some .fp32) (shapeCast S8192x32 x2 shapeCasts_S8192x32_S8192x32) x3
          (constant (F := Ideal) S8192x128 .f32 0x00000000#32) (ix2 r q))) = _
  rw [shapeCast_self x0, shapeCast_self x1, shapeCast_self x2, hdot]

end Cert.KernelIdeal.KerBody

end
-- ==== Proof.KerTail.lean ====
import proofs.«138267_j19645180412085_2_alg».proof.Proof.Gen.KernelIdeal.Frame
import Idealize.ShloMosaic.Lib.StableHlo.Run
import Idealize.ShloMosaic.Lib.Pipeline.Value

noncomputable section

namespace Cert.KernelIdeal.KerTail

open Idealize.ShloMosaic Idealize.ShloMosaic.TcCoe Idealize.ShloMosaic.Tactic
open Idealize.SL Idealize.SL.Sem
open Idealize.ShloMosaic.Pipeline (Dat Cfg Window)
open Idealize.ShloMosaic.StableHlo

variable {F : FTy → Type} [FloatOps F]
variable (m : (ℓ : Loc nD τ sig) → Buf (Elt F) ℓ) (ρ : Dev nD → PrngReg)

open Gen in
/-- The one operation after the region reshapes the output array (1048576 × 128, two points per row) to the result
    (2097152 × 64, one point per row): the result buffer holds the output array's final contents, re-read in
    row-major order at the result's shape. -/
theorem tail_v74 (c : Dev nD) :
    Pipeline.afterTail₀ cfgs (Gen.dats m) 0 (Gen.V0 m) [Gen.hostOps1] c main_v74
      = fun i => shapeCast S2097152x64 ((Gen.dats m 0 c).arrAt 4 cfg0.N) Gen.shapeCasts_S1048576x128_S2097152x64 i := by
  unfold Pipeline.afterTail₀
  show StableHlo.after Gen.hostOps1 _ (Proc.devRef .tc main_v74) = _
  after_results
  have e := Pipeline.withArrays_arr spec0 launch0.win.arr_inj c (Gen.V0 m c) (fun w => (Gen.dats m 0 c).arrAt w cfg0.N) 4
  funext i
  exact congrArg (fun x => shapeCast S2097152x64 x Gen.shapeCasts_S1048576x128_S2097152x64 i) e

open Gen in
/-- Every execution of the program terminates, and in every final state the result buffer holds the reshape of
    the output array's final contents, while the two argument buffers hold what they held at the start. -/
theorem run_tail :
    θ_run defs (onTc (τ := τ) (main (F := F))) (s₀ m ρ) (fun r => ∀ c : Dev nD,
      r.2.mem ((c.tc : Thread nD τ).loc main_v74)
          = (fun i => shapeCast S2097152x64 ((Gen.dats m 0 c).arrAt 4 cfg0.N) Gen.shapeCasts_S1048576x128_S2097152x64 i)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v74 (Pipeline.mem_restRefs_of main_v74 (by decide) (by decide))).trans (tail_v74 m c),
     ((h c).2 main_arg0 (Pipeline.mem_restRefs_of main_arg0 (by decide) (by decide))).trans (Gen.W_main_arg0 m (Gen.dats m) c),
     ((h c).2 main_arg1 (Pipeline.mem_restRefs_of main_arg1 (by decide) (by decide))).trans (Gen.W_main_arg1 m (Gen.dats m) c)⟩)
    (Gen.run_main m ρ)

end Cert.KernelIdeal.KerTail

end
-- ==== Proof.RefFun.lean ====
/-
  The host-side pipeline of `the reference` as NAMED pure functions of the two argument arrays: the clipped coordinate,
  the scaled position t = clip(x)·(res−1), its floor i0 and the neighbour i1 = min(i0+1, res−1), the interpolation
  weight w = t − i0, the per-level hash of a cell index reduced modulo the table size, the start indices
  (level, row) of the two table lookups, and the two gathered embeddings. Each definition is the composition of the
  program's own operations, in the program's order, so that the program's buffers hold exactly these terms.
-/
import proofs.«138267_j19645180412085_2_alg».proof.ReferenceIdeal

noncomputable section

namespace Cert.ReferenceIdeal.Fn

open Idealize.ShloMosaic Idealize.SL.Sem Cert.ReferenceIdeal
open Facts₀ Facts

variable {F : FTy → Type} [FloatOps F] [Facts]

/-- The coordinate clipped to [0, 1]: min(1, max(0, x)). -/
def xc (x : FVec F S2097152 .f32) : FVec F S2097152 .f32 :=
  minimumf (broadcastInDim S2097152 ![] bcast_S_S2097152 (id (constant S_ .f32 0x3F800000#32)))
    (maximumf (broadcastInDim S2097152 ![] bcast_S_S2097152 (id (constant S_ .f32 0x00000000#32))) x)

/-- The sixteen resolutions less one, as 32-bit words. -/
def rm1 : IVec S16 32 :=
  subi (fun i => lit0 (S16.rowMajor i)) (broadcastInDim S16 ![] bcast_S_S16 (constantI S_ 32 1#32))

/-- The scaled position: clip(x) · (res − 1), per point and level. -/
def t (x : FVec F S2097152 .f32) : FVec F S16x2097152 .f32 :=
  mulf (broadcastInDim S16x2097152 ![0, 1] bcast_S1x2097152_S16x2097152_0_1 (broadcastInDim S1x2097152 ![1] bcast_S2097152_S1x2097152_1 (xc x)))
    (broadcastInDim S16x2097152 ![0, 1] bcast_S16x1_S16x2097152_0_1 (broadcastInDim S16x1 ![0] bcast_S16_S16x1_0 (sitofp .f32 rm1)))

/-- The cell index: floor of the scaled position, as a 32-bit integer. -/
def i0 (x : FVec F S2097152 .f32) : IVec S16x2097152 32 := fptosi 32 (Host.floor (t x))

/-- The right neighbour, clamped to the last cell: min(i0 + 1, res − 1). -/
def i1 (x : FVec F S2097152 .f32) : IVec S16x2097152 32 :=
  minsi (addi (i0 x) (broadcastInDim S16x2097152 ![] bcast_S_S16x2097152 (constantI S_ 32 1#32)))
    (broadcastInDim S16x2097152 ![0, 1] bcast_S16x1_S16x2097152_0_1 (broadcastInDim S16x1 ![0] bcast_S16_S16x1_0 rm1))

/-- The interpolation weight: t − i0. -/
def w (x : FVec F S2097152 .f32) : FVec F S16x2097152 .f32 := subf (t x) (sitofp .f32 (i0 x))

/-- The level numbers 0 … 15 along the level axis. -/
def lv : IVec S16x1 32 := broadcastInDim S16x1 ![0] bcast_S16_S16x1_0 (iotaInDim S16 32 0)

/-- The spatial hash of a cell index at its level: (i · 73856093) xor (level · 19349663), in wrapping 32-bit arithmetic. -/
def hsh (i : IVec S16x2097152 32) : IVec S16x2097152 32 :=
  xori (muli i (broadcastInDim S16x2097152 ![] bcast_S_S16x2097152 (constantI S_ 32 73856093#32)))
    (broadcastInDim S16x2097152 ![0, 1] bcast_S16x1_S16x2097152_0_1 (muli lv (broadcastInDim S16x1 ![] bcast_S_S16x1 (constantI S_ 32 19349663#32))))

/-- The divisor of the modulo: the table size 524288, replaced by 1 if it were 0. -/
def dv : IVec S_ 32 :=
  select (cmpi .eq (id (constantI S_ 32 524288#32)) (constantI S_ 32 0#32)) (constantI S_ 32 1#32) (id (constantI S_ 32 524288#32))

/-- The truncated remainder by the divisor. -/
def rq (a : IVec S16x2097152 32) : IVec S16x2097152 32 := Host.remsi a (broadcastInDim S16x2097152 ![] bcast_S_S16x2097152 dv)

/-- The floored modulo: the truncated remainder, shifted by the divisor when it is nonzero and its sign differs from the divisor's. -/
def md (a : IVec S16x2097152 32) : IVec S16x2097152 32 :=
  select
    (andi
      (cmpi .ne (cmpi .slt (rq a) (broadcastInDim S16x2097152 ![] bcast_S_S16x2097152 (constantI S_ 32 0#32)))
        (broadcastInDim S16x2097152 ![] bcast_S_S16x2097152 (cmpi .slt dv (constantI S_ 32 0#32))))
      (cmpi .ne (rq a) (broadcastInDim S16x2097152 ![] bcast_S_S16x2097152 (constantI S_ 32 0#32))))
    (addi (rq a) (broadcastInDim S16x2097152 ![] bcast_S_S16x2097152 dv))
    (rq a)

/-- A row index made non-negative the way array indexing does: h + 524288 when h < 0. -/
def nrm (h : IVec S16x2097152 32) : IVec S16x2097152 32 :=
  select (cmpi .slt h (broadcastInDim S16x2097152 ![] bcast_S_S16x2097152 (constantI S_ 32 0#32)))
    (addi h (broadcastInDim S16x2097152 ![] bcast_S_S16x2097152 (constantI S_ 32 524288#32))) h

/-- The level index made non-negative the same way: level + 16 when level < 0. -/
def lvn : IVec S16x1 32 :=
  select (cmpi .slt lv (broadcastInDim S16x1 ![] bcast_S_S16x1 (constantI S_ 32 0#32)))
    (addi lv (broadcastInDim S16x1 ![] bcast_S_S16x1 (constantI S_ 32 16#32))) lv

/-- The start indices of a lookup: the pair (level, row) per point and level. -/
def gidx (h : IVec S16x2097152 32) : IVec S16x2097152x2 32 :=
  concatenate S16x2097152x2 2
    [⟨S16x2097152x1, broadcastInDim S16x2097152x1 ![0, 1] bcast_S16x2097152_S16x2097152x1_0_1 (broadcastInDim S16x2097152 ![0, 1] bcast_S16x1_S16x2097152_0_1 lvn)⟩,
     ⟨S16x2097152x1, broadcastInDim S16x2097152x1 ![0, 1] bcast_S16x2097152_S16x2097152x1_0_1 h⟩] concatenates_S16x2097152x1_S16x2097152x1_S16x2097152x2_d2

/-- The embedding rows looked up in the tables at the given row indices. -/
def emb (tb : FVec F S16x524288x4 .f32) (h : IVec S16x2097152 32) : FVec F S16x2097152x4 .f32 :=
  Host.gather gather_S16x524288x4_S16x2097152x2_S16x2097152x4_2_01_n_n_01_2_114 tb (gidx h)

/-- The table row of the cell index. -/
def h0 (x : FVec F S2097152 .f32) : IVec S16x2097152 32 := nrm (md (hsh (i0 x)))
/-- The table row of the right neighbour. -/
def h1 (x : FVec F S2097152 .f32) : IVec S16x2097152 32 := nrm (md (hsh (i1 x)))

/-- The weight with a trailing unit axis, as the reference broadcasts it over the four features. -/
def w3 (x : FVec F S2097152 .f32) : FVec F S16x2097152x1 .f32 :=
  broadcastInDim S16x2097152x1 ![0, 1] bcast_S16x2097152_S16x2097152x1_0_1 (w x)

/-- The interpolated embedding per level, point and feature: e0 · (1 − w) + e1 · w. -/
def itp (x : FVec F S2097152 .f32) (tb : FVec F S16x524288x4 .f32) : FVec F S16x2097152x4 .f32 :=
  addf
    (mulf (emb tb (h0 x))
      (broadcastInDim S16x2097152x4 ![0, 1, 2] bcast_S16x2097152x1_S16x2097152x4_0_1_2
        (subf (broadcastInDim S16x2097152x1 ![] bcast_S_S16x2097152x1 (constant S_ .f32 0x3F800000#32)) (w3 x))))
    (mulf (emb tb (h1 x))
      (broadcastInDim S16x2097152x4 ![0, 1, 2] bcast_S16x2097152x1_S16x2097152x4_0_1_2 (w3 x)))

/-- The reference's result: the interpolated embeddings with the point axis first, the sixteen levels' four features
    laid side by side (64 per point). -/
def out (x : FVec F S2097152 .f32) (tb : FVec F S16x524288x4 .f32) : FVec F S2097152x64 .f32 :=
  shapeCast S2097152x64 (transpose S2097152x16x4 [1, 0, 2] (itp x tb) transposes_S16x2097152x4_S2097152x16x4_1_0_2)
    shapeCasts_S2097152x16x4_S2097152x64

end Cert.ReferenceIdeal.Fn

end
-- ==== Proof.LibLayout.lean ====
/-
  LAYOUT OPERATIONS READ AT AN INDEX GIVEN BY COORDINATES, at the shapes a hash-grid embedding lookup meets.
  Each lemma reads one layout operation (a broadcast along named axes, a concatenation of two unit pieces, a gather
  of table rows, a reshape, a transpose) applied at an index written by its coordinates as the operand at the index
  the operation's definition names, with the coordinate arithmetic already discharged. The side-condition proof of
  every operation is an explicit argument of arbitrary proof term, so a lemma applies whatever proof a term carries.
-/
import Idealize.ShloMosaic.Lib.ValueIdx
import Idealize.ShloMosaic.Lib.Pipeline.Value
import Idealize.ShloMosaic.Lib.ValueLayout
import Idealize.ShloMosaic.PureOps

noncomputable section

namespace Cert.LibLayout

open Idealize.ShloMosaic Idealize.ShloMosaic.ValueIdx

variable {α : Type}

/-! ## A broadcast along named axes, read at an index -/

/-- A scalar broadcast to any shape reads the scalar at every index. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector `[n]` viewed as a column `[n, 1]` (its axis sent to axis 0) reads, at `(a, z)`, the vector at `a`. -/
theorem bcast_n_n1 {n : Nat} (h : (⟨1, ![n]⟩ : Shape).BroadcastsInDim ⟨2, ![n, 1]⟩ ![0])
    (u : (⟨1, ![n]⟩ : Shape).Idx → α) (a : Fin n) (z : Fin 1) :
    broadcastInDim ⟨2, ![n, 1]⟩ ![0] h u (ix2 a z) = u (ix1 a) :=
  broadcastInDim_apply _ h u _ _ (fun ax => by
    match ax with
    | ⟨0, _⟩ =>
      show a.val = if n = 1 then 0 else a.val
      split
      · have := a.isLt; omega
      · rfl)

/-- A vector `[n]` viewed as a row `[1, n]` (its axis sent to axis 1) reads, at `(z, a)`, the vector at `a`. -/
theorem bcast_n_1n {n : Nat} (h : (⟨1, ![n]⟩ : Shape).BroadcastsInDim ⟨2, ![1, n]⟩ ![1])
    (u : (⟨1, ![n]⟩ : Shape).Idx → α) (z : Fin 1) (a : Fin n) :
    broadcastInDim ⟨2, ![1, n]⟩ ![1] h u (ix2 z a) = u (ix1 a) :=
  broadcastInDim_apply _ h u _ _ (fun ax => by
    match ax with
    | ⟨0, _⟩ =>
      show a.val = if n = 1 then 0 else a.val
      split
      · have := a.isLt; omega
      · rfl)

/-- A column `[n, 1]` repeated along its unit axis to `[n, m]` reads, at `(a, b)`, the column at `(a, 0)`. -/
theorem bcast_n1_nm {n m : Nat} (h : (⟨2, ![n, 1]⟩ : Shape).BroadcastsInDim ⟨2, ![n, m]⟩ ![0, 1])
    (w : (⟨2, ![n, 1]⟩ : Shape).Idx → α) (a : Fin n) (b : Fin m) :
    broadcastInDim ⟨2, ![n, m]⟩ ![0, 1] h w (ix2 a b) = w (ix2 a (0 : Fin 1)) :=
  broadcastInDim_apply _ h w _ _ (fun ax => by
    match ax with
    | ⟨0, _⟩ =>
      show a.val = if n = 1 then 0 else a.val
      split
      · have := a.isLt; omega
      · rfl
    | ⟨1, _⟩ => rfl)

/-- A row `[1, n]` repeated along its unit axis to `[m, n]` reads, at `(b, a)`, the row at `(0, a)`. -/
theorem bcast_1n_mn {n m : Nat} (h : (⟨2, ![1, n]⟩ : Shape).BroadcastsInDim ⟨2, ![m, n]⟩ ![0, 1])
    (w : (⟨2, ![1, n]⟩ : Shape).Idx → α) (b : Fin m) (a : Fin n) :
    broadcastInDim ⟨2, ![m, n]⟩ ![0, 1] h w (ix2 b a) = w (ix2 (0 : Fin 1) a) :=
  broadcastInDim_apply _ h w _ _ (fun ax => by
    match ax with
    | ⟨0, _⟩ => rfl
    | ⟨1, _⟩ =>
      show a.val = if n = 1 then 0 else a.val
      split
      · have := a.isLt; omega
      · rfl)

/-- A matrix `[A, B]` given a trailing unit axis, `[A, B, 1]`, reads, at `(a, b, z)`, the matrix at `(a, b)`. -/
theorem bcast_ab_ab1 {A B : Nat} (h : (⟨2, ![A, B]⟩ : Shape).BroadcastsInDim ⟨3, ![A, B, 1]⟩ ![0, 1])
    (w : (⟨2, ![A, B]⟩ : Shape).Idx → α) (a : Fin A) (b : Fin B) (z : Fin 1) :
    broadcastInDim ⟨3, ![A, B, 1]⟩ ![0, 1] h w (ix3 a b z) = w (ix2 a b) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl)

/-- An array `[A, B, 1]` repeated along its trailing unit axis to `[A, B, m]` reads, at `(a, b, f)`, the array at
    `(a, b, 0)`. -/
theorem bcast_ab1_abm {A B m : Nat} (h : (⟨3, ![A, B, 1]⟩ : Shape).BroadcastsInDim ⟨3, ![A, B, m]⟩ ![0, 1, 2])
    (w : (⟨3, ![A, B, 1]⟩ : Shape).Idx → α) (a : Fin A) (b : Fin B) (f : Fin m) :
    broadcastInDim ⟨3, ![A, B, m]⟩ ![0, 1, 2] h w (ix3 a b f) = w (ix3 a b (0 : Fin 1)) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl)

/-! ## Two unit pieces concatenated along the last axis -/

/-- Two `[A, B, 1]` pieces concatenated along the last axis read, at `(a, b, 0)`, the first piece at `(a, b, 0)`. -/
theorem concat_ab1_left {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (0 : Fin 2))
      = p (ix3 a b (0 : Fin 1)) :=
  concatenate_pair_apply_left 2 p q h _ rfl _ (fun ax => by
    match ax with
    | ⟨0, _⟩ => rfl
    | ⟨1, _⟩ => rfl
    | ⟨2, _⟩ => rfl)

/-- Two `[A, B, 1]` pieces concatenated along the last axis read, at `(a, b, 1)`, the second piece at `(a, b, 0)`. -/
theorem concat_ab1_right {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (1 : Fin 2))
      = q (ix3 a b (0 : Fin 1)) :=
  concatenate_pair_apply_right 2 p q h _ rfl rfl _ (fun ax hax => by
    match ax, hax with
    | ⟨0, _⟩, _ => rfl
    | ⟨1, _⟩, _ => rfl
    | ⟨2, _⟩, hax => exact absurd rfl hax) rfl

/-- Two `[A, B, 1]` pieces concatenated along the last axis read, at `(a, b, c)`, the first piece when `c = 0` and
    the second otherwise, each at `(a, b, 0)`. -/
theorem concat_ab1_apply {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B)
    (c : Fin 2) :
    concatenate ⟨3, ![A, B, 2]⟩ 2 [⟨⟨3, ![A, B, 1]⟩, p⟩, ⟨⟨3, ![A, B, 1]⟩, q⟩] h (ix3 a b c)
      = if c.val = 0 then p (ix3 a b (0 : Fin 1)) else q (ix3 a b (0 : Fin 1)) := by
  match c with
  | ⟨0, _⟩ => exact concat_ab1_left p q h a b
  | ⟨1, _⟩ => exact concat_ab1_right p q h a b

/-! ## The gather of table rows: operand `[16, 524288, 4]` at start indices `[A, B, 2]`

What `table[level, slot]` of a table `[16, 524288, 4]` at two integer arrays of one shape `[A, B]`, stacked on a last
axis, lowers to: the start index's two components name the first two operand axes (both collapsed), the third operand
axis is read whole as the result's last axis. Result element `(a, b, f)` is the table at the two components
`idx[a, b, 0]`, `idx[a, b, 1]`, each read signed and clamped into its axis, and at `f`. -/

/-- Those dimension numbers for start indices `[A, B, 2]` and result `[A, B, 4]`; their conditions `wf` are decided
    on a program's literal shapes. -/
abbrev rowDims (A B : Nat)
    (wf : GatherDims.WF ⟨3, ![16, 524288, 4]⟩ ⟨3, ![A, B, 2]⟩ ⟨3, ![A, B, 4]⟩ [2] [0, 1] [] [0, 1] [] 2 ![1, 1, 4]) :
    GatherDims ⟨3, ![16, 524288, 4]⟩ ⟨3, ![A, B, 2]⟩ ⟨3, ![A, B, 4]⟩ where
  offsetDims := [2]
  collapsedSliceDims := [0, 1]
  operandBatchingDims := []
  startIndicesBatchingDims := []
  startIndexMap := [0, 1]
  indexVectorDim := 2
  sliceSizes := ![1, 1, 4]
  wf := wf

/-- The table index a pair of start-index words and a feature name: each word read signed and clamped into its axis.
    It mentions neither extent of the index arrays. -/
def rowAt {w : Nat} (i0 i1 : BitVec w) (f : Fin 4) : (⟨3, ![16, 524288, 4]⟩ : Shape).Idx :=
  ix3 (⟨min i0.toInt.toNat 15, by omega⟩ : Fin 16) (⟨min i1.toInt.toNat 524287, by omega⟩ : Fin 524288) f

/-- THE GATHER READ AT `(a, b, f)`: the table at the clamped start-index components `idx[a, b, 0]`, `idx[a, b, 1]` and
    at `f`. -/
theorem gather_row_apply {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (ix3 (⟨min (idx (ix3 a b (0 : Fin 2))).toInt.toNat 15, by omega⟩ : Fin 16)
          (⟨min (idx (ix3 a b (1 : Fin 2))).toInt.toNat 524287, by omega⟩ : Fin 524288) f) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  -- the start-indices index of component `c` of the start index of `(a, b, f)` is `(a, b, c)`
  have hsi : ∀ (c : Fin 2) (hc : c.val < (rowDims A B wf).startIndexMap.length),
      (rowDims A B wf).siIdx (ix3 a b f) ⟨c.val, hc⟩ = ix3 a b c := by
    intro c hc
    funext d; refine Fin.ext ?_
    match d with
    | ⟨0, _⟩ => rfl
    | ⟨1, _⟩ => rfl
    | ⟨2, _⟩ => rfl
  -- axis 0: the clamped first component, no offset
  have e0 : (rowDims A B wf).start (ix3 a b f) idx 0 + (rowDims A B wf).offCoord (ix3 a b f) 0
      = min (idx (ix3 a b (0 : Fin 2))).toInt.toNat 15 := by
    rw [GatherDims.offCoord_eq_zero _ _ _ (fun hm => ((GatherDims.mem_sKept _ _).mp hm).1 m0), Nat.add_zero]
    unfold GatherDims.start
    rw [dif_pos (show (0 : Fin 3) ∈ (rowDims A B wf).startIndexMap from m0)]
    exact congrArg (fun k => min (idx k).toInt.toNat 15) (hsi 0 Nat.zero_lt_two)
  -- axis 1: the clamped second component, no offset
  have e1 : (rowDims A B wf).start (ix3 a b f) idx 1 + (rowDims A B wf).offCoord (ix3 a b f) 1
      = min (idx (ix3 a b (1 : Fin 2))).toInt.toNat 524287 := by
    rw [GatherDims.offCoord_eq_zero _ _ _ (fun hm => ((GatherDims.mem_sKept _ _).mp hm).1 m1), Nat.add_zero]
    unfold GatherDims.start
    rw [dif_pos (show (1 : Fin 3) ∈ (rowDims A B wf).startIndexMap from m1)]
    exact congrArg (fun k => min (idx k).toInt.toNat 524287) (hsi 1 Nat.one_lt_two)
  -- axis 2: no start, the offset is the result's last coordinate
  have e2 : (rowDims A B wf).start (ix3 a b f) idx 2 + (rowDims A B wf).offCoord (ix3 a b f) 2 = f.val := by
    unfold GatherDims.start
    rw [dif_neg (show (2 : Fin 3) ∉ (rowDims A B wf).startIndexMap from n2), Nat.zero_add]
    unfold GatherDims.offCoord
    rw [dif_pos ((GatherDims.mem_sKept _ _).mpr ⟨n2, List.not_mem_nil⟩)]
    rfl
  unfold Host.gather
  congr 1
  funext ax
  refine Fin.ext ?_
  show (rowDims A B wf).start (ix3 a b f) idx ax + (rowDims A B wf).batchCoord (ix3 a b f) ax
    + (rowDims A B wf).offCoord (ix3 a b f) ax = _
  rw [GatherDims.batchCoord_eq_zero _ _ _ List.not_mem_nil, Nat.add_zero]
  match ax with
  | ⟨0, _⟩ => exact e0
  | ⟨1, _⟩ => exact e1
  | ⟨2, _⟩ => exact e2

/-- The gather read at `(a, b, f)` through `rowAt`: one function of the two start-index words and `f`. -/
theorem gather_row_apply_rowAt {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (rowAt (idx (ix3 a b (0 : Fin 2))) (idx (ix3 a b (1 : Fin 2))) f) :=
  gather_row_apply wf x idx a b f

/-! ## Reshapes and a transpose, read at an index -/

/-- `[2097152, 16, 4]` flattened to `[2097152, 64]` reads, at `(b, j)`, the operand at `(b, j / 4, j % 4)`. -/
theorem reshape_Bx16x4_Bx64 (x : (⟨3, ![2097152, 16, 4]⟩ : Shape).Idx → α)
    (h : (⟨3, ![2097152, 16, 4]⟩ : Shape).ShapeCasts ⟨2, ![2097152, 64]⟩) (b : Fin 2097152) (j : Fin 64) :
    shapeCast ⟨2, ![2097152, 64]⟩ x h (ix2 b j)
      = x (ix3 b (⟨j.val / 4, by have := j.isLt; omega⟩ : Fin 16) (⟨j.val % 4, by omega⟩ : Fin 4)) :=
  shapeCast_apply x h _ _ (by
    rw [Shape.rowMajor_val_three, Shape.rowMajor_val_two]
    show (b.val * 16 + j.val / 4) * 4 + j.val % 4 = b.val * 64 + j.val
    omega)

/-- `[2097152, 64]` regrouped as `[1048576, 128]` (two rows per row) reads, at `(n, q)`, the operand at
    `(2 n + q / 64, q % 64)`. -/
theorem reshape_Bx64_Hx128 (x : (⟨2, ![2097152, 64]⟩ : Shape).Idx → α)
    (h : (⟨2, ![2097152, 64]⟩ : Shape).ShapeCasts ⟨2, ![1048576, 128]⟩) (n : Fin 1048576) (q : Fin 128) :
    shapeCast ⟨2, ![1048576, 128]⟩ x h (ix2 n q)
      = x (ix2 (⟨2 * n.val + q.val / 64, by have := n.isLt; have := q.isLt; omega⟩ : Fin 2097152)
          (⟨q.val % 64, by omega⟩ : Fin 64)) :=
  shapeCast_apply x h _ _ (by
    rw [Shape.rowMajor_val_two, Shape.rowMajor_val_two]
    show (2 * n.val + q.val / 64) * 64 + q.val % 64 = n.val * 128 + q.val
    omega)

/-- `[2097152, 16]` regrouped as `[1048576, 32]` (two rows per row) reads, at `(n, k)`, the operand at
    `(2 n + k / 16, k % 16)`. -/
theorem reshape_Bx16_Hx32 (x : (⟨2, ![2097152, 16]⟩ : Shape).Idx → α)
    (h : (⟨2, ![2097152, 16]⟩ : Shape).ShapeCasts ⟨2, ![1048576, 32]⟩) (n : Fin 1048576) (k : Fin 32) :
    shapeCast ⟨2, ![1048576, 32]⟩ x h (ix2 n k)
      = x (ix2 (⟨2 * n.val + k.val / 16, by have := n.isLt; have := k.isLt; omega⟩ : Fin 2097152)
          (⟨k.val % 16, by omega⟩ : Fin 16)) :=
  shapeCast_apply x h _ _ (by
    rw [Shape.rowMajor_val_two, Shape.rowMajor_val_two]
    show (2 * n.val + k.val / 16) * 16 + k.val % 16 = n.val * 32 + k.val
    omega)

/-- `[1048576, 128]` split back into `[2097152, 64]` (each row in two halves) reads, at `(b, j)`, the operand at
    `(b / 2, (b % 2) * 64 + j)`. -/
theorem reshape_Hx128_Bx64 (x : (⟨2, ![1048576, 128]⟩ : Shape).Idx → α)
    (h : (⟨2, ![1048576, 128]⟩ : Shape).ShapeCasts ⟨2, ![2097152, 64]⟩) (b : Fin 2097152) (j : Fin 64) :
    shapeCast ⟨2, ![2097152, 64]⟩ x h (ix2 b j)
      = x (ix2 (⟨b.val / 2, by have := b.isLt; omega⟩ : Fin 1048576)
          (⟨(b.val % 2) * 64 + j.val, by have := j.isLt; omega⟩ : Fin 128)) :=
  shapeCast_apply x h _ _ (by
    rw [Shape.rowMajor_val_two, Shape.rowMajor_val_two]
    show b.val / 2 * 128 + ((b.val % 2) * 64 + j.val) = b.val * 64 + j.val
    omega)

/-- `[16, 2097152, 4]` with its first two axes swapped reads, at `(b, l, f)`, the operand at `(l, b, f)`. -/
theorem transpose_102_apply {A B C : Nat} (x : (⟨3, ![A, B, C]⟩ : Shape).Idx → α)
    (h : (⟨3, ![A, B, C]⟩ : Shape).Transposes [1, 0, 2] ⟨3, ![B, A, C]⟩) (b : Fin B) (l : Fin A) (f : Fin C) :
    transpose ⟨3, ![B, A, C]⟩ [1, 0, 2] x h (ix3 b l f) = x (ix3 l b f) :=
  transpose_apply _ x h _ _ fun c => match c with | ⟨0, _⟩ => rfl | ⟨1, _⟩ => rfl | ⟨2, _⟩ => rfl

/-! ## Composites both programs meet -/

/-- The gather of table rows at a PAIR of index arrays `[A, B]`, each given a trailing unit axis and the two stacked on
    it: result element `(a, b, f)` is the table at the clamped words `i0[a, b]`, `i1[a, b]` and at `f`. -/
theorem gather_pair_apply {A B w : Nat}
    (wf : GatherDims.WF ⟨3, ![16, 524288, 4]⟩ ⟨3, ![A, B, 2]⟩ ⟨3, ![A, B, 4]⟩ [2] [0, 1] [] [0, 1] [] 2 ![1, 1, 4])
    (h0 h1 : (⟨2, ![A, B]⟩ : Shape).BroadcastsInDim ⟨3, ![A, B, 1]⟩ ![0, 1])
    (hc : Shape.Concatenates [(⟨3, ![A, B, 1]⟩ : Shape), ⟨3, ![A, B, 1]⟩] ⟨3, ![A, B, 2]⟩ 2)
    (x : (⟨3, ![16, 524288, 4]⟩ : Shape).Idx → α) (i0 i1 : IVec ⟨2, ![A, B]⟩ w) (a : Fin A) (b : Fin B) (f : Fin 4) :
    Host.gather (rowDims A B wf) x
        (concatenate ⟨3, ![A, B, 2]⟩ 2 [⟨⟨3, ![A, B, 1]⟩, broadcastInDim ⟨3, ![A, B, 1]⟩ ![0, 1] h0 i0⟩,
          ⟨⟨3, ![A, B, 1]⟩, broadcastInDim ⟨3, ![A, B, 1]⟩ ![0, 1] h1 i1⟩] hc) (ix3 a b f)
      = x (rowAt (i0 (ix2 a b)) (i1 (ix2 a b)) f) := by
  rw [gather_row_apply_rowAt, concat_ab1_left, concat_ab1_right, bcast_ab_ab1, bcast_ab_ab1]

/-- `[A, B, 4]` with its first two axes swapped and then its last two axes merged, `[B, 4 A]`, at the literal extents
    `A = 16`, `B = 2097152`: reads, at `(b, j)`, the operand at `(j / 4, b, j % 4)`. -/
theorem reshape_transpose_apply (x : (⟨3, ![16, 2097152, 4]⟩ : Shape).Idx → α)
    (ht : (⟨3, ![16, 2097152, 4]⟩ : Shape).Transposes [1, 0, 2] ⟨3, ![2097152, 16, 4]⟩)
    (hs : (⟨3, ![2097152, 16, 4]⟩ : Shape).ShapeCasts ⟨2, ![2097152, 64]⟩) (b : Fin 2097152) (j : Fin 64) :
    shapeCast ⟨2, ![2097152, 64]⟩ (transpose ⟨3, ![2097152, 16, 4]⟩ [1, 0, 2] x ht) hs (ix2 b j)
      = x (ix3 (⟨j.val / 4, by have := j.isLt; omega⟩ : Fin 16) b (⟨j.val % 4, by omega⟩ : Fin 4)) := by
  rw [reshape_Bx16x4_Bx64, transpose_102_apply]

end Cert.LibLayout

end
-- ==== Proof.Bridge.lean ====
/-
  The kernel's host pipeline and the reference's are the same arithmetic over transposed index sets: the kernel
  lays points along the first axis and levels along the second, the reference the other way round. Every stage
  (scaled position, cell index, neighbour, weight, hash, modulo, row index) is a pointwise function of two leaves -
  the clipped coordinate of the point and a per-level constant - so, read at a point b and a level l, the kernel's
  stage at (b, l) is the reference's at (l, b).
-/
import proofs.«138267_j19645180412085_2_alg».proof.Proof.KerFun
import proofs.«138267_j19645180412085_2_alg».proof.Proof.RefFun
import Idealize.ShloMosaic.Lib.ValueIdx
import Idealize.ShloMosaic.Lib.Pipeline.Value
import proofs.«138267_j19645180412085_2_alg».proof.Proof.LibLayout

noncomputable section

namespace Cert.Bridge

open Idealize.ShloMosaic Idealize.ShloMosaic.ValueIdx

/-! ## Broadcasts read at an index -/

section Leaves
variable {α : Type}

/-- A scalar broadcast to any shape holds the scalar everywhere. -/
theorem bc_scalar {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

/-- A vector over points placed along the FIRST axis of [points, 1]. -/
theorem bc_pt_col (h : (⟨1, ![2097152]⟩ : Shape).BroadcastsInDim ⟨2, ![2097152, 1]⟩ ![0]) (v : (⟨1, ![2097152]⟩ : Shape).Idx → α)
    (b : Fin 2097152) (z : Fin 1) : broadcastInDim ⟨2, ![2097152, 1]⟩ ![0] h v (ix2 b z) = v (ix1 b) :=
  broadcastInDim_apply ![0] h v (ix2 b z) (ix1 b) (fun a => by obtain rfl : a = 0 := Subsingleton.elim _ _; rfl)

/-- A vector over points placed along the SECOND axis of [1, points]. -/
theorem bc_pt_row (h : (⟨1, ![2097152]⟩ : Shape).BroadcastsInDim ⟨2, ![1, 2097152]⟩ ![1]) (v : (⟨1, ![2097152]⟩ : Shape).Idx → α)
    (z : Fin 1) (b : Fin 2097152) : broadcastInDim ⟨2, ![1, 2097152]⟩ ![1] h v (ix2 z b) = v (ix1 b) :=
  broadcastInDim_apply ![1] h v (ix2 z b) (ix1 b) (fun a => by obtain rfl : a = 0 := Subsingleton.elim _ _; rfl)

/-- A vector over levels placed along the SECOND axis of [1, levels]. -/
theorem bc_lv_row (h : (⟨1, ![16]⟩ : Shape).BroadcastsInDim ⟨2, ![1, 16]⟩ ![1]) (u : (⟨1, ![16]⟩ : Shape).Idx → α)
    (z : Fin 1) (l : Fin 16) : broadcastInDim ⟨2, ![1, 16]⟩ ![1] h u (ix2 z l) = u (ix1 l) :=
  broadcastInDim_apply ![1] h u (ix2 z l) (ix1 l) (fun a => by obtain rfl : a = 0 := Subsingleton.elim _ _; rfl)

/-- A vector over levels placed along the FIRST axis of [levels, 1]. -/
theorem bc_lv_col (h : (⟨1, ![16]⟩ : Shape).BroadcastsInDim ⟨2, ![16, 1]⟩ ![0]) (u : (⟨1, ![16]⟩ : Shape).Idx → α)
    (l : Fin 16) (z : Fin 1) : broadcastInDim ⟨2, ![16, 1]⟩ ![0] h u (ix2 l z) = u (ix1 l) :=
  broadcastInDim_apply ![0] h u (ix2 l z) (ix1 l) (fun a => by obtain rfl : a = 0 := Subsingleton.elim _ _; rfl)

/-- [points, 1] repeated along sixteen levels. -/
theorem bc_K_pt (h : (⟨2, ![2097152, 1]⟩ : Shape).BroadcastsInDim ⟨2, ![2097152, 16]⟩ ![0, 1]) (v : (⟨2, ![2097152, 1]⟩ : Shape).Idx → α)
    (b : Fin 2097152) (l : Fin 16) : broadcastInDim ⟨2, ![2097152, 16]⟩ ![0, 1] h v (ix2 b l) = v (ix2 b 0) :=
  broadcastInDim_apply ![0, 1] h v (ix2 b l) (ix2 b 0) (fun a => by match a with | ⟨0, _⟩ => rfl | ⟨1, _⟩ => rfl)

/-- [1, levels] repeated along the points. -/
theorem bc_K_lv (h : (⟨2, ![1, 16]⟩ : Shape).BroadcastsInDim ⟨2, ![2097152, 16]⟩ ![0, 1]) (u : (⟨2, ![1, 16]⟩ : Shape).Idx → α)
    (b : Fin 2097152) (l : Fin 16) : broadcastInDim ⟨2, ![2097152, 16]⟩ ![0, 1] h u (ix2 b l) = u (ix2 0 l) :=
  broadcastInDim_apply ![0, 1] h u (ix2 b l) (ix2 0 l) (fun a => by match a with | ⟨0, _⟩ => rfl | ⟨1, _⟩ => rfl)

/-- [1, points] repeated along sixteen levels. -/
theorem bc_R_pt (h : (⟨2, ![1, 2097152]⟩ : Shape).BroadcastsInDim ⟨2, ![16, 2097152]⟩ ![0, 1]) (v : (⟨2, ![1, 2097152]⟩ : Shape).Idx → α)
    (l : Fin 16) (b : Fin 2097152) : broadcastInDim ⟨2, ![16, 2097152]⟩ ![0, 1] h v (ix2 l b) = v (ix2 0 b) :=
  broadcastInDim_apply ![0, 1] h v (ix2 l b) (ix2 0 b) (fun a => by match a with | ⟨0, _⟩ => rfl | ⟨1, _⟩ => rfl)

/-- [levels, 1] repeated along the points. -/
theorem bc_R_lv (h : (⟨2, ![16, 1]⟩ : Shape).BroadcastsInDim ⟨2, ![16, 2097152]⟩ ![0, 1]) (u : (⟨2, ![16, 1]⟩ : Shape).Idx → α)
    (l : Fin 16) (b : Fin 2097152) : broadcastInDim ⟨2, ![16, 2097152]⟩ ![0, 1] h u (ix2 l b) = u (ix2 l 0) :=
  broadcastInDim_apply ![0, 1] h u (ix2 l b) (ix2 l 0) (fun a => by match a with | ⟨0, _⟩ => rfl | ⟨1, _⟩ => rfl)

end Leaves

/-! ## The stages, read at a point and a level -/

section Stages
variable {F : FTy → Type} [FloatOps F] [Cert.KernelIdeal.Facts] [Cert.ReferenceIdeal.Facts]

/-- The two programs carry the same table of resolutions. -/
theorem lit0_eq : Cert.KernelIdeal.lit0 = Cert.ReferenceIdeal.lit0 := by
  funext i; fin_cases i <;> rfl

/-- Both clip the coordinate the same way. -/
theorem xc_eq (x : FVec F ⟨1, ![2097152]⟩ .f32) : Cert.KernelIdeal.Fn.xc x = Cert.ReferenceIdeal.Fn.xc x := rfl

/-- Both subtract one from the same resolutions. -/
theorem rm1_eq : (Cert.KernelIdeal.Fn.rm1 : IVec ⟨1, ![16]⟩ 32) = Cert.ReferenceIdeal.Fn.rm1 := by
  unfold Cert.KernelIdeal.Fn.rm1 Cert.ReferenceIdeal.Fn.rm1
  rw [lit0_eq]

/-- The scaled position at point b, level l. -/
theorem t_eq (x : FVec F ⟨1, ![2097152]⟩ .f32) (b : Fin 2097152) (l : Fin 16) :
    Cert.KernelIdeal.Fn.t x (ix2 b l) = Cert.ReferenceIdeal.Fn.t x (ix2 l b) := by
  simp only [Cert.KernelIdeal.Fn.t, Cert.ReferenceIdeal.Fn.t, mulf, xc_eq, rm1_eq]
  repeat (first | rw [bc_K_pt] | rw [bc_K_lv] | rw [bc_R_pt] | rw [bc_R_lv] | rw [bc_pt_col] | rw [bc_pt_row] | rw [bc_lv_row] | rw [bc_lv_col])

/-- The cell index. -/
theorem i0_eq (x : FVec F ⟨1, ![2097152]⟩ .f32) (b : Fin 2097152) (l : Fin 16) :
    Cert.KernelIdeal.Fn.i0 x (ix2 b l) = Cert.ReferenceIdeal.Fn.i0 x (ix2 l b) := by
  simp only [Cert.KernelIdeal.Fn.i0, Cert.ReferenceIdeal.Fn.i0, fptosi, Host.floor, t_eq]

/-- The clamped neighbour. -/
theorem i1_eq (x : FVec F ⟨1, ![2097152]⟩ .f32) (b : Fin 2097152) (l : Fin 16) :
    Cert.KernelIdeal.Fn.i1 x (ix2 b l) = Cert.ReferenceIdeal.Fn.i1 x (ix2 l b) := by
  simp only [Cert.KernelIdeal.Fn.i1, Cert.ReferenceIdeal.Fn.i1, minsi, addi, i0_eq, rm1_eq]
  repeat (first | rw [bc_scalar] | rw [bc_K_lv] | rw [bc_R_lv] | rw [bc_lv_row] | rw [bc_lv_col])

/-- The interpolation weight. -/
theorem w_eq (x : FVec F ⟨1, ![2097152]⟩ .f32) (b : Fin 2097152) (l : Fin 16) :
    Cert.KernelIdeal.Fn.w x (ix2 b l) = Cert.ReferenceIdeal.Fn.w x (ix2 l b) := by
  simp only [Cert.KernelIdeal.Fn.w, Cert.ReferenceIdeal.Fn.w, subf, sitofp, t_eq, i0_eq]

/-- The level number, in either layout. -/
theorem lv_eq (l : Fin 16) : Cert.KernelIdeal.Fn.lv (ix2 0 l) = Cert.ReferenceIdeal.Fn.lv (ix2 l 0) := by
  unfold Cert.KernelIdeal.Fn.lv Cert.ReferenceIdeal.Fn.lv
  rw [bc_lv_row, bc_lv_col]

/-- The hash of equal cell indices at the same level. -/
theorem hsh_eq (i : IVec ⟨2, ![2097152, 16]⟩ 32) (i' : IVec ⟨2, ![16, 2097152]⟩ 32) (b : Fin 2097152) (l : Fin 16)
    (h : i (ix2 b l) = i' (ix2 l b)) : Cert.KernelIdeal.Fn.hsh i (ix2 b l) = Cert.ReferenceIdeal.Fn.hsh i' (ix2 l b) := by
  simp only [Cert.KernelIdeal.Fn.hsh, Cert.ReferenceIdeal.Fn.hsh, xori, muli, h]
  repeat (first | rw [bc_scalar] | rw [bc_K_lv] | rw [bc_R_lv] | rw [bc_lv_row] | rw [bc_lv_col])
  simp only [muli, lv_eq]
  repeat (first | rw [bc_scalar] | rw [bc_K_lv] | rw [bc_R_lv] | rw [bc_lv_row] | rw [bc_lv_col])

/-- The same divisor. -/
theorem dv_eq : (Cert.KernelIdeal.Fn.dv : IVec ⟨0, ![]⟩ 32) = Cert.ReferenceIdeal.Fn.dv := rfl

/-- The truncated remainder of equal words. -/
theorem rq_eq (a : IVec ⟨2, ![2097152, 16]⟩ 32) (a' : IVec ⟨2, ![16, 2097152]⟩ 32) (b : Fin 2097152) (l : Fin 16)
    (h : a (ix2 b l) = a' (ix2 l b)) : Cert.KernelIdeal.Fn.rq a (ix2 b l) = Cert.ReferenceIdeal.Fn.rq a' (ix2 l b) := by
  simp only [Cert.KernelIdeal.Fn.rq, Cert.ReferenceIdeal.Fn.rq, Host.remsi, dv_eq, h]
  repeat (first | rw [bc_scalar] | rw [bc_K_lv] | rw [bc_R_lv] | rw [bc_lv_row] | rw [bc_lv_col])

/-- The floored modulo of equal words. -/
theorem md_eq (a : IVec ⟨2, ![2097152, 16]⟩ 32) (a' : IVec ⟨2, ![16, 2097152]⟩ 32) (b : Fin 2097152) (l : Fin 16)
    (h : a (ix2 b l) = a' (ix2 l b)) : Cert.KernelIdeal.Fn.md a (ix2 b l) = Cert.ReferenceIdeal.Fn.md a' (ix2 l b) := by
  simp only [Cert.KernelIdeal.Fn.md, Cert.ReferenceIdeal.Fn.md, select, andi, cmpi, addi, dv_eq, rq_eq a a' b l h]
  repeat (first | rw [bc_scalar] | rw [bc_K_lv] | rw [bc_R_lv] | rw [bc_lv_row] | rw [bc_lv_col])

/-- The wrapped row index of equal words. -/
theorem nrm_eq (a : IVec ⟨2, ![2097152, 16]⟩ 32) (a' : IVec ⟨2, ![16, 2097152]⟩ 32) (b : Fin 2097152) (l : Fin 16)
    (h : a (ix2 b l) = a' (ix2 l b)) : Cert.KernelIdeal.Fn.nrm a (ix2 b l) = Cert.ReferenceIdeal.Fn.nrm a' (ix2 l b) := by
  simp only [Cert.KernelIdeal.Fn.nrm, Cert.ReferenceIdeal.Fn.nrm, select, cmpi, addi, h]
  repeat (first | rw [bc_scalar] | rw [bc_K_lv] | rw [bc_R_lv] | rw [bc_lv_row] | rw [bc_lv_col])

/-- The wrapped level index. -/
theorem lvn_eq (l : Fin 16) : Cert.KernelIdeal.Fn.lvn (ix2 0 l) = Cert.ReferenceIdeal.Fn.lvn (ix2 l 0) := by
  simp only [Cert.KernelIdeal.Fn.lvn, Cert.ReferenceIdeal.Fn.lvn, select, cmpi, addi, lv_eq]
  repeat (first | rw [bc_scalar] | rw [bc_K_lv] | rw [bc_R_lv] | rw [bc_lv_row] | rw [bc_lv_col])

/-- The table row of the cell index. -/
theorem h0_eq (x : FVec F ⟨1, ![2097152]⟩ .f32) (b : Fin 2097152) (l : Fin 16) :
    Cert.KernelIdeal.Fn.h0 x (ix2 b l) = Cert.ReferenceIdeal.Fn.h0 x (ix2 l b) :=
  nrm_eq _ _ b l (md_eq _ _ b l (hsh_eq _ _ b l (i0_eq x b l)))

/-- The table row of the neighbour. -/
theorem h1_eq (x : FVec F ⟨1, ![2097152]⟩ .f32) (b : Fin 2097152) (l : Fin 16) :
    Cert.KernelIdeal.Fn.h1 x (ix2 b l) = Cert.ReferenceIdeal.Fn.h1 x (ix2 l b) :=
  nrm_eq _ _ b l (md_eq _ _ b l (hsh_eq _ _ b l (i1_eq x b l)))

end Stages

/-! ## The lookups and the layouts, read at an index -/

section Lookups
variable {F : FTy → Type} [FloatOps F] [Cert.KernelIdeal.Facts] [Cert.ReferenceIdeal.Facts]

open Cert.LibLayout

/-- The kernel's start indices at (b, l): the level, then the row. -/
theorem gidx_K0 (h : IVec ⟨2, ![2097152, 16]⟩ 32) (b : Fin 2097152) (l : Fin 16) :
    Cert.KernelIdeal.Fn.gidx h (ix3 b l (0 : Fin 2)) = Cert.KernelIdeal.Fn.lvn (ix2 0 l) := by
  unfold Cert.KernelIdeal.Fn.gidx
  rw [concat_ab1_left, bcast_ab_ab1, bc_K_lv]
theorem gidx_K1 (h : IVec ⟨2, ![2097152, 16]⟩ 32) (b : Fin 2097152) (l : Fin 16) :
    Cert.KernelIdeal.Fn.gidx h (ix3 b l (1 : Fin 2)) = h (ix2 b l) := by
  unfold Cert.KernelIdeal.Fn.gidx
  rw [concat_ab1_right, bcast_ab_ab1]

/-- The reference's start indices at (l, b): the level, then the row. -/
theorem gidx_R0 (h : IVec ⟨2, ![16, 2097152]⟩ 32) (l : Fin 16) (b : Fin 2097152) :
    Cert.ReferenceIdeal.Fn.gidx h (ix3 l b (0 : Fin 2)) = Cert.ReferenceIdeal.Fn.lvn (ix2 l 0) := by
  unfold Cert.ReferenceIdeal.Fn.gidx
  rw [concat_ab1_left, bcast_ab_ab1, bc_R_lv]
theorem gidx_R1 (h : IVec ⟨2, ![16, 2097152]⟩ 32) (l : Fin 16) (b : Fin 2097152) :
    Cert.ReferenceIdeal.Fn.gidx h (ix3 l b (1 : Fin 2)) = h (ix2 l b) := by
  unfold Cert.ReferenceIdeal.Fn.gidx
  rw [concat_ab1_right, bcast_ab_ab1]

/-- The kernel's looked-up embedding at (b, l, f): the table at the clamped (level, row), feature f. -/
theorem emb_K (tb : FVec F ⟨3, ![16, 524288, 4]⟩ .f32) (h : IVec ⟨2, ![2097152, 16]⟩ 32) (b : Fin 2097152) (l : Fin 16) (f : Fin 4) :
    Cert.KernelIdeal.Fn.emb tb h (ix3 b l f) = tb (rowAt (Cert.KernelIdeal.Fn.lvn (ix2 0 l)) (h (ix2 b l)) f) :=
  (gather_row_apply_rowAt _ tb (Cert.KernelIdeal.Fn.gidx h) b l f).trans (by rw [gidx_K0, gidx_K1])

/-- The reference's looked-up embedding at (l, b, f). -/
theorem emb_R (tb : FVec F ⟨3, ![16, 524288, 4]⟩ .f32) (h : IVec ⟨2, ![16, 2097152]⟩ 32) (l : Fin 16) (b : Fin 2097152) (f : Fin 4) :
    Cert.ReferenceIdeal.Fn.emb tb h (ix3 l b f) = tb (rowAt (Cert.ReferenceIdeal.Fn.lvn (ix2 l 0)) (h (ix2 l b)) f) :=
  (gather_row_apply_rowAt _ tb (Cert.ReferenceIdeal.Fn.gidx h) l b f).trans (by rw [gidx_R0, gidx_R1])

/-- Equal rows give equal embeddings. -/
theorem emb_eq (tb : FVec F ⟨3, ![16, 524288, 4]⟩ .f32) (h : IVec ⟨2, ![2097152, 16]⟩ 32) (h' : IVec ⟨2, ![16, 2097152]⟩ 32)
    (b : Fin 2097152) (l : Fin 16) (f : Fin 4) (hh : h (ix2 b l) = h' (ix2 l b)) :
    Cert.KernelIdeal.Fn.emb tb h (ix3 b l f) = Cert.ReferenceIdeal.Fn.emb tb h' (ix3 l b f) := by
  rw [emb_K, emb_R, lvn_eq, hh]

/-- Row n, lane q of the kernel's first operand is the embedding of point 2n + q / 64, level (q % 64) / 4, feature q % 4. -/
theorem e0p_apply (x : FVec F ⟨1, ![2097152]⟩ .f32) (tb : FVec F ⟨3, ![16, 524288, 4]⟩ .f32) (n : Fin 1048576) (q : Fin 128) :
    Cert.KernelIdeal.Fn.e0p x tb (ix2 n q)
      = Cert.KernelIdeal.Fn.emb tb (Cert.KernelIdeal.Fn.h0 x) (ix3 (⟨2 * n.val + q.val / 64, by omega⟩ : Fin 2097152) (⟨q.val % 64 / 4, by omega⟩ : Fin 16) (⟨q.val % 64 % 4, by omega⟩ : Fin 4)) := by
  unfold Cert.KernelIdeal.Fn.e0p
  rw [reshape_Bx64_Hx128, reshape_Bx16x4_Bx64]
theorem e1p_apply (x : FVec F ⟨1, ![2097152]⟩ .f32) (tb : FVec F ⟨3, ![16, 524288, 4]⟩ .f32) (n : Fin 1048576) (q : Fin 128) :
    Cert.KernelIdeal.Fn.e1p x tb (ix2 n q)
      = Cert.KernelIdeal.Fn.emb tb (Cert.KernelIdeal.Fn.h1 x) (ix3 (⟨2 * n.val + q.val / 64, by omega⟩ : Fin 2097152) (⟨q.val % 64 / 4, by omega⟩ : Fin 16) (⟨q.val % 64 % 4, by omega⟩ : Fin 4)) := by
  unfold Cert.KernelIdeal.Fn.e1p
  rw [reshape_Bx64_Hx128, reshape_Bx16x4_Bx64]

/-- Row n, column k of the kernel's weights is the weight of point 2n + k / 16 at level k % 16. -/
theorem wp_apply (x : FVec F ⟨1, ![2097152]⟩ .f32) (n : Fin 1048576) (k : Fin 32) :
    Cert.KernelIdeal.Fn.wp x (ix2 n k) = Cert.KernelIdeal.Fn.w x (ix2 (⟨2 * n.val + k.val / 16, by omega⟩ : Fin 2097152) (⟨k.val % 16, by omega⟩ : Fin 16)) := by
  unfold Cert.KernelIdeal.Fn.wp
  rw [reshape_Bx16_Hx32]

/-- The reference's interpolation at (l, b, f). -/
theorem itp_apply (x : FVec F ⟨1, ![2097152]⟩ .f32) (tb : FVec F ⟨3, ![16, 524288, 4]⟩ .f32) (l : Fin 16) (b : Fin 2097152) (f : Fin 4) :
    Cert.ReferenceIdeal.Fn.itp x tb (ix3 l b f)
      = FloatOps.addf
          (FloatOps.mulf (Cert.ReferenceIdeal.Fn.emb tb (Cert.ReferenceIdeal.Fn.h0 x) (ix3 l b f)) (FloatOps.subf (FloatOps.ofBits .f32 0x3F800000#32) (Cert.ReferenceIdeal.Fn.w x (ix2 l b))))
          (FloatOps.mulf (Cert.ReferenceIdeal.Fn.emb tb (Cert.ReferenceIdeal.Fn.h1 x) (ix3 l b f)) (Cert.ReferenceIdeal.Fn.w x (ix2 l b))) := by
  simp only [Cert.ReferenceIdeal.Fn.itp, addf, mulf]
  rw [bcast_ab1_abm, bcast_ab1_abm]
  simp only [subf, Cert.ReferenceIdeal.Fn.w3]
  rw [bcast_scalar, bcast_ab_ab1]
  rfl

/-- The reference's result at point b, feature slot j: the interpolation at level j / 4, feature j % 4. -/
theorem out_apply (x : FVec F ⟨1, ![2097152]⟩ .f32) (tb : FVec F ⟨3, ![16, 524288, 4]⟩ .f32) (b : Fin 2097152) (j : Fin 64) :
    Cert.ReferenceIdeal.Fn.out x tb (ix2 b j) = Cert.ReferenceIdeal.Fn.itp x tb (ix3 (⟨j.val / 4, by omega⟩ : Fin 16) b (⟨j.val % 4, by omega⟩ : Fin 4)) := by
  unfold Cert.ReferenceIdeal.Fn.out
  rw [reshape_Bx16x4_Bx64, transpose_102_apply]

end Lookups

end Cert.Bridge

end
-- ==== Proof.KerValue.lean ====
/-
  The kernel program's result as a function of its arguments. The interpolation kernel writes, at grid point t, rows
  8192·t … 8192·t + 8191 of a [1048576, 128] array: row n, lane q holds e0·(1 − w) + e1·w for the point 2n + q / 64,
  the level (q % 64) / 4 and the feature q % 4 - the weight picked out of the 32 packed weights of the row by the
  constant selection matrix. The 128 row blocks tile the array, and the final reshape to [2097152, 64] unpacks two
  points per row: the program's result is the reference's interpolation, index by index.
-/
import proofs.«138267_j19645180412085_2_alg».proof.Proof.Gen.KernelIdeal.Frame
import proofs.«138267_j19645180412085_2_alg».proof.Proof.Gen.ReferenceIdeal
import proofs.«138267_j19645180412085_2_alg».proof.Proof.KerEntry
import proofs.«138267_j19645180412085_2_alg».proof.Proof.KerLit
import proofs.«138267_j19645180412085_2_alg».proof.Proof.KerBody
import proofs.«138267_j19645180412085_2_alg».proof.Proof.KerTail
import proofs.«138267_j19645180412085_2_alg».proof.Proof.Bridge

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The selected weight column of lane q: two points per row, sixteen levels per point, four features per level. -/
abbrev sel (q : Fin 128) : Fin 32 := ⟨(q.val / 64) * 16 + (q.val % 64) / 4, by omega⟩

/-- The packed result: row n, lane q of the kernel's output array is the reference's value at point 2n + q / 64,
    feature slot q % 64. -/
def packed (x : FVec Ideal ⟨1, ![2097152]⟩ .f32) (tb : FVec Ideal ⟨3, ![16, 524288, 4]⟩ .f32) :
    (⟨2, ![1048576, 128]⟩ : Shape).Idx → Ideal .f32 :=
  fun i => Cert.ReferenceIdeal.Fn.out (F := Ideal) x tb
    (ix2 (⟨2 * (i 0).val + (i 1).val / 64, by have := idx2_lt0 i; have := idx2_lt1 i; omega⟩ : Fin 2097152)
      (⟨(i 1).val % 64, by omega⟩ : Fin 64))

theorem hz : (![0, 0] : Fin 2 → Nat) = fun _ => 0 := funext fun a => by fin_cases a <;> rfl

theorem lt_N (t : Fin cfg0.N) : t.val < 128 := lt_of_lt_of_eq t.isLt N_0

/-- The printed index maps over the grid: the row-blocked windows sit at block (t, 0), the constant table at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The blocks the body reads, as entries of the host pipeline's arrays -/

/-- Entry (r, q) of the first operand's block at point t is row 8192·t + r of the packed embeddings. -/
theorem blk0 (c : Dev nD) (t : Fin cfg0.N) (r : Fin 8192) (q : Fin 128) :
    (iblk m c 0 t (ix2 r q) : Ideal .f32)
      = Fn.e0p (F := Ideal) (m ((c : Thread nD τ).loc main_arg0)) (m ((c : Thread nD τ).loc main_arg1))
          (ix2 (⟨t.val * 8192 + r.val, by have := lt_N t; omega⟩ : Fin 1048576) q) := by
  obtain ⟨e0, e1, -⟩ := idx_facts t
  show V m c main_v70 (((cfg0.win 0).blk t).view.emb (ix2 r q)) = _
  rw [KerEntry.V_v70]
  refine congrArg _ (funext fun a => Fin.ext ?_)
  match a with
  | ⟨0, _⟩ => show win0_0.index t (0 : Fin 2) * 8192 + 1 * r.val = t.val * 8192 + r.val; omega
  | ⟨1, _⟩ => show win0_0.index t (1 : Fin 2) * 128 + 1 * q.val = q.val; omega

/-- The same for the second operand. -/
theorem blk1 (c : Dev nD) (t : Fin cfg0.N) (r : Fin 8192) (q : Fin 128) :
    (iblk m c 1 t (ix2 r q) : Ideal .f32)
      = Fn.e1p (F := Ideal) (m ((c : Thread nD τ).loc main_arg0)) (m ((c : Thread nD τ).loc main_arg1))
          (ix2 (⟨t.val * 8192 + r.val, by have := lt_N t; omega⟩ : Fin 1048576) q) := by
  obtain ⟨-, -, e0, e1, -⟩ := idx_facts t
  show V m c main_v71 (((cfg0.win 1).blk t).view.emb (ix2 r q)) = _
  rw [KerEntry.V_v71]
  refine congrArg _ (funext fun a => Fin.ext ?_)
  match a with
  | ⟨0, _⟩ => show win0_1.index t (0 : Fin 2) * 8192 + 1 * r.val = t.val * 8192 + r.val; omega
  | ⟨1, _⟩ => show win0_1.index t (1 : Fin 2) * 128 + 1 * q.val = q.val; omega

/-- Entry (r, k) of the weights' block at point t is row 8192·t + r of the packed weights. -/
theorem blk2 (c : Dev nD) (t : Fin cfg0.N) (r : Fin 8192) (k : Fin 32) :
    (iblk m c 2 t (ix2 r k) : Ideal .f32)
      = Fn.wp (F := Ideal) (m ((c : Thread nD τ).loc main_arg0)) (ix2 (⟨t.val * 8192 + r.val, by have := lt_N t; omega⟩ : Fin 1048576) k) := by
  obtain ⟨-, -, -, -, e0, e1, -⟩ := idx_facts t
  show V m c main_v72 (((cfg0.win 2).blk t).view.emb (ix2 r k)) = _
  rw [KerEntry.V_v72]
  refine congrArg _ (funext fun a => Fin.ext ?_)
  match a with
  | ⟨0, _⟩ => show win0_2.index t (0 : Fin 2) * 8192 + 1 * r.val = t.val * 8192 + r.val; omega
  | ⟨1, _⟩ => show win0_2.index t (1 : Fin 2) * 32 + 1 * k.val = k.val; omega

/-- The constant table's block is the whole table, at every point: the selection matrix. -/
theorem blk3 (c : Dev nD) (t : Fin cfg0.N) (k : Fin 32) (q : Fin 128) :
    (iblk m c 3 t (ix2 k q) : Ideal .f32)
      = FloatOps.ofBits (F := Ideal) .f32 (if k.val = (q.val / 64) * 16 + (q.val % 64) / 4 then 0x3F800000#32 else 0x00000000#32) := by
  obtain ⟨-, -, -, -, -, -, e0, e1, -⟩ := idx_facts t
  show V m c main_cst (((cfg0.win 3).blk t).view.emb (ix2 k q)) = _
  rw [KerEntry.V_cst]
  have e : ((cfg0.win 3).blk t).view.emb (ix2 k q) = ix2 k q := by
    funext a; apply Fin.ext
    match a with
    | ⟨0, _⟩ => show win0_3.index t (0 : Fin 2) * 32 + 1 * k.val = k.val; omega
    | ⟨1, _⟩ => show win0_3.index t (1 : Fin 2) * 128 + 1 * q.val = q.val; omega
  rw [e]
  show FloatOps.ofBits (F := Ideal) .f32 (lit1 (S32x128.rowMajor (ix2 k q))) = _
  rw [KerLit.lit1_at]

/-- Entry (r, q) of the output's block at point t is entry (8192·t + r, q) of the output array. -/
theorem emb4 (t : Fin cfg0.N) (r : Fin 8192) (q : Fin 128) :
    ((cfg0.win 4).blk t).view.emb (ix2 r q) = ix2 (⟨t.val * 8192 + r.val, by have := lt_N t; omega⟩ : Fin 1048576) q := by
  obtain ⟨-, -, -, -, -, -, -, -, e0, e1⟩ := idx_facts t
  funext a; apply Fin.ext
  match a with
  | ⟨0, _⟩ => show win0_4.index t (0 : Fin 2) * 8192 + 1 * r.val = t.val * 8192 + r.val; omega
  | ⟨1, _⟩ => show win0_4.index t (1 : Fin 2) * 128 + 1 * q.val = q.val; omega

/-! ## One entry of the packed result -/

/-- The interpolation written at row n, lane q is the reference's value at point 2n + q / 64, slot q % 64: the two
    host pipelines agree stage by stage, and the selected weight column of lane q is the lane's own point and level. -/
theorem entry_eq (x : FVec Ideal ⟨1, ![2097152]⟩ .f32) (tb : FVec Ideal ⟨3, ![16, 524288, 4]⟩ .f32) (n : Fin 1048576) (q : Fin 128) :
    FloatOps.addf (F := Ideal)
        (FloatOps.mulf (Fn.e0p x tb (ix2 n q)) (FloatOps.subf (FloatOps.ofBits .f32 0x3F800000#32) (Fn.wp x (ix2 n (sel q)))))
        (FloatOps.mulf (Fn.e1p x tb (ix2 n q)) (Fn.wp x (ix2 n (sel q))))
      = packed x tb (ix2 n q) := by
  have hb : (2 * n.val + q.val / 64) < 2097152 := by omega
  have hw : Fn.wp x (ix2 n (sel q))
      = Cert.ReferenceIdeal.Fn.w x (ix2 (⟨q.val % 64 / 4, by omega⟩ : Fin 16) (⟨2 * n.val + q.val / 64, hb⟩ : Fin 2097152)) := by
    rw [Cert.Bridge.wp_apply, ← Cert.Bridge.w_eq]
    refine congrArg _ ?_
    refine congrArg₂ ix2 (Fin.ext ?_) (Fin.ext ?_)
    · show 2 * n.val + ((q.val / 64) * 16 + (q.val % 64) / 4) / 16 = 2 * n.val + q.val / 64; omega
    · show ((q.val / 64) * 16 + (q.val % 64) / 4) % 16 = q.val % 64 / 4; omega
  rw [hw, Cert.Bridge.e0p_apply, Cert.Bridge.e1p_apply,
    Cert.Bridge.emb_eq tb _ _ _ _ _ (Cert.Bridge.h0_eq x _ _), Cert.Bridge.emb_eq tb _ _ _ _ _ (Cert.Bridge.h1_eq x _ _)]
  unfold packed
  rw [Cert.Bridge.out_apply, Cert.Bridge.itp_apply]

/-! ## What a point writes back, the cover, the final array -/

/-- WHAT POINT t WRITES BACK is block t of the packed result. -/
theorem flushed_eq (c : Dev nD) (t : Fin cfg0.N) :
    (dats m 0 c).flushed 4 t
      = ((cfg0.win 4).blk t).view.read (Elt Ideal) (packed (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz]
  simp only [View.ld_unit_zero (S := S8192x128) hz, View.ld_unit_zero (S := S8192x32) hz, View.ld_unit_zero (S := S32x128) hz]
  funext j
  obtain ⟨r, q, rfl⟩ : ∃ (r : Fin 8192) (q : Fin 128), j = ix2 r q := ⟨j 0, j 1, eq_ix2 j⟩
  show k0_pay1 (iblk m c 0 t) (iblk m c 1 t) (iblk m c 2 t) (iblk m c 3 t) (ix2 r q)
    = packed (m ((c : Thread nD τ).loc main_arg0)) (m ((c : Thread nD τ).loc main_arg1)) (((cfg0.win 4).blk t).view.emb (ix2 r q))
  refine (KerBody.pay_apply (iblk m c 0 t) (iblk m c 1 t) (iblk m c 2 t) (iblk m c 3 t) (blk3 m c t) r q).trans ?_
  rw [blk0, blk1, blk2, emb4]
  exact entry_eq _ _ _ q

/-- An index of the output array is in point t's block iff its row is in the block's range. -/
theorem mem_blk (t : Fin cfg0.N) (i : S1048576x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v73).slice (win0_4.rect t)).set ↔ _
  rw [View.set_slice_whole, Rect.mem_set_unit]
  exact Iff.rfl

/-- The 128 row blocks tile the array: row n lies in the block of point n / 8192. -/
theorem cover (i : S1048576x128.Idx) : ∃ t : Fin cfg0.N, (cfg0.win 4).flush t = true ∧ i ∈ ((cfg0.win 4).blk t).view.set := by
  have hi0 : (i 0).val < 1048576 := idx2_lt0 i
  have hi1 : (i 1).val < 128 := idx2_lt1 i
  have hN : cfg0.N = 128 := N_0
  let t : Fin cfg0.N := ⟨(i 0).val / 8192, by rw [hN]; omega⟩
  obtain ⟨-, -, -, -, -, -, -, -, e0, e1⟩ := idx_facts t
  refine ⟨t, flush0_4 t, ?_⟩
  rw [mem_blk]
  intro a
  match a with
  | ⟨0, _⟩ => show win0_4.index t (0 : Fin 2) * 8192 ≤ (i 0).val ∧ (i 0).val < win0_4.index t (0 : Fin 2) * 8192 + 8192
              have ht : t.val = (i 0).val / 8192 := rfl
              omega
  | ⟨1, _⟩ => show win0_4.index t (1 : Fin 2) * 128 ≤ (i 1).val ∧ (i 1).val < win0_4.index t (1 : Fin 2) * 128 + 128; omega

/-- THE OUTPUT ARRAY after the region is the packed result. -/
theorem final (c : Dev nD) :
    (dats m 0 c).arrAt 4 cfg0.N = packed (m ((c : Thread nD τ).loc main_arg0)) (m ((c : Thread nD τ).loc main_arg1)) :=
  (dats m 0 c).arrAt_eq_of_cover 4 _ (fun t _ => flushed_eq m c t) cover

/-- Unpacking two points per row gives back the reference's result. -/
theorem unpack (x : FVec Ideal ⟨1, ![2097152]⟩ .f32) (tb : FVec Ideal ⟨3, ![16, 524288, 4]⟩ .f32) :
    (fun i => shapeCast S2097152x64 (packed x tb) Gen.shapeCasts_S1048576x128_S2097152x64 i) = Cert.ReferenceIdeal.Fn.out x tb := by
  funext i
  obtain ⟨b, j, rfl⟩ : ∃ (b : Fin 2097152) (j : Fin 64), i = ix2 b j := ⟨i 0, i 1, eq_ix2 i⟩
  rw [Cert.LibLayout.reshape_Hx128_Bx64]
  unfold packed
  refine congrArg _ (congrArg₂ ix2 (Fin.ext ?_) (Fin.ext ?_))
  · show 2 * (b.val / 2) + (b.val % 2 * 64 + j.val) / 64 = b.val; omega
  · show (b.val % 2 * 64 + j.val) % 64 = j.val; omega

/-- The kernel program's run: it terminates with its result at the reference's term of the arguments, the arguments unchanged. -/
theorem run : θ_run defs (onTc (τ := τ) (main (F := Ideal))) ⟨m, fun _ => 0, ρ⟩ fun r => ∀ c : Dev nD,
      r.2.mem ((c.tc : Thread nD τ).loc main_v74)
        = (Cert.ReferenceIdeal.Fn.out (F := Ideal) (m ((c.tc : Thread nD τ).loc main_arg0)) (m ((c.tc : Thread nD τ).loc main_arg1)) :
            Buf (Elt Ideal) ((c.tc : Thread nD τ).loc main_v74))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rw [final m c]; exact unpack _ _), (h c).2⟩)
    (KerTail.run_tail m ρ)

end Cert.KernelIdeal.KerValue

end
-- ==== Proof.RefRun.lean ====
/-
  The reference program's run, written as a straight line.

  @main of the reference is one hundred statements, three of them calls of module-local functions
  (@clip once, @remainder twice, and @remainder itself calls @_where). A call in StableHLO means the
  callee's body executed on the operands, so with the bodies substituted at their call sites @main is
  a straight line of 144 host operations, each writing one buffer of its own. This file lists those
  operations in program order (`ops`), shows @main equal to the sequence of them (`main_eq`), and reads the
  run back from the library's theorem on straight lines (`run_seq`): every weakly fair execution terminates
  with each buffer at the fold of the operations over the launch contents (`after ops`). No operation writes
  an argument buffer, so both arguments end as launched.
-/
import proofs.«138267_j19645180412085_2_alg».proof.ReferenceIdeal
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Facts₀ Facts

variable {F : FTy → Type} [FloatOps F] [Facts]

/-- @main's 144 operations in program order, the calls' bodies substituted at their call sites: @clip's six over the record `main_call0`, @remainder's twenty-one (its call of @_where the fifth) over `main_call1` and again over `main_call2`. -/
abbrev ops : List (HloOp τ sig (Elt F)) :=
  [ StableHlo.nullary main_c (fun i => lit0 (S16.rowMajor i)),
    StableHlo.nullary main_v0 (iotaInDim S16 32 0),
    StableHlo.nullary main_cst (constant S_ .f32 0x00000000#32),
    StableHlo.nullary main_cst_0 (constant S_ .f32 0x3F800000#32),
    StableHlo.TRef.unary (.of main_cst : StableHlo.TRef sig ⟨S_, .f32⟩) main_call0.v0 id,
    StableHlo.TRef.unary main_call0.v0 main_call0.v1 (broadcastInDim S2097152 ![] bcast_S_S2097152),
    StableHlo.TRef.binary main_call0.v1 (.of main_arg0 : StableHlo.TRef sig ⟨S2097152, .f32⟩) main_call0.v2 maximumf,
    StableHlo.TRef.unary (.of main_cst_0 : StableHlo.TRef sig ⟨S_, .f32⟩) main_call0.v3 id,
    StableHlo.TRef.unary main_call0.v3 main_call0.v4 (broadcastInDim S2097152 ![] bcast_S_S2097152),
    StableHlo.TRef.binary main_call0.v4 main_call0.v2 main_call0.v5 minimumf,
    StableHlo.unary main_v1 main_v2 (broadcastInDim S1x2097152 ![1] bcast_S2097152_S1x2097152_1 : (⟨S2097152, .f32⟩ : BufTy).Contents (Elt F) → (⟨S1x2097152, .f32⟩ : BufTy).Contents (Elt F)),
    StableHlo.nullary main_c_1 (constantI S_ 32 1#32),
    StableHlo.unary main_c_1 main_v3 (broadcastInDim S16 ![] bcast_S_S16 : (⟨S_, .i32⟩ : BufTy).Contents (Elt F) → (⟨S16, .i32⟩ : BufTy).Contents (Elt F)),
    StableHlo.binary main_c main_v3 main_v4 (subi : (⟨S16, .i32⟩ : BufTy).Contents (Elt F) → (⟨S16, .i32⟩ : BufTy).Contents (Elt F) → (⟨S16, .i32⟩ : BufTy).Contents (Elt F)),
    StableHlo.unary main_v4 main_v5 (sitofp .f32 : (⟨S16, .i32⟩ : BufTy).Contents (Elt F) → (⟨S16, .f32⟩ : BufTy).Contents (Elt F)),
    StableHlo.unary main_v5 main_v6 (broadcastInDim S16x1 ![0] bcast_S16_S16x1_0 : (⟨S16, .f32⟩ : BufTy).Contents (Elt F) → (⟨S16x1, .f32⟩ : BufTy).Contents (Elt F)),
    StableHlo.unary main_v2 main_v7 (broadcastInDim S16x2097152 ![0, 1] bcast_S1x2097152_S16x2097152_0_1 : (⟨S1x2097152, .f32⟩ : BufTy).Contents (Elt F) → (⟨S16x2097152, .f32⟩ : BufTy).Contents (Elt F)),
    StableHlo.unary main_v6 main_v8 (broadcastInDim S16x2097152 ![0, 1] bcast_S16x1_S16x2097152_0_1 : (⟨S16x1, .f32⟩ : BufTy).Contents (Elt F) → (⟨S16x2097152, .f32⟩ : BufTy).Contents (Elt F)),
    StableHlo.binary main_v7 main_v8 main_v9 (mulf : (⟨S16x2097152, .f32⟩ : BufTy).Contents (Elt F) → (⟨S16x2097152, .f32⟩ : BufTy).Contents (Elt F) → (⟨S16x2097152, .f32⟩ : BufTy).Contents (Elt F)),
    StableHlo.unary main_v9 main_v10 (Host.floor : (⟨S16x2097152, .f32⟩ : BufTy).Contents (Elt F) → (⟨S16x2097152, .f32⟩ : BufTy).Contents (Elt F)),
    StableHlo.unary main_v10 main_v11 (fptosi 32 : (⟨S16x2097152, .f32⟩ : BufTy).Contents (Elt F) → (⟨S16x2097152, .i32⟩ : BufTy).Contents (Elt F)),
    StableHlo.nullary main_c_2 (constantI S_ 32 1#32),
    StableHlo.unary main_c_2 main_v12 (broadcastInDim S16x2097152 ![] bcast_S_S16x2097152 : (⟨S_, .i32⟩ : BufTy).Contents (Elt F) → (⟨S16x2097152, .i32⟩ : BufTy).Contents (Elt F)),
    StableHlo.binary main_v11 main_v12 main_v13 (addi : (⟨S16x2097152, .i32⟩ : BufTy).Contents (Elt F) → (⟨S16x2097152, .i32⟩ : BufTy).Contents (Elt F) → (⟨S16x2097152, .i32⟩ : BufTy).Contents (Elt F)),
    StableHlo.nullary main_c_3 (constantI S_ 32 1#32),
    StableHlo.unary main_c_3 main_v14 (broadcastInDim S16 ![] bcast_S_S16 : (⟨S_, .i32⟩ : BufTy).Contents (Elt F) → (⟨S16, .i32⟩ : BufTy).Contents (Elt F)),
    StableHlo.binary main_c main_v14 main_v15 (subi : (⟨S16, .i32⟩ : BufTy).Contents (Elt F) → (⟨S16, .i32⟩ : BufTy).Contents (Elt F) → (⟨S16, .i32⟩ : BufTy).Contents (Elt F)),
    StableHlo.unary main_v15 main_v16 (broadcastInDim S16x1 ![0] bcast_S16_S16x1_0 : (⟨S16, .i32⟩ : BufTy).Contents (Elt F) → (⟨S16x1, .i32⟩ : BufTy).Contents (Elt F)),
    StableHlo.unary main_v16 main_v17 (broadcastInDim S16x2097152 ![0, 1] bcast_S16x1_S16x2097152_0_1 : (⟨S16x1, .i32⟩ : BufTy).Contents (Elt F) → (⟨S16x2097152, .i32⟩ : BufTy).Contents (Elt F)),
    StableHlo.binary main_v13 main_v17 main_v18 (minsi : (⟨S16x2097152, .i32⟩ : BufTy).Contents (Elt F) → (⟨S16x2097152, .i32⟩ : BufTy).Contents (Elt F) → (⟨S16x2097152, .i32⟩ : BufTy).Contents (Elt F)),
    StableHlo.unary main_v11 main_v19 (sitofp .f32 : (⟨S16x2097152, .i32⟩ : BufTy).Contents (Elt F) → (⟨S16x2097152, .f32⟩ : BufTy).Contents (Elt F)),
    StableHlo.binary main_v9 main_v19 main_v20 (subf : (⟨S16x2097152, .f32⟩ : BufTy).Contents (Elt F) → (⟨S16x2097152, .f32⟩ : BufTy).Contents (Elt F) → (⟨S16x2097152, .f32⟩ : BufTy).Contents (Elt F)),
    StableHlo.unary main_v20 main_v21 (broadcastInDim S16x2097152x1 ![0, 1] bcast_S16x2097152_S16x2097152x1_0_1 : (⟨S16x2097152, .f32⟩ : BufTy).Contents (Elt F) → (⟨S16x2097152x1, .f32⟩ : BufTy).Contents (Elt F)),
    StableHlo.nullary main_c_4 (constantI S_ 32 73856093#32),
    StableHlo.unary main_c_4 main_v22 (broadcastInDim S16x2097152 ![] bcast_S_S16x2097152 : (⟨S_, .i32⟩ : BufTy).Contents (Elt F) → (⟨S16x2097152, .i32⟩ : BufTy).Contents (Elt F)),
    StableHlo.binary main_v11 main_v22 main_v23 (muli : (⟨S16x2097152, .i32⟩ : BufTy).Contents (Elt F) → (⟨S16x2097152, .i32⟩ : BufTy).Contents (Elt F) → (⟨S16x2097152, .i32⟩ : BufTy).Contents (Elt F)),
    StableHlo.unary main_v0 main_v24 (broadcastInDim S16x1 ![0] bcast_S16_S16x1_0 : (⟨S16, .i32⟩ : BufTy).Contents (Elt F) → (⟨S16x1, .i32⟩ : BufTy).Contents (Elt F)),
    StableHlo.nullary main_c_5 (constantI S_ 32 19349663#32),
    StableHlo.unary main_c_5 main_v25 (broadcastInDim S16x1 ![] bcast_S_S16x1 : (⟨S_, .i32⟩ : BufTy).Contents (Elt F) → (⟨S16x1, .i32⟩ : BufTy).Contents (Elt F)),
    StableHlo.binary main_v24 main_v25 main_v26 (muli : (⟨S16x1, .i32⟩ : BufTy).Contents (Elt F) → (⟨S16x1, .i32⟩ : BufTy).Contents (Elt F) → (⟨S16x1, .i32⟩ : BufTy).Contents (Elt F)),
    StableHlo.unary main_v26 main_v27 (broadcastInDim S16x2097152 ![0, 1] bcast_S16x1_S16x2097152_0_1 : (⟨S16x1, .i32⟩ : BufTy).Contents (Elt F) → (⟨S16x2097152, .i32⟩ : BufTy).Contents (Elt F)),
    StableHlo.binary main_v23 main_v27 main_v28 (xori : (⟨S16x2097152, .i32⟩ : BufTy).Contents (Elt F) → (⟨S16x2097152, .i32⟩ : BufTy).Contents (Elt F) → (⟨S16x2097152, .i32⟩ : BufTy).Contents (Elt F)),
    StableHlo.nullary main_c_6 (constantI S_ 32 524288#32),
    StableHlo.TRef.unary (.of main_c_6 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S16x2097152 ![] bcast_S_S16x2097152),
    StableHlo.TRef.binary (.of main_v28 : StableHlo.TRef sig ⟨S16x2097152, .i32⟩) main_call1.v3 main_call1.v4 Host.remsi,
    StableHlo.TRef.nullary main_call1.c_1 (constantI S_ 32 0#32),
    StableHlo.TRef.unary main_call1.c_1 main_call1.v5 (broadcastInDim S16x2097152 ![] bcast_S_S16x2097152),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S16x2097152 ![] bcast_S_S16x2097152),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S16x2097152 ![] bcast_S_S16x2097152),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S16x2097152 ![] bcast_S_S16x2097152),
    StableHlo.TRef.binary main_call1.v4 main_call1.v13 main_call1.v14 addi,
    StableHlo.TRef.ternary main_call1.v12 main_call1.v14 main_call1.v4 main_call1.v15 select,
    StableHlo.nullary main_c_7 (constantI S_ 32 73856093#32),
    StableHlo.unary main_c_7 main_v30 (broadcastInDim S16x2097152 ![] bcast_S_S16x2097152 : (⟨S_, .i32⟩ : BufTy).Contents (Elt F) → (⟨S16x2097152, .i32⟩ : BufTy).Contents (Elt F)),
    StableHlo.binary main_v18 main_v30 main_v31 (muli : (⟨S16x2097152, .i32⟩ : BufTy).Contents (Elt F) → (⟨S16x2097152, .i32⟩ : BufTy).Contents (Elt F) → (⟨S16x2097152, .i32⟩ : BufTy).Contents (Elt F)),
    StableHlo.unary main_v0 main_v32 (broadcastInDim S16x1 ![0] bcast_S16_S16x1_0 : (⟨S16, .i32⟩ : BufTy).Contents (Elt F) → (⟨S16x1, .i32⟩ : BufTy).Contents (Elt F)),
    StableHlo.nullary main_c_8 (constantI S_ 32 19349663#32),
    StableHlo.unary main_c_8 main_v33 (broadcastInDim S16x1 ![] bcast_S_S16x1 : (⟨S_, .i32⟩ : BufTy).Contents (Elt F) → (⟨S16x1, .i32⟩ : BufTy).Contents (Elt F)),
    StableHlo.binary main_v32 main_v33 main_v34 (muli : (⟨S16x1, .i32⟩ : BufTy).Contents (Elt F) → (⟨S16x1, .i32⟩ : BufTy).Contents (Elt F) → (⟨S16x1, .i32⟩ : BufTy).Contents (Elt F)),
    StableHlo.unary main_v34 main_v35 (broadcastInDim S16x2097152 ![0, 1] bcast_S16x1_S16x2097152_0_1 : (⟨S16x1, .i32⟩ : BufTy).Contents (Elt F) → (⟨S16x2097152, .i32⟩ : BufTy).Contents (Elt F)),
    StableHlo.binary main_v31 main_v35 main_v36 (xori : (⟨S16x2097152, .i32⟩ : BufTy).Contents (Elt F) → (⟨S16x2097152, .i32⟩ : BufTy).Contents (Elt F) → (⟨S16x2097152, .i32⟩ : BufTy).Contents (Elt F)),
    StableHlo.nullary main_c_9 (constantI S_ 32 524288#32),
    StableHlo.TRef.unary (.of main_c_9 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16x2097152 ![] bcast_S_S16x2097152),
    StableHlo.TRef.binary (.of main_v36 : StableHlo.TRef sig ⟨S16x2097152, .i32⟩) main_call2.v3 main_call2.v4 Host.remsi,
    StableHlo.TRef.nullary main_call2.c_1 (constantI S_ 32 0#32),
    StableHlo.TRef.unary main_call2.c_1 main_call2.v5 (broadcastInDim S16x2097152 ![] bcast_S_S16x2097152),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x2097152 ![] bcast_S_S16x2097152),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x2097152 ![] bcast_S_S16x2097152),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x2097152 ![] bcast_S_S16x2097152),
    StableHlo.TRef.binary main_call2.v4 main_call2.v13 main_call2.v14 addi,
    StableHlo.TRef.ternary main_call2.v12 main_call2.v14 main_call2.v4 main_call2.v15 select,
    StableHlo.unary main_v0 main_v38 (broadcastInDim S16x1 ![0] bcast_S16_S16x1_0 : (⟨S16, .i32⟩ : BufTy).Contents (Elt F) → (⟨S16x1, .i32⟩ : BufTy).Contents (Elt F)),
    StableHlo.nullary main_c_10 (constantI S_ 32 0#32),
    StableHlo.unary main_c_10 main_v39 (broadcastInDim S16x1 ![] bcast_S_S16x1 : (⟨S_, .i32⟩ : BufTy).Contents (Elt F) → (⟨S16x1, .i32⟩ : BufTy).Contents (Elt F)),
    StableHlo.binary main_v38 main_v39 main_v40 (cmpi .slt : (⟨S16x1, .i32⟩ : BufTy).Contents (Elt F) → (⟨S16x1, .i32⟩ : BufTy).Contents (Elt F) → (⟨S16x1, .i1⟩ : BufTy).Contents (Elt F)),
    StableHlo.nullary main_c_11 (constantI S_ 32 16#32),
    StableHlo.unary main_c_11 main_v41 (broadcastInDim S16x1 ![] bcast_S_S16x1 : (⟨S_, .i32⟩ : BufTy).Contents (Elt F) → (⟨S16x1, .i32⟩ : BufTy).Contents (Elt F)),
    StableHlo.binary main_v38 main_v41 main_v42 (addi : (⟨S16x1, .i32⟩ : BufTy).Contents (Elt F) → (⟨S16x1, .i32⟩ : BufTy).Contents (Elt F) → (⟨S16x1, .i32⟩ : BufTy).Contents (Elt F)),
    StableHlo.ternary main_v40 main_v42 main_v38 main_v43 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_12 (constantI S_ 32 0#32),
    StableHlo.unary main_c_12 main_v44 (broadcastInDim S16x2097152 ![] bcast_S_S16x2097152 : (⟨S_, .i32⟩ : BufTy).Contents (Elt F) → (⟨S16x2097152, .i32⟩ : BufTy).Contents (Elt F)),
    StableHlo.binary main_v29 main_v44 main_v45 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_13 (constantI S_ 32 524288#32),
    StableHlo.unary main_c_13 main_v46 (broadcastInDim S16x2097152 ![] bcast_S_S16x2097152 : (⟨S_, .i32⟩ : BufTy).Contents (Elt F) → (⟨S16x2097152, .i32⟩ : BufTy).Contents (Elt F)),
    StableHlo.binary main_v29 main_v46 main_v47 (addi : (⟨S16x2097152, .i32⟩ : BufTy).Contents (Elt F) → (⟨S16x2097152, .i32⟩ : BufTy).Contents (Elt F) → (⟨S16x2097152, .i32⟩ : BufTy).Contents (Elt F)),
    StableHlo.ternary main_v45 main_v47 main_v29 main_v48 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v43 main_v49 (broadcastInDim S16x2097152 ![0, 1] bcast_S16x1_S16x2097152_0_1 : (⟨S16x1, .i32⟩ : BufTy).Contents (Elt F) → (⟨S16x2097152, .i32⟩ : BufTy).Contents (Elt F)),
    StableHlo.unary main_v49 main_v50 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.unary main_v48 main_v51 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_v50 main_v51 main_v52 ((fun a b => concatenate S16x2097152x2 2 [⟨S16x2097152x1, a⟩, ⟨S16x2097152x1, b⟩] concatenates_S16x2097152x1_S16x2097152x1_S16x2097152x2_d2) : (⟨S16x2097152x1, .i32⟩ : BufTy).Contents (Elt F) → (⟨S16x2097152x1, .i32⟩ : BufTy).Contents (Elt F) → (⟨S16x2097152x2, .i32⟩ : BufTy).Contents (Elt F)),
    StableHlo.binary main_arg1 main_v52 main_v53 ((fun x i => Host.gather gather_S16x524288x4_S16x2097152x2_S16x2097152x4_2_01_n_n_01_2_114 x i) : (⟨S16x524288x4, .f32⟩ : BufTy).Contents (Elt F) → (⟨S16x2097152x2, .i32⟩ : BufTy).Contents (Elt F) → (⟨S16x2097152x4, .f32⟩ : BufTy).Contents (Elt F)),
    StableHlo.nullary main_c_14 (constantI S_ 32 0#32),
    StableHlo.unary main_c_14 main_v54 (broadcastInDim S16x1 ![] bcast_S_S16x1 : (⟨S_, .i32⟩ : BufTy).Contents (Elt F) → (⟨S16x1, .i32⟩ : BufTy).Contents (Elt F)),
    StableHlo.binary main_v38 main_v54 main_v55 (cmpi .slt : (⟨S16x1, .i32⟩ : BufTy).Contents (Elt F) → (⟨S16x1, .i32⟩ : BufTy).Contents (Elt F) → (⟨S16x1, .i1⟩ : BufTy).Contents (Elt F)),
    StableHlo.nullary main_c_15 (constantI S_ 32 16#32),
    StableHlo.unary main_c_15 main_v56 (broadcastInDim S16x1 ![] bcast_S_S16x1 : (⟨S_, .i32⟩ : BufTy).Contents (Elt F) → (⟨S16x1, .i32⟩ : BufTy).Contents (Elt F)),
    StableHlo.binary main_v38 main_v56 main_v57 (addi : (⟨S16x1, .i32⟩ : BufTy).Contents (Elt F) → (⟨S16x1, .i32⟩ : BufTy).Contents (Elt F) → (⟨S16x1, .i32⟩ : BufTy).Contents (Elt F)),
    StableHlo.ternary main_v55 main_v57 main_v38 main_v58 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_16 (constantI S_ 32 0#32),
    StableHlo.unary main_c_16 main_v59 (broadcastInDim S16x2097152 ![] bcast_S_S16x2097152 : (⟨S_, .i32⟩ : BufTy).Contents (Elt F) → (⟨S16x2097152, .i32⟩ : BufTy).Contents (Elt F)),
    StableHlo.binary main_v37 main_v59 main_v60 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_17 (constantI S_ 32 524288#32),
    StableHlo.unary main_c_17 main_v61 (broadcastInDim S16x2097152 ![] bcast_S_S16x2097152 : (⟨S_, .i32⟩ : BufTy).Contents (Elt F) → (⟨S16x2097152, .i32⟩ : BufTy).Contents (Elt F)),
    StableHlo.binary main_v37 main_v61 main_v62 (addi : (⟨S16x2097152, .i32⟩ : BufTy).Contents (Elt F) → (⟨S16x2097152, .i32⟩ : BufTy).Contents (Elt F) → (⟨S16x2097152, .i32⟩ : BufTy).Contents (Elt F)),
    StableHlo.ternary main_v60 main_v62 main_v37 main_v63 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v58 main_v64 (broadcastInDim S16x2097152 ![0, 1] bcast_S16x1_S16x2097152_0_1 : (⟨S16x1, .i32⟩ : BufTy).Contents (Elt F) → (⟨S16x2097152, .i32⟩ : BufTy).Contents (Elt F)),
    StableHlo.unary main_v64 main_v65 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.unary main_v63 main_v66 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_v65 main_v66 main_v67 ((fun a b => concatenate S16x2097152x2 2 [⟨S16x2097152x1, a⟩, ⟨S16x2097152x1, b⟩] concatenates_S16x2097152x1_S16x2097152x1_S16x2097152x2_d2) : (⟨S16x2097152x1, .i32⟩ : BufTy).Contents (Elt F) → (⟨S16x2097152x1, .i32⟩ : BufTy).Contents (Elt F) → (⟨S16x2097152x2, .i32⟩ : BufTy).Contents (Elt F)),
    StableHlo.binary main_arg1 main_v67 main_v68 ((fun x i => Host.gather gather_S16x524288x4_S16x2097152x2_S16x2097152x4_2_01_n_n_01_2_114 x i) : (⟨S16x524288x4, .f32⟩ : BufTy).Contents (Elt F) → (⟨S16x2097152x2, .i32⟩ : BufTy).Contents (Elt F) → (⟨S16x2097152x4, .f32⟩ : BufTy).Contents (Elt F)),
    StableHlo.nullary main_cst_18 (constant S_ .f32 0x3F800000#32),
    StableHlo.unary main_cst_18 main_v69 (broadcastInDim S16x2097152x1 ![] bcast_S_S16x2097152x1 : (⟨S_, .f32⟩ : BufTy).Contents (Elt F) → (⟨S16x2097152x1, .f32⟩ : BufTy).Contents (Elt F)),
    StableHlo.binary main_v69 main_v21 main_v70 (subf : (⟨S16x2097152x1, .f32⟩ : BufTy).Contents (Elt F) → (⟨S16x2097152x1, .f32⟩ : BufTy).Contents (Elt F) → (⟨S16x2097152x1, .f32⟩ : BufTy).Contents (Elt F)),
    StableHlo.unary main_v70 main_v71 (broadcastInDim S16x2097152x4 ![0, 1, 2] bcast_S16x2097152x1_S16x2097152x4_0_1_2 : (⟨S16x2097152x1, .f32⟩ : BufTy).Contents (Elt F) → (⟨S16x2097152x4, .f32⟩ : BufTy).Contents (Elt F)),
    StableHlo.binary main_v53 main_v71 main_v72 (mulf : (⟨S16x2097152x4, .f32⟩ : BufTy).Contents (Elt F) → (⟨S16x2097152x4, .f32⟩ : BufTy).Contents (Elt F) → (⟨S16x2097152x4, .f32⟩ : BufTy).Contents (Elt F)),
    StableHlo.unary main_v21 main_v73 (broadcastInDim S16x2097152x4 ![0, 1, 2] bcast_S16x2097152x1_S16x2097152x4_0_1_2 : (⟨S16x2097152x1, .f32⟩ : BufTy).Contents (Elt F) → (⟨S16x2097152x4, .f32⟩ : BufTy).Contents (Elt F)),
    StableHlo.binary main_v68 main_v73 main_v74 (mulf : (⟨S16x2097152x4, .f32⟩ : BufTy).Contents (Elt F) → (⟨S16x2097152x4, .f32⟩ : BufTy).Contents (Elt F) → (⟨S16x2097152x4, .f32⟩ : BufTy).Contents (Elt F)),
    StableHlo.binary main_v72 main_v74 main_v75 (addf : (⟨S16x2097152x4, .f32⟩ : BufTy).Contents (Elt F) → (⟨S16x2097152x4, .f32⟩ : BufTy).Contents (Elt F) → (⟨S16x2097152x4, .f32⟩ : BufTy).Contents (Elt F)),
    StableHlo.unary main_v75 main_v76 ((transpose S2097152x16x4 [1, 0, 2] · transposes_S16x2097152x4_S2097152x16x4_1_0_2) : (⟨S16x2097152x4, .f32⟩ : BufTy).Contents (Elt F) → (⟨S2097152x16x4, .f32⟩ : BufTy).Contents (Elt F)),
    StableHlo.reshape main_v76 main_v77 rfl shapeCasts_S2097152x16x4_S2097152x64 ]

set_option maxRecDepth 8192 in
set_option maxHeartbeats 4000000 in
/-- @main is that straight line: the two windows and the functions' definitions unfolded at their calls, the
    calls' records at their fields, both sides are one chain of host steps once sequencing is reassociated. -/
theorem main_eq (c : Dev nD) : main (F := F) c = seq ops := by
  simp only [main, main_part0, main_part1, fn_clip.body, fn_where.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub ..,
    binary_bufs_sub .., unary_bufs_sub .., unary_bufs_sub .., binary_bufs_sub .., unary_bufs_sub .., nullary_bufs_sub ..,
    unary_bufs_sub .., binary_bufs_sub .., unary_bufs_sub .., unary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., unary_bufs_sub .., binary_bufs_sub ..,
    unary_bufs_sub .., binary_bufs_sub .., unary_bufs_sub .., nullary_bufs_sub .., unary_bufs_sub .., binary_bufs_sub ..,
    unary_bufs_sub .., nullary_bufs_sub .., unary_bufs_sub .., binary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., unary_bufs_sub .., nullary_bufs_sub .., unary_bufs_sub .., binary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., unary_bufs_sub .., reshape_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- No operation writes the argument buffer `main_arg0`: it ends as launched. -/
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- No operation writes the argument buffer `main_arg1`: it ends as launched. -/
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

end Cert.ReferenceIdeal.Run

end
-- ==== Proof.RefOut.lean ====
/-
  The reference's result as the named composed function of its two arguments.

  The fold of the reference's 144 host operations over any buffer contents, read at the result buffer, is the
  composition of the operations' functions along the data flow: the clipped coordinate scaled to each level's
  grid, its floor and the clamped neighbour, the two hashed table rows, the two gathered embeddings and their
  linear interpolation by the fractional part, transposed so that the point axis comes first and the sixteen
  levels' four features lie side by side. That composition is `Fn.out`; the two agree by computation, every
  intermediate buffer being written once and read at the value its operation computed.
-/
import proofs.«138267_j19645180412085_2_alg».proof.Proof.RefRun
import proofs.«138267_j19645180412085_2_alg».proof.Proof.RefFun

noncomputable section

namespace Cert.ReferenceIdeal.Run

open Cert.ReferenceIdeal Idealize.ShloMosaic Idealize.ShloMosaic.TcCoe Idealize.SL.Sem Idealize.ShloMosaic.StableHlo
open Facts₀ Facts

variable {F : FTy → Type} [FloatOps F] [Facts]

/-- The first stretch: the constants, the clipped coordinate, the scaled position, its floor, the clamped neighbour and the interpolation weight (through `main_v21`). -/
abbrev s1 : List (HloOp τ sig (Elt F)) :=
  [ StableHlo.nullary main_c (fun i => lit0 (S16.rowMajor i)),
    StableHlo.nullary main_v0 (iotaInDim S16 32 0),
    StableHlo.nullary main_cst (constant S_ .f32 0x00000000#32),
    StableHlo.nullary main_cst_0 (constant S_ .f32 0x3F800000#32),
    StableHlo.TRef.unary (.of main_cst : StableHlo.TRef sig ⟨S_, .f32⟩) main_call0.v0 id,
    StableHlo.TRef.unary main_call0.v0 main_call0.v1 (broadcastInDim S2097152 ![] bcast_S_S2097152),
    StableHlo.TRef.binary main_call0.v1 (.of main_arg0 : StableHlo.TRef sig ⟨S2097152, .f32⟩) main_call0.v2 maximumf,
    StableHlo.TRef.unary (.of main_cst_0 : StableHlo.TRef sig ⟨S_, .f32⟩) main_call0.v3 id,
    StableHlo.TRef.unary main_call0.v3 main_call0.v4 (broadcastInDim S2097152 ![] bcast_S_S2097152),
    StableHlo.TRef.binary main_call0.v4 main_call0.v2 main_call0.v5 minimumf,
    StableHlo.unary main_v1 main_v2 (broadcastInDim S1x2097152 ![1] bcast_S2097152_S1x2097152_1 : (⟨S2097152, .f32⟩ : BufTy).Contents (Elt F) → (⟨S1x2097152, .f32⟩ : BufTy).Contents (Elt F)),
    StableHlo.nullary main_c_1 (constantI S_ 32 1#32),
    StableHlo.unary main_c_1 main_v3 (broadcastInDim S16 ![] bcast_S_S16 : (⟨S_, .i32⟩ : BufTy).Contents (Elt F) → (⟨S16, .i32⟩ : BufTy).Contents (Elt F)),
    StableHlo.binary main_c main_v3 main_v4 (subi : (⟨S16, .i32⟩ : BufTy).Contents (Elt F) → (⟨S16, .i32⟩ : BufTy).Contents (Elt F) → (⟨S16, .i32⟩ : BufTy).Contents (Elt F)),
    StableHlo.unary main_v4 main_v5 (sitofp .f32 : (⟨S16, .i32⟩ : BufTy).Contents (Elt F) → (⟨S16, .f32⟩ : BufTy).Contents (Elt F)),
    StableHlo.unary main_v5 main_v6 (broadcastInDim S16x1 ![0] bcast_S16_S16x1_0 : (⟨S16, .f32⟩ : BufTy).Contents (Elt F) → (⟨S16x1, .f32⟩ : BufTy).Contents (Elt F)),
    StableHlo.unary main_v2 main_v7 (broadcastInDim S16x2097152 ![0, 1] bcast_S1x2097152_S16x2097152_0_1 : (⟨S1x2097152, .f32⟩ : BufTy).Contents (Elt F) → (⟨S16x2097152, .f32⟩ : BufTy).Contents (Elt F)),
    StableHlo.unary main_v6 main_v8 (broadcastInDim S16x2097152 ![0, 1] bcast_S16x1_S16x2097152_0_1 : (⟨S16x1, .f32⟩ : BufTy).Contents (Elt F) → (⟨S16x2097152, .f32⟩ : BufTy).Contents (Elt F)),
    StableHlo.binary main_v7 main_v8 main_v9 (mulf : (⟨S16x2097152, .f32⟩ : BufTy).Contents (Elt F) → (⟨S16x2097152, .f32⟩ : BufTy).Contents (Elt F) → (⟨S16x2097152, .f32⟩ : BufTy).Contents (Elt F)),
    StableHlo.unary main_v9 main_v10 (Host.floor : (⟨S16x2097152, .f32⟩ : BufTy).Contents (Elt F) → (⟨S16x2097152, .f32⟩ : BufTy).Contents (Elt F)),
    StableHlo.unary main_v10 main_v11 (fptosi 32 : (⟨S16x2097152, .f32⟩ : BufTy).Contents (Elt F) → (⟨S16x2097152, .i32⟩ : BufTy).Contents (Elt F)),
    StableHlo.nullary main_c_2 (constantI S_ 32 1#32),
    StableHlo.unary main_c_2 main_v12 (broadcastInDim S16x2097152 ![] bcast_S_S16x2097152 : (⟨S_, .i32⟩ : BufTy).Contents (Elt F) → (⟨S16x2097152, .i32⟩ : BufTy).Contents (Elt F)),
    StableHlo.binary main_v11 main_v12 main_v13 (addi : (⟨S16x2097152, .i32⟩ : BufTy).Contents (Elt F) → (⟨S16x2097152, .i32⟩ : BufTy).Contents (Elt F) → (⟨S16x2097152, .i32⟩ : BufTy).Contents (Elt F)),
    StableHlo.nullary main_c_3 (constantI S_ 32 1#32),
    StableHlo.unary main_c_3 main_v14 (broadcastInDim S16 ![] bcast_S_S16 : (⟨S_, .i32⟩ : BufTy).Contents (Elt F) → (⟨S16, .i32⟩ : BufTy).Contents (Elt F)),
    StableHlo.binary main_c main_v14 main_v15 (subi : (⟨S16, .i32⟩ : BufTy).Contents (Elt F) → (⟨S16, .i32⟩ : BufTy).Contents (Elt F) → (⟨S16, .i32⟩ : BufTy).Contents (Elt F)),
    StableHlo.unary main_v15 main_v16 (broadcastInDim S16x1 ![0] bcast_S16_S16x1_0 : (⟨S16, .i32⟩ : BufTy).Contents (Elt F) → (⟨S16x1, .i32⟩ : BufTy).Contents (Elt F)),
    StableHlo.unary main_v16 main_v17 (broadcastInDim S16x2097152 ![0, 1] bcast_S16x1_S16x2097152_0_1 : (⟨S16x1, .i32⟩ : BufTy).Contents (Elt F) → (⟨S16x2097152, .i32⟩ : BufTy).Contents (Elt F)),
    StableHlo.binary main_v13 main_v17 main_v18 (minsi : (⟨S16x2097152, .i32⟩ : BufTy).Contents (Elt F) → (⟨S16x2097152, .i32⟩ : BufTy).Contents (Elt F) → (⟨S16x2097152, .i32⟩ : BufTy).Contents (Elt F)),
    StableHlo.unary main_v11 main_v19 (sitofp .f32 : (⟨S16x2097152, .i32⟩ : BufTy).Contents (Elt F) → (⟨S16x2097152, .f32⟩ : BufTy).Contents (Elt F)),
    StableHlo.binary main_v9 main_v19 main_v20 (subf : (⟨S16x2097152, .f32⟩ : BufTy).Contents (Elt F) → (⟨S16x2097152, .f32⟩ : BufTy).Contents (Elt F) → (⟨S16x2097152, .f32⟩ : BufTy).Contents (Elt F)),
    StableHlo.unary main_v20 main_v21 (broadcastInDim S16x2097152x1 ![0, 1] bcast_S16x2097152_S16x2097152x1_0_1 : (⟨S16x2097152, .f32⟩ : BufTy).Contents (Elt F) → (⟨S16x2097152x1, .f32⟩ : BufTy).Contents (Elt F)) ]

/-- The second stretch: the hash of the cell index, and the table size (through `main_c_6`). -/
abbrev s2 : List (HloOp τ sig (Elt F)) :=
  [ StableHlo.nullary main_c_4 (constantI S_ 32 73856093#32),
    StableHlo.unary main_c_4 main_v22 (broadcastInDim S16x2097152 ![] bcast_S_S16x2097152 : (⟨S_, .i32⟩ : BufTy).Contents (Elt F) → (⟨S16x2097152, .i32⟩ : BufTy).Contents (Elt F)),
    StableHlo.binary main_v11 main_v22 main_v23 (muli : (⟨S16x2097152, .i32⟩ : BufTy).Contents (Elt F) → (⟨S16x2097152, .i32⟩ : BufTy).Contents (Elt F) → (⟨S16x2097152, .i32⟩ : BufTy).Contents (Elt F)),
    StableHlo.unary main_v0 main_v24 (broadcastInDim S16x1 ![0] bcast_S16_S16x1_0 : (⟨S16, .i32⟩ : BufTy).Contents (Elt F) → (⟨S16x1, .i32⟩ : BufTy).Contents (Elt F)),
    StableHlo.nullary main_c_5 (constantI S_ 32 19349663#32),
    StableHlo.unary main_c_5 main_v25 (broadcastInDim S16x1 ![] bcast_S_S16x1 : (⟨S_, .i32⟩ : BufTy).Contents (Elt F) → (⟨S16x1, .i32⟩ : BufTy).Contents (Elt F)),
    StableHlo.binary main_v24 main_v25 main_v26 (muli : (⟨S16x1, .i32⟩ : BufTy).Contents (Elt F) → (⟨S16x1, .i32⟩ : BufTy).Contents (Elt F) → (⟨S16x1, .i32⟩ : BufTy).Contents (Elt F)),
    StableHlo.unary main_v26 main_v27 (broadcastInDim S16x2097152 ![0, 1] bcast_S16x1_S16x2097152_0_1 : (⟨S16x1, .i32⟩ : BufTy).Contents (Elt F) → (⟨S16x2097152, .i32⟩ : BufTy).Contents (Elt F)),
    StableHlo.binary main_v23 main_v27 main_v28 (xori : (⟨S16x2097152, .i32⟩ : BufTy).Contents (Elt F) → (⟨S16x2097152, .i32⟩ : BufTy).Contents (Elt F) → (⟨S16x2097152, .i32⟩ : BufTy).Contents (Elt F)),
    StableHlo.nullary main_c_6 (constantI S_ 32 524288#32) ]

/-- The third stretch: the floored modulo of the first hash by the table size (through `main_v29`). -/
abbrev s3 : List (HloOp τ sig (Elt F)) :=
  [ StableHlo.TRef.unary (.of main_c_6 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S16x2097152 ![] bcast_S_S16x2097152),
    StableHlo.TRef.binary (.of main_v28 : StableHlo.TRef sig ⟨S16x2097152, .i32⟩) main_call1.v3 main_call1.v4 Host.remsi,
    StableHlo.TRef.nullary main_call1.c_1 (constantI S_ 32 0#32),
    StableHlo.TRef.unary main_call1.c_1 main_call1.v5 (broadcastInDim S16x2097152 ![] bcast_S_S16x2097152),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S16x2097152 ![] bcast_S_S16x2097152),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S16x2097152 ![] bcast_S_S16x2097152),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S16x2097152 ![] bcast_S_S16x2097152),
    StableHlo.TRef.binary main_call1.v4 main_call1.v13 main_call1.v14 addi,
    StableHlo.TRef.ternary main_call1.v12 main_call1.v14 main_call1.v4 main_call1.v15 select ]

/-- The fourth stretch: the hash of the neighbour index, and the table size again (through `main_c_9`). -/
abbrev s4 : List (HloOp τ sig (Elt F)) :=
  [ StableHlo.nullary main_c_7 (constantI S_ 32 73856093#32),
    StableHlo.unary main_c_7 main_v30 (broadcastInDim S16x2097152 ![] bcast_S_S16x2097152 : (⟨S_, .i32⟩ : BufTy).Contents (Elt F) → (⟨S16x2097152, .i32⟩ : BufTy).Contents (Elt F)),
    StableHlo.binary main_v18 main_v30 main_v31 (muli : (⟨S16x2097152, .i32⟩ : BufTy).Contents (Elt F) → (⟨S16x2097152, .i32⟩ : BufTy).Contents (Elt F) → (⟨S16x2097152, .i32⟩ : BufTy).Contents (Elt F)),
    StableHlo.unary main_v0 main_v32 (broadcastInDim S16x1 ![0] bcast_S16_S16x1_0 : (⟨S16, .i32⟩ : BufTy).Contents (Elt F) → (⟨S16x1, .i32⟩ : BufTy).Contents (Elt F)),
    StableHlo.nullary main_c_8 (constantI S_ 32 19349663#32),
    StableHlo.unary main_c_8 main_v33 (broadcastInDim S16x1 ![] bcast_S_S16x1 : (⟨S_, .i32⟩ : BufTy).Contents (Elt F) → (⟨S16x1, .i32⟩ : BufTy).Contents (Elt F)),
    StableHlo.binary main_v32 main_v33 main_v34 (muli : (⟨S16x1, .i32⟩ : BufTy).Contents (Elt F) → (⟨S16x1, .i32⟩ : BufTy).Contents (Elt F) → (⟨S16x1, .i32⟩ : BufTy).Contents (Elt F)),
    StableHlo.unary main_v34 main_v35 (broadcastInDim S16x2097152 ![0, 1] bcast_S16x1_S16x2097152_0_1 : (⟨S16x1, .i32⟩ : BufTy).Contents (Elt F) → (⟨S16x2097152, .i32⟩ : BufTy).Contents (Elt F)),
    StableHlo.binary main_v31 main_v35 main_v36 (xori : (⟨S16x2097152, .i32⟩ : BufTy).Contents (Elt F) → (⟨S16x2097152, .i32⟩ : BufTy).Contents (Elt F) → (⟨S16x2097152, .i32⟩ : BufTy).Contents (Elt F)),
    StableHlo.nullary main_c_9 (constantI S_ 32 524288#32) ]

/-- The fifth stretch: the floored modulo of the second hash (through `main_v37`). -/
abbrev s5 : List (HloOp τ sig (Elt F)) :=
  [ StableHlo.TRef.unary (.of main_c_9 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16x2097152 ![] bcast_S_S16x2097152),
    StableHlo.TRef.binary (.of main_v36 : StableHlo.TRef sig ⟨S16x2097152, .i32⟩) main_call2.v3 main_call2.v4 Host.remsi,
    StableHlo.TRef.nullary main_call2.c_1 (constantI S_ 32 0#32),
    StableHlo.TRef.unary main_call2.c_1 main_call2.v5 (broadcastInDim S16x2097152 ![] bcast_S_S16x2097152),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x2097152 ![] bcast_S_S16x2097152),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x2097152 ![] bcast_S_S16x2097152),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x2097152 ![] bcast_S_S16x2097152),
    StableHlo.TRef.binary main_call2.v4 main_call2.v13 main_call2.v14 addi,
    StableHlo.TRef.ternary main_call2.v12 main_call2.v14 main_call2.v4 main_call2.v15 select ]

/-- The sixth stretch: the level numbers, the first start indices and the first lookup (through `main_v53`). -/
abbrev s6 : List (HloOp τ sig (Elt F)) :=
  [ StableHlo.unary main_v0 main_v38 (broadcastInDim S16x1 ![0] bcast_S16_S16x1_0 : (⟨S16, .i32⟩ : BufTy).Contents (Elt F) → (⟨S16x1, .i32⟩ : BufTy).Contents (Elt F)),
    StableHlo.nullary main_c_10 (constantI S_ 32 0#32),
    StableHlo.unary main_c_10 main_v39 (broadcastInDim S16x1 ![] bcast_S_S16x1 : (⟨S_, .i32⟩ : BufTy).Contents (Elt F) → (⟨S16x1, .i32⟩ : BufTy).Contents (Elt F)),
    StableHlo.binary main_v38 main_v39 main_v40 (cmpi .slt : (⟨S16x1, .i32⟩ : BufTy).Contents (Elt F) → (⟨S16x1, .i32⟩ : BufTy).Contents (Elt F) → (⟨S16x1, .i1⟩ : BufTy).Contents (Elt F)),
    StableHlo.nullary main_c_11 (constantI S_ 32 16#32),
    StableHlo.unary main_c_11 main_v41 (broadcastInDim S16x1 ![] bcast_S_S16x1 : (⟨S_, .i32⟩ : BufTy).Contents (Elt F) → (⟨S16x1, .i32⟩ : BufTy).Contents (Elt F)),
    StableHlo.binary main_v38 main_v41 main_v42 (addi : (⟨S16x1, .i32⟩ : BufTy).Contents (Elt F) → (⟨S16x1, .i32⟩ : BufTy).Contents (Elt F) → (⟨S16x1, .i32⟩ : BufTy).Contents (Elt F)),
    StableHlo.ternary main_v40 main_v42 main_v38 main_v43 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_12 (constantI S_ 32 0#32),
    StableHlo.unary main_c_12 main_v44 (broadcastInDim S16x2097152 ![] bcast_S_S16x2097152 : (⟨S_, .i32⟩ : BufTy).Contents (Elt F) → (⟨S16x2097152, .i32⟩ : BufTy).Contents (Elt F)),
    StableHlo.binary main_v29 main_v44 main_v45 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_13 (constantI S_ 32 524288#32),
    StableHlo.unary main_c_13 main_v46 (broadcastInDim S16x2097152 ![] bcast_S_S16x2097152 : (⟨S_, .i32⟩ : BufTy).Contents (Elt F) → (⟨S16x2097152, .i32⟩ : BufTy).Contents (Elt F)),
    StableHlo.binary main_v29 main_v46 main_v47 (addi : (⟨S16x2097152, .i32⟩ : BufTy).Contents (Elt F) → (⟨S16x2097152, .i32⟩ : BufTy).Contents (Elt F) → (⟨S16x2097152, .i32⟩ : BufTy).Contents (Elt F)),
    StableHlo.ternary main_v45 main_v47 main_v29 main_v48 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v43 main_v49 (broadcastInDim S16x2097152 ![0, 1] bcast_S16x1_S16x2097152_0_1 : (⟨S16x1, .i32⟩ : BufTy).Contents (Elt F) → (⟨S16x2097152, .i32⟩ : BufTy).Contents (Elt F)),
    StableHlo.unary main_v49 main_v50 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.unary main_v48 main_v51 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_v50 main_v51 main_v52 ((fun a b => concatenate S16x2097152x2 2 [⟨S16x2097152x1, a⟩, ⟨S16x2097152x1, b⟩] concatenates_S16x2097152x1_S16x2097152x1_S16x2097152x2_d2) : (⟨S16x2097152x1, .i32⟩ : BufTy).Contents (Elt F) → (⟨S16x2097152x1, .i32⟩ : BufTy).Contents (Elt F) → (⟨S16x2097152x2, .i32⟩ : BufTy).Contents (Elt F)),
    StableHlo.binary main_arg1 main_v52 main_v53 ((fun x i => Host.gather gather_S16x524288x4_S16x2097152x2_S16x2097152x4_2_01_n_n_01_2_114 x i) : (⟨S16x524288x4, .f32⟩ : BufTy).Contents (Elt F) → (⟨S16x2097152x2, .i32⟩ : BufTy).Contents (Elt F) → (⟨S16x2097152x4, .f32⟩ : BufTy).Contents (Elt F)) ]

/-- The seventh stretch: the second start indices and the second lookup (through `main_v68`). -/
abbrev s7 : List (HloOp τ sig (Elt F)) :=
  [ StableHlo.nullary main_c_14 (constantI S_ 32 0#32),
    StableHlo.unary main_c_14 main_v54 (broadcastInDim S16x1 ![] bcast_S_S16x1 : (⟨S_, .i32⟩ : BufTy).Contents (Elt F) → (⟨S16x1, .i32⟩ : BufTy).Contents (Elt F)),
    StableHlo.binary main_v38 main_v54 main_v55 (cmpi .slt : (⟨S16x1, .i32⟩ : BufTy).Contents (Elt F) → (⟨S16x1, .i32⟩ : BufTy).Contents (Elt F) → (⟨S16x1, .i1⟩ : BufTy).Contents (Elt F)),
    StableHlo.nullary main_c_15 (constantI S_ 32 16#32),
    StableHlo.unary main_c_15 main_v56 (broadcastInDim S16x1 ![] bcast_S_S16x1 : (⟨S_, .i32⟩ : BufTy).Contents (Elt F) → (⟨S16x1, .i32⟩ : BufTy).Contents (Elt F)),
    StableHlo.binary main_v38 main_v56 main_v57 (addi : (⟨S16x1, .i32⟩ : BufTy).Contents (Elt F) → (⟨S16x1, .i32⟩ : BufTy).Contents (Elt F) → (⟨S16x1, .i32⟩ : BufTy).Contents (Elt F)),
    StableHlo.ternary main_v55 main_v57 main_v38 main_v58 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_16 (constantI S_ 32 0#32),
    StableHlo.unary main_c_16 main_v59 (broadcastInDim S16x2097152 ![] bcast_S_S16x2097152 : (⟨S_, .i32⟩ : BufTy).Contents (Elt F) → (⟨S16x2097152, .i32⟩ : BufTy).Contents (Elt F)),
    StableHlo.binary main_v37 main_v59 main_v60 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_17 (constantI S_ 32 524288#32),
    StableHlo.unary main_c_17 main_v61 (broadcastInDim S16x2097152 ![] bcast_S_S16x2097152 : (⟨S_, .i32⟩ : BufTy).Contents (Elt F) → (⟨S16x2097152, .i32⟩ : BufTy).Contents (Elt F)),
    StableHlo.binary main_v37 main_v61 main_v62 (addi : (⟨S16x2097152, .i32⟩ : BufTy).Contents (Elt F) → (⟨S16x2097152, .i32⟩ : BufTy).Contents (Elt F) → (⟨S16x2097152, .i32⟩ : BufTy).Contents (Elt F)),
    StableHlo.ternary main_v60 main_v62 main_v37 main_v63 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v58 main_v64 (broadcastInDim S16x2097152 ![0, 1] bcast_S16x1_S16x2097152_0_1 : (⟨S16x1, .i32⟩ : BufTy).Contents (Elt F) → (⟨S16x2097152, .i32⟩ : BufTy).Contents (Elt F)),
    StableHlo.unary main_v64 main_v65 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.unary main_v63 main_v66 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_v65 main_v66 main_v67 ((fun a b => concatenate S16x2097152x2 2 [⟨S16x2097152x1, a⟩, ⟨S16x2097152x1, b⟩] concatenates_S16x2097152x1_S16x2097152x1_S16x2097152x2_d2) : (⟨S16x2097152x1, .i32⟩ : BufTy).Contents (Elt F) → (⟨S16x2097152x1, .i32⟩ : BufTy).Contents (Elt F) → (⟨S16x2097152x2, .i32⟩ : BufTy).Contents (Elt F)),
    StableHlo.binary main_arg1 main_v67 main_v68 ((fun x i => Host.gather gather_S16x524288x4_S16x2097152x2_S16x2097152x4_2_01_n_n_01_2_114 x i) : (⟨S16x524288x4, .f32⟩ : BufTy).Contents (Elt F) → (⟨S16x2097152x2, .i32⟩ : BufTy).Contents (Elt F) → (⟨S16x2097152x4, .f32⟩ : BufTy).Contents (Elt F)) ]

/-- The last stretch: the interpolation, the transpose and the reshape (through `main_v77`). -/
abbrev s8 : List (HloOp τ sig (Elt F)) :=
  [ StableHlo.nullary main_cst_18 (constant S_ .f32 0x3F800000#32),
    StableHlo.unary main_cst_18 main_v69 (broadcastInDim S16x2097152x1 ![] bcast_S_S16x2097152x1 : (⟨S_, .f32⟩ : BufTy).Contents (Elt F) → (⟨S16x2097152x1, .f32⟩ : BufTy).Contents (Elt F)),
    StableHlo.binary main_v69 main_v21 main_v70 (subf : (⟨S16x2097152x1, .f32⟩ : BufTy).Contents (Elt F) → (⟨S16x2097152x1, .f32⟩ : BufTy).Contents (Elt F) → (⟨S16x2097152x1, .f32⟩ : BufTy).Contents (Elt F)),
    StableHlo.unary main_v70 main_v71 (broadcastInDim S16x2097152x4 ![0, 1, 2] bcast_S16x2097152x1_S16x2097152x4_0_1_2 : (⟨S16x2097152x1, .f32⟩ : BufTy).Contents (Elt F) → (⟨S16x2097152x4, .f32⟩ : BufTy).Contents (Elt F)),
    StableHlo.binary main_v53 main_v71 main_v72 (mulf : (⟨S16x2097152x4, .f32⟩ : BufTy).Contents (Elt F) → (⟨S16x2097152x4, .f32⟩ : BufTy).Contents (Elt F) → (⟨S16x2097152x4, .f32⟩ : BufTy).Contents (Elt F)),
    StableHlo.unary main_v21 main_v73 (broadcastInDim S16x2097152x4 ![0, 1, 2] bcast_S16x2097152x1_S16x2097152x4_0_1_2 : (⟨S16x2097152x1, .f32⟩ : BufTy).Contents (Elt F) → (⟨S16x2097152x4, .f32⟩ : BufTy).Contents (Elt F)),
    StableHlo.binary main_v68 main_v73 main_v74 (mulf : (⟨S16x2097152x4, .f32⟩ : BufTy).Contents (Elt F) → (⟨S16x2097152x4, .f32⟩ : BufTy).Contents (Elt F) → (⟨S16x2097152x4, .f32⟩ : BufTy).Contents (Elt F)),
    StableHlo.binary main_v72 main_v74 main_v75 (addf : (⟨S16x2097152x4, .f32⟩ : BufTy).Contents (Elt F) → (⟨S16x2097152x4, .f32⟩ : BufTy).Contents (Elt F) → (⟨S16x2097152x4, .f32⟩ : BufTy).Contents (Elt F)),
    StableHlo.unary main_v75 main_v76 ((transpose S2097152x16x4 [1, 0, 2] · transposes_S16x2097152x4_S2097152x16x4_1_0_2) : (⟨S16x2097152x4, .f32⟩ : BufTy).Contents (Elt F) → (⟨S2097152x16x4, .f32⟩ : BufTy).Contents (Elt F)),
    StableHlo.reshape main_v76 main_v77 rfl shapeCasts_S2097152x16x4_S2097152x64 ]

/-- The fold over two stretches run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line is the eight stretches in order. -/
theorem ops_split : (ops : List (HloOp τ sig (Elt F))) = s1 ++ (s2 ++ (s3 ++ (s4 ++ (s5 ++ (s6 ++ (s7 ++ s8)))))) := rfl

/-- Rewrites each operation's result at its own buffer to its function's value and at any other buffer to what
    was there, also under the operands of a concatenation. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A buffer that no operation of a stretch writes keeps its contents. -/
local macro "keeps" seg:ident : tactic =>
  `(tactic| exact after_of_forall_not_mem _ _ (List.forall_iff_forall_mem.mp (by
      simp only [$seg:ident, List.Forall, nullary_writes, unary_writes, binary_writes, ternary_writes, reshape_writes, Finset.mem_singleton]
      repeat' apply And.intro
      all_goals exact devRef_ne_of_ne (by decide))))

/-- A stretch's fold at one of its result buffers, as the composed function of the contents it started from. -/
local macro "reads" seg:ident : tactic =>
  `(tactic| (simp only [$seg:ident]; after_results_simp; try results_rw; all_goals rfl))

/-! ## The first stretch -/

set_option maxRecDepth 8192 in
set_option maxHeartbeats 4000000 in
theorem s1_v0 (W : Valuation τ sig (Elt F)) : after s1 W (main_v0 : DevRef τ sig) = iotaInDim S16 32 0 := by reads s1
set_option maxRecDepth 8192 in
set_option maxHeartbeats 4000000 in
theorem s1_v11 (W : Valuation τ sig (Elt F)) : after s1 W (main_v11 : DevRef τ sig) = Fn.i0 (W (main_arg0 : DevRef τ sig)) := by reads s1
set_option maxRecDepth 8192 in
set_option maxHeartbeats 4000000 in
theorem s1_v18 (W : Valuation τ sig (Elt F)) : after s1 W (main_v18 : DevRef τ sig) = Fn.i1 (W (main_arg0 : DevRef τ sig)) := by reads s1
set_option maxRecDepth 8192 in
set_option maxHeartbeats 4000000 in
theorem s1_v21 (W : Valuation τ sig (Elt F)) : after s1 W (main_v21 : DevRef τ sig) = Fn.w3 (W (main_arg0 : DevRef τ sig)) := by reads s1
theorem s1_keeps_arg1 (W : Valuation τ sig (Elt F)) : after s1 W (main_arg1 : DevRef τ sig) = W (main_arg1 : DevRef τ sig) := by keeps s1

/-! ## The two hashes and the two floored modulos -/

set_option maxRecDepth 8192 in
set_option maxHeartbeats 4000000 in
theorem s2_v28 (W : Valuation τ sig (Elt F)) (h0 : W (main_v0 : DevRef τ sig) = iotaInDim S16 32 0) :
    after s2 W (main_v28 : DevRef τ sig) = Fn.hsh (W (main_v11 : DevRef τ sig)) := by
  simp only [s2]; after_results_simp
  rw [h0]; rfl
set_option maxRecDepth 8192 in
set_option maxHeartbeats 4000000 in
theorem s2_c6 (W : Valuation τ sig (Elt F)) : after s2 W (main_c_6 : DevRef τ sig) = constantI S_ 32 524288#32 := by reads s2
theorem s2_keeps_v0 (W : Valuation τ sig (Elt F)) : after s2 W (main_v0 : DevRef τ sig) = W (main_v0 : DevRef τ sig) := by keeps s2
theorem s2_keeps_v18 (W : Valuation τ sig (Elt F)) : after s2 W (main_v18 : DevRef τ sig) = W (main_v18 : DevRef τ sig) := by keeps s2
theorem s2_keeps_v21 (W : Valuation τ sig (Elt F)) : after s2 W (main_v21 : DevRef τ sig) = W (main_v21 : DevRef τ sig) := by keeps s2
theorem s2_keeps_arg1 (W : Valuation τ sig (Elt F)) : after s2 W (main_arg1 : DevRef τ sig) = W (main_arg1 : DevRef τ sig) := by keeps s2

set_option maxRecDepth 8192 in
set_option maxHeartbeats 4000000 in
theorem s3_v29 (W : Valuation τ sig (Elt F)) (hc : W (main_c_6 : DevRef τ sig) = constantI S_ 32 524288#32) :
    after s3 W (main_v29 : DevRef τ sig) = Fn.md (W (main_v28 : DevRef τ sig)) := by
  simp only [s3]; after_results_simp
  rw [hc]; rfl
theorem s3_keeps_v0 (W : Valuation τ sig (Elt F)) : after s3 W (main_v0 : DevRef τ sig) = W (main_v0 : DevRef τ sig) := by keeps s3
theorem s3_keeps_v18 (W : Valuation τ sig (Elt F)) : after s3 W (main_v18 : DevRef τ sig) = W (main_v18 : DevRef τ sig) := by keeps s3
theorem s3_keeps_v21 (W : Valuation τ sig (Elt F)) : after s3 W (main_v21 : DevRef τ sig) = W (main_v21 : DevRef τ sig) := by keeps s3
theorem s3_keeps_arg1 (W : Valuation τ sig (Elt F)) : after s3 W (main_arg1 : DevRef τ sig) = W (main_arg1 : DevRef τ sig) := by keeps s3

set_option maxRecDepth 8192 in
set_option maxHeartbeats 4000000 in
theorem s4_v36 (W : Valuation τ sig (Elt F)) (h0 : W (main_v0 : DevRef τ sig) = iotaInDim S16 32 0) :
    after s4 W (main_v36 : DevRef τ sig) = Fn.hsh (W (main_v18 : DevRef τ sig)) := by
  simp only [s4]; after_results_simp
  rw [h0]; rfl
set_option maxRecDepth 8192 in
set_option maxHeartbeats 4000000 in
theorem s4_c9 (W : Valuation τ sig (Elt F)) : after s4 W (main_c_9 : DevRef τ sig) = constantI S_ 32 524288#32 := by reads s4
theorem s4_keeps_v0 (W : Valuation τ sig (Elt F)) : after s4 W (main_v0 : DevRef τ sig) = W (main_v0 : DevRef τ sig) := by keeps s4
theorem s4_keeps_v29 (W : Valuation τ sig (Elt F)) : after s4 W (main_v29 : DevRef τ sig) = W (main_v29 : DevRef τ sig) := by keeps s4
theorem s4_keeps_v21 (W : Valuation τ sig (Elt F)) : after s4 W (main_v21 : DevRef τ sig) = W (main_v21 : DevRef τ sig) := by keeps s4
theorem s4_keeps_arg1 (W : Valuation τ sig (Elt F)) : after s4 W (main_arg1 : DevRef τ sig) = W (main_arg1 : DevRef τ sig) := by keeps s4

set_option maxRecDepth 8192 in
set_option maxHeartbeats 4000000 in
theorem s5_v37 (W : Valuation τ sig (Elt F)) (hc : W (main_c_9 : DevRef τ sig) = constantI S_ 32 524288#32) :
    after s5 W (main_v37 : DevRef τ sig) = Fn.md (W (main_v36 : DevRef τ sig)) := by
  simp only [s5]; after_results_simp
  rw [hc]; rfl
theorem s5_keeps_v0 (W : Valuation τ sig (Elt F)) : after s5 W (main_v0 : DevRef τ sig) = W (main_v0 : DevRef τ sig) := by keeps s5
theorem s5_keeps_v29 (W : Valuation τ sig (Elt F)) : after s5 W (main_v29 : DevRef τ sig) = W (main_v29 : DevRef τ sig) := by keeps s5
theorem s5_keeps_v21 (W : Valuation τ sig (Elt F)) : after s5 W (main_v21 : DevRef τ sig) = W (main_v21 : DevRef τ sig) := by keeps s5
theorem s5_keeps_arg1 (W : Valuation τ sig (Elt F)) : after s5 W (main_arg1 : DevRef τ sig) = W (main_arg1 : DevRef τ sig) := by keeps s5

/-! ## The two lookups -/

set_option maxRecDepth 8192 in
set_option maxHeartbeats 4000000 in
theorem s6_v38 (W : Valuation τ sig (Elt F)) (h0 : W (main_v0 : DevRef τ sig) = iotaInDim S16 32 0) :
    after s6 W (main_v38 : DevRef τ sig) = Fn.lv := by
  simp only [s6]; after_results_simp
  rw [h0]; rfl
set_option maxRecDepth 8192 in
set_option maxHeartbeats 4000000 in
theorem s6_v53 (W : Valuation τ sig (Elt F)) (h0 : W (main_v0 : DevRef τ sig) = iotaInDim S16 32 0) :
    after s6 W (main_v53 : DevRef τ sig) = Fn.emb (W (main_arg1 : DevRef τ sig)) (Fn.nrm (W (main_v29 : DevRef τ sig))) := by
  simp only [s6]; after_results_simp; results_rw
  rw [h0]; rfl
theorem s6_keeps_v37 (W : Valuation τ sig (Elt F)) : after s6 W (main_v37 : DevRef τ sig) = W (main_v37 : DevRef τ sig) := by keeps s6
theorem s6_keeps_v21 (W : Valuation τ sig (Elt F)) : after s6 W (main_v21 : DevRef τ sig) = W (main_v21 : DevRef τ sig) := by keeps s6
theorem s6_keeps_arg1 (W : Valuation τ sig (Elt F)) : after s6 W (main_arg1 : DevRef τ sig) = W (main_arg1 : DevRef τ sig) := by keeps s6

set_option maxRecDepth 8192 in
set_option maxHeartbeats 4000000 in
theorem s7_v68 (W : Valuation τ sig (Elt F)) (h38 : W (main_v38 : DevRef τ sig) = Fn.lv) :
    after s7 W (main_v68 : DevRef τ sig) = Fn.emb (W (main_arg1 : DevRef τ sig)) (Fn.nrm (W (main_v37 : DevRef τ sig))) := by
  simp only [s7]; after_results_simp; results_rw
  rw [h38]; rfl
theorem s7_keeps_v53 (W : Valuation τ sig (Elt F)) : after s7 W (main_v53 : DevRef τ sig) = W (main_v53 : DevRef τ sig) := by keeps s7
theorem s7_keeps_v21 (W : Valuation τ sig (Elt F)) : after s7 W (main_v21 : DevRef τ sig) = W (main_v21 : DevRef τ sig) := by keeps s7

/-! ## The last stretch -/

/-- The interpolation of two looked-up embeddings by the weight, the point axis moved first and the levels' features
    laid side by side. -/
def fin (e0 e1 : FVec F S16x2097152x4 .f32) (w3 : FVec F S16x2097152x1 .f32) : FVec F S2097152x64 .f32 :=
  shapeCast S2097152x64 (transpose S2097152x16x4 [1, 0, 2]
    (addf
      (mulf e0 (broadcastInDim S16x2097152x4 ![0, 1, 2] bcast_S16x2097152x1_S16x2097152x4_0_1_2
        (subf (broadcastInDim S16x2097152x1 ![] bcast_S_S16x2097152x1 (constant S_ .f32 0x3F800000#32)) w3)))
      (mulf e1 (broadcastInDim S16x2097152x4 ![0, 1, 2] bcast_S16x2097152x1_S16x2097152x4_0_1_2 w3)))
    transposes_S16x2097152x4_S2097152x16x4_1_0_2) shapeCasts_S2097152x16x4_S2097152x64

theorem out_fin (x : FVec F S2097152 .f32) (tb : FVec F S16x524288x4 .f32) :
    Fn.out x tb = fin (Fn.emb tb (Fn.h0 x)) (Fn.emb tb (Fn.h1 x)) (Fn.w3 x) := rfl

set_option maxRecDepth 8192 in
set_option maxHeartbeats 4000000 in
theorem s8_v77 (W : Valuation τ sig (Elt F)) :
    after s8 W (main_v77 : DevRef τ sig) = fin (W (main_v53 : DevRef τ sig)) (W (main_v68 : DevRef τ sig)) (W (main_v21 : DevRef τ sig)) := by reads s8

/-! ## The whole line -/

set_option maxRecDepth 8192 in
set_option maxHeartbeats 4000000 in
/-- The fold of the reference's operations, read at the result buffer, is the named composed function of the two
    arguments' contents: stretch by stretch, each buffer a later stretch reads holding the term the earlier one
    computed, or what it held before when no operation in between writes it. -/
theorem out_eq (V : Valuation τ sig (Elt F)) :
    after ops V (main_v77 : DevRef τ sig) = Fn.out (V (main_arg0 : DevRef τ sig)) (V (main_arg1 : DevRef τ sig)) := by
  have e : after ops V = after s8 (after s7 (after s6 (after s5 (after s4 (after s3 (after s2 (after s1 V))))))) := by
    rw [ops_split]; simp only [after_app]
  -- the level numbers' source stays put
  have i1 : (after s1 V) (main_v0 : DevRef τ sig) = iotaInDim S16 32 0 := s1_v0 V
  have i2 : (after s2 (after s1 V)) (main_v0 : DevRef τ sig) = iotaInDim S16 32 0 := (s2_keeps_v0 _).trans i1
  have i3 : (after s3 (after s2 (after s1 V))) (main_v0 : DevRef τ sig) = iotaInDim S16 32 0 := (s3_keeps_v0 _).trans i2
  have i4 : (after s4 (after s3 (after s2 (after s1 V)))) (main_v0 : DevRef τ sig) = iotaInDim S16 32 0 := (s4_keeps_v0 _).trans i3
  have i5 : (after s5 (after s4 (after s3 (after s2 (after s1 V))))) (main_v0 : DevRef τ sig) = iotaInDim S16 32 0 := (s5_keeps_v0 _).trans i4
  -- the tables
  have t1 : (after s1 V) (main_arg1 : DevRef τ sig) = (V (main_arg1 : DevRef τ sig)) := s1_keeps_arg1 V
  have t2 : (after s2 (after s1 V)) (main_arg1 : DevRef τ sig) = (V (main_arg1 : DevRef τ sig)) := (s2_keeps_arg1 _).trans t1
  have t3 : (after s3 (after s2 (after s1 V))) (main_arg1 : DevRef τ sig) = (V (main_arg1 : DevRef τ sig)) := (s3_keeps_arg1 _).trans t2
  have t4 : (after s4 (after s3 (after s2 (after s1 V)))) (main_arg1 : DevRef τ sig) = (V (main_arg1 : DevRef τ sig)) := (s4_keeps_arg1 _).trans t3
  have t5 : (after s5 (after s4 (after s3 (after s2 (after s1 V))))) (main_arg1 : DevRef τ sig) = (V (main_arg1 : DevRef τ sig)) := (s5_keeps_arg1 _).trans t4
  have t6 : (after s6 (after s5 (after s4 (after s3 (after s2 (after s1 V)))))) (main_arg1 : DevRef τ sig) = (V (main_arg1 : DevRef τ sig)) := (s6_keeps_arg1 _).trans t5
  -- the weight
  have w1 : (after s1 V) (main_v21 : DevRef τ sig) = Fn.w3 (V (main_arg0 : DevRef τ sig)) := s1_v21 V
  have w2 : (after s2 (after s1 V)) (main_v21 : DevRef τ sig) = Fn.w3 (V (main_arg0 : DevRef τ sig)) := (s2_keeps_v21 _).trans w1
  have w3 : (after s3 (after s2 (after s1 V))) (main_v21 : DevRef τ sig) = Fn.w3 (V (main_arg0 : DevRef τ sig)) := (s3_keeps_v21 _).trans w2
  have w4 : (after s4 (after s3 (after s2 (after s1 V)))) (main_v21 : DevRef τ sig) = Fn.w3 (V (main_arg0 : DevRef τ sig)) := (s4_keeps_v21 _).trans w3
  have w5 : (after s5 (after s4 (after s3 (after s2 (after s1 V))))) (main_v21 : DevRef τ sig) = Fn.w3 (V (main_arg0 : DevRef τ sig)) := (s5_keeps_v21 _).trans w4
  have w6 : (after s6 (after s5 (after s4 (after s3 (after s2 (after s1 V)))))) (main_v21 : DevRef τ sig) = Fn.w3 (V (main_arg0 : DevRef τ sig)) := (s6_keeps_v21 _).trans w5
  have w7 : (after s7 (after s6 (after s5 (after s4 (after s3 (after s2 (after s1 V))))))) (main_v21 : DevRef τ sig) = Fn.w3 (V (main_arg0 : DevRef τ sig)) := (s7_keeps_v21 _).trans w6
  -- the cell's table row
  have a2 : (after s2 (after s1 V)) (main_v28 : DevRef τ sig) = Fn.hsh (Fn.i0 (V (main_arg0 : DevRef τ sig))) :=
    (s2_v28 (after s1 V) i1).trans (congrArg Fn.hsh (s1_v11 V))
  have p3 : (after s3 (after s2 (after s1 V))) (main_v29 : DevRef τ sig) = Fn.md (Fn.hsh (Fn.i0 (V (main_arg0 : DevRef τ sig)))) :=
    (s3_v29 (after s2 (after s1 V)) (s2_c6 (after s1 V))).trans (congrArg Fn.md a2)
  have p4 : (after s4 (after s3 (after s2 (after s1 V)))) (main_v29 : DevRef τ sig) = Fn.md (Fn.hsh (Fn.i0 (V (main_arg0 : DevRef τ sig)))) := (s4_keeps_v29 _).trans p3
  have p5 : (after s5 (after s4 (after s3 (after s2 (after s1 V))))) (main_v29 : DevRef τ sig) = Fn.md (Fn.hsh (Fn.i0 (V (main_arg0 : DevRef τ sig)))) := (s5_keeps_v29 _).trans p4
  -- the neighbour's table row
  have n2 : (after s2 (after s1 V)) (main_v18 : DevRef τ sig) = Fn.i1 (V (main_arg0 : DevRef τ sig)) := (s2_keeps_v18 _).trans (s1_v18 V)
  have n3 : (after s3 (after s2 (after s1 V))) (main_v18 : DevRef τ sig) = Fn.i1 (V (main_arg0 : DevRef τ sig)) := (s3_keeps_v18 _).trans n2
  have b4 : (after s4 (after s3 (after s2 (after s1 V)))) (main_v36 : DevRef τ sig) = Fn.hsh (Fn.i1 (V (main_arg0 : DevRef τ sig))) :=
    (s4_v36 (after s3 (after s2 (after s1 V))) i3).trans (congrArg Fn.hsh n3)
  have q5 : (after s5 (after s4 (after s3 (after s2 (after s1 V))))) (main_v37 : DevRef τ sig) = Fn.md (Fn.hsh (Fn.i1 (V (main_arg0 : DevRef τ sig)))) :=
    (s5_v37 (after s4 (after s3 (after s2 (after s1 V)))) (s4_c9 (after s3 (after s2 (after s1 V))))).trans (congrArg Fn.md b4)
  have q6 : (after s6 (after s5 (after s4 (after s3 (after s2 (after s1 V)))))) (main_v37 : DevRef τ sig) = Fn.md (Fn.hsh (Fn.i1 (V (main_arg0 : DevRef τ sig)))) := (s6_keeps_v37 _).trans q5
  -- the two lookups
  have l6 : (after s6 (after s5 (after s4 (after s3 (after s2 (after s1 V)))))) (main_v38 : DevRef τ sig) = Fn.lv := s6_v38 (after s5 (after s4 (after s3 (after s2 (after s1 V))))) i5
  have e6 : (after s6 (after s5 (after s4 (after s3 (after s2 (after s1 V)))))) (main_v53 : DevRef τ sig) = Fn.emb (V (main_arg1 : DevRef τ sig)) (Fn.h0 (V (main_arg0 : DevRef τ sig))) :=
    (s6_v53 (after s5 (after s4 (after s3 (after s2 (after s1 V))))) i5).trans (by rw [t5, p5]; rfl)
  have e7 : (after s7 (after s6 (after s5 (after s4 (after s3 (after s2 (after s1 V))))))) (main_v53 : DevRef τ sig) = Fn.emb (V (main_arg1 : DevRef τ sig)) (Fn.h0 (V (main_arg0 : DevRef τ sig))) := (s7_keeps_v53 _).trans e6
  have f7 : (after s7 (after s6 (after s5 (after s4 (after s3 (after s2 (after s1 V))))))) (main_v68 : DevRef τ sig) = Fn.emb (V (main_arg1 : DevRef τ sig)) (Fn.h1 (V (main_arg0 : DevRef τ sig))) :=
    (s7_v68 (after s6 (after s5 (after s4 (after s3 (after s2 (after s1 V)))))) l6).trans (by rw [t6, q6]; rfl)
  rw [e, s8_v77 (after s7 (after s6 (after s5 (after s4 (after s3 (after s2 (after s1 V))))))), e7, f7, w7, out_fin]

/-- At the compiled mesh, for any float values, from any memory with zero counters: every weakly fair execution of
    @main on the TensorCores terminates with the result buffer at the named composed function of the arguments'
    launch contents, and the arguments as launched. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
          = Fn.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v77).trans (out_eq (launchContents m c)),
      (h c main_arg0).trans (arg0_eq (launchContents m c)),
      (h c main_arg1).trans (arg1_eq (launchContents m c))⟩)
    (run_main m ρ)

end Cert.ReferenceIdeal.Run

end
-- ==== Proof.lean ====
/-
  A multiresolution hash-grid embedding lookup: for each of 2097152 points x and 16 levels, the scaled position
  t = clip(x, 0, 1)·(res − 1), the cell i0 = floor t and its clamped right neighbour i1, the weight w = t − i0, the rows
  hash(i0), hash(i1) of the level's table, and the interpolated embedding e0·(1 − w) + e1·w, four features per level,
  sixteen levels side by side per point.

  The kernel program computes positions, hashes and the two lookups on the host with points along the first axis and
  levels along the second, packs two points per 128-lane row, and interpolates in a Pallas kernel that spreads each
  packed weight over its four feature lanes by a product with a constant 0/1 selection matrix; the reference computes
  the same arithmetic with levels first and points second, then transposes. At the ideal instance the two agree:
  every host stage is a pointwise function of the clipped coordinate and a per-level constant, so the kernel's stage at
  (point, level) is the reference's at (level, point); the selection product Σ_k w_k·s_kq is the one selected weight,
  because x·0 = 0 and x·1 = x for every extended real x and a sum with one nonzero term is that term (no finiteness of
  the inputs is needed); and the packing reshapes are inverse re-indexings. The common value is the reference's own
  composed term of the two arguments. The ideal pass rewrote nothing, so there is nothing to preserve; the three
  frames are the kernel programs' frame runs and the reference's run.
-/
import proofs.«138267_j19645180412085_2_alg».proof.Defs
import proofs.«138267_j19645180412085_2_alg».proof.Proof.Gen.Kernel
import proofs.«138267_j19645180412085_2_alg».proof.Proof.Gen.Kernel.Skeleton
import proofs.«138267_j19645180412085_2_alg».proof.Proof.Gen.Kernel.Launch
import proofs.«138267_j19645180412085_2_alg».proof.Proof.Gen.Kernel.Points
import proofs.«138267_j19645180412085_2_alg».proof.Proof.Gen.Kernel.Frame
import proofs.«138267_j19645180412085_2_alg».proof.Proof.Gen.KernelIdeal
import proofs.«138267_j19645180412085_2_alg».proof.Proof.Gen.KernelIdeal.Skeleton
import proofs.«138267_j19645180412085_2_alg».proof.Proof.Gen.KernelIdeal.Launch
import proofs.«138267_j19645180412085_2_alg».proof.Proof.Gen.KernelIdeal.Points
import proofs.«138267_j19645180412085_2_alg».proof.Proof.Gen.KernelIdeal.Frame
import proofs.«138267_j19645180412085_2_alg».proof.Proof.Gen.ReferenceIdeal
import proofs.«138267_j19645180412085_2_alg».proof.Proof.Gen.Pre_finite_inputs
import proofs.«138267_j19645180412085_2_alg».proof.Proof.KerValue
import proofs.«138267_j19645180412085_2_alg».proof.Proof.RefOut
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Run.run_out (F := Ideal) m ρ)

/-- Both idealized programs end at the reference's term of the (agreeing) arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Run.run_out (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
